-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S8x2048x1024 .f32) (main_arg1 : FVec F S8x2048x1024 .f32) (main_arg2 : FVec F S1024x1024 .f32) (main_arg3 : FVec F S1024x1024 .f32) (main_arg4 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x2048x1024 : Shape := ⟨3, ![8, 2048, 1024]⟩
abbrev S1024x1024 : Shape := ⟨2, ![1024, 1024]⟩
abbrev S1x512x1024 : Shape := ⟨3, ![1, 512, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S256x1 : Shape := ⟨2, ![256, 1]⟩
abbrev S256x1024 : Shape := ⟨2, ![256, 1024]⟩
abbrev S256x512 : Shape := ⟨2, ![256, 512]⟩
abbrev S256 : Shape := ⟨1, ![256]⟩

abbrev nBuf : Space → Nat
  | .hbm => 15
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S8x2048x1024, .bf16⟩
  | .hbm, ⟨12, _⟩ => ⟨S8x2048x1024, .bf16⟩
  | .hbm, ⟨13, _⟩ => ⟨S8x2048x1024, .bf16⟩
  | .hbm, ⟨14, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S256x1, .f32⟩
  | .local _ .vmem, ⟨24, _⟩ => ⟨S256x1, .f32⟩
  | .local _ .vmem, ⟨25, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![8, 8, 4], ![false, false, false]⟩

def k1_mult1 (i : grid1.Coords) : BitVec 32 :=
  let arg2 : BitVec 32 := BitVec.ofNat 32 (i 2).val
  let c512_i32 : BitVec 32 := 512#32
  let v5 : BitVec 32 := Scalar.muli arg2 c512_i32
  v5
def k1_off1 (i : grid1.Coords) : Fin 3 → Nat :=
  let c0_3 : Index := 0#32
  let arg2 : BitVec 32 := BitVec.ofNat 32 (i 2).val
  let c512_i32 : BitVec 32 := 512#32
  let v5 : BitVec 32 := Scalar.muli arg2 c512_i32
  let v6 : BitVec 32 := v5
  let v7 : Index := Scalar.indexCast v6
  let c0_4 : Index := 0#32
  ![0, v7.toNat, 0]
def k1_cond2 (i : grid1.Coords) : BitVec 1 :=
  let arg2 : BitVec 32 := BitVec.ofNat 32 (i 2).val
  let c3_i32 : BitVec 32 := 3#32
  let v46 : BitVec 1 := Scalar.cmpi .eq arg2 c3_i32
  let v47 : BitVec 32 := Scalar.extui v46
  let c0_i32_25 : BitVec 32 := 0#32
  let v48 : BitVec 1 := Scalar.cmpi .ne v47 c0_i32_25
  v48

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  transposes_S1024x1024_S1024x1024_1_0 : S1024x1024.Transposes [1, 0] S1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x512_S256 : S256x512.Reduces [1] S256
  shapeCasts_S256_S256x1 : S256.ShapeCasts S256x1
  broadcasts_S256x1_S256x512 : S256x1.Broadcasts S256x512
  broadcasts_S256x1_S256x1024 : S256x1.Broadcasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S512x1024_S256x512_1_1_0_0_n_n_wf : DotDims.WF S256x1024 S512x1024 S256x512 [1] [1] [0] [0] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .bf16 = 32 ∨ (Rect.block (s := S8x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S8x2048x1024.size a
  hwx0_6 : ∀ i : grid0.Coords, EltTy.bits .bf16 = 32 ∨ (Rect.block (s := S8x2048x1024) S1x512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S8x2048x1024.size a
  hwx0_7 : ∀ i : grid0.Coords, EltTy.bits .bf16 = 32 ∨ (Rect.block (s := S8x2048x1024) S1x512x1024.size (cc0_transform_7 i) (hinb0_7 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S1x512x1024.size a ≤ S1x2048x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .bf16 = 32 ∨ (Rect.block (s := S8x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S8x2048x1024.size a
  hwx1_3 : ∀ i : grid1.Coords, EltTy.bits .f32 = 32 ∨ (Rect.block (s := S8x2048x1024) S1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S8x2048x1024.size a
  hwx1_4 : ∀ i : grid1.Coords, EltTy.bits .f32 = 32 ∨ (Rect.block (s := S8x2048x1024) S1x256x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6_1) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S_, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x1024, .f32⟩
  | .hbm, ⟨28, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.ProjRegionB.lean ====
/-
  The projection region. Each grid point (b, n) takes rows 512 n .. 512 n + 511 of batch b of the two input
  sequences and the three transposed weight matrices whole, and writes three blocks of the same rows: the query,
  key and value projections. Here: what each output buffer holds after the body as a function of the input
  blocks, the body's triple, and the per-point obligation the launch theorem asks for.
-/
import proofs.«133258_j49804440764736_2_alg».proof.Proof.Gen.Kernel.Launch
import proofs.«133258_j49804440764736_2_alg».proof.Proof.Gen.Kernel.Skeleton
import proofs.«133258_j49804440764736_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every point, fetched
    there or not: an unfetched point has the same block index as the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every point, fetched
    there or not: an unfetched point has the same block index as the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry contents at every point, fetched
    there or not: an unfetched point has the same block index as the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry contents at every point, fetched
    there or not: an unfetched point has the same block index as the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the entry contents at every point, fetched
    there or not: an unfetched point has the same block index as the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole row block, and a whole weight matrix, as rectangles. -/
abbrev rRow : Rect S1x512x1024 := Rect.unit (s := S1x512x1024) ![0, 0, 0] S1x512x1024.size inb_S1x512x1024_S1x512x1024_0_0_0
abbrev rMat : Rect S1024x1024 := Rect.unit (s := S1024x1024) ![0, 0] S1024x1024.size inb_S1024x1024_S1024x1024_0_0

/-- The query output's buffer after the body: one store of the query projection of the first input block. -/
def out0_5 (x0 : Vec F S1x512x1024 .f32) (x2 : Vec F S1024x1024 .bf16) : Vec F S1x512x1024 .bf16 :=
  View.canon [⟨rRow, k0_pay2 (View.ld x0 rRow) (View.ld x2 rMat)⟩]
/-- The key output's buffer after the body: the key projection of the second input block. -/
def out0_6 (x1 : Vec F S1x512x1024 .f32) (x3 : Vec F S1024x1024 .bf16) : Vec F S1x512x1024 .bf16 :=
  View.canon [⟨rRow, k0_pay4 (View.ld x1 rRow) (View.ld x3 rMat)⟩]
/-- The value output's buffer after the body: the value projection of the first input block. -/
def out0_7 (x0 : Vec F S1x512x1024 .f32) (x4 : Vec F S1024x1024 .bf16) : Vec F S1x512x1024 .bf16 :=
  View.canon [⟨rRow, k0_pay3 (View.ld x0 rRow) (View.ld x4 rMat)⟩]

/-- One store of the whole block covers the block. -/
theorem cover0 (p0 : Vec F S1x512x1024 .bf16) (y : S1x512x1024.Idx) :
    ∃ pc ∈ ([⟨rRow, p0⟩] : List (View.Piece (Elt F) S1x512x1024 .bf16)), y ∈ pc.1.set :=
  View.cover_of_tiled [⟨rRow, p0⟩] S1x512x1024.size (by rfl) y

set_option maxHeartbeats 4000000 in
/-- The projection body on whole staging buffers, the inputs at contents x0 .. x4 and the outputs at anything, ends
    with the inputs as they were and the three outputs at the projections of the inputs. -/
theorem sound_kernel0 (c : Dev nD) (E : Set ℕ) (i : grid0.Coords)
    (arg2 : Memref sig .tc .vmem S1x512x1024 .f32) (harg2 : arg2.IsWhole) (arg3 : Memref sig .tc .vmem S1x512x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1x512x1024 .bf16) (harg7 : arg7.IsWhole)
    (arg8 : Memref sig .tc .vmem S1x512x1024 .bf16) (harg8 : arg8.IsWhole) (arg9 : Memref sig .tc .vmem S1x512x1024 .bf16) (harg9 : arg9.IsWhole)
    (x0 x1 : Vec F S1x512x1024 .f32) (x2 x3 x4 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x2) ∗ owns (c : Thread nD τ) arg8 fullShare (out0_6 x1 x3)
            ∗ owns (c : Thread nD τ) arg9 fullShare (out0_7 x0 x4)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-- The projection pipeline's proof data on core c: the arrays as the region finds them; after the body each
    input's buffer at its block and each output's at the projection of the input blocks; nothing kept between
    points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 2 t)
    | ⟨6, _⟩ => out0_6 (iblk0 V c 1 t) (iblk0 V c 3 t)
    | ⟨7, _⟩ => out0_7 (iblk0 V c 0 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 1 t) (iblk0 V c 3 t) := by dsimp only [dat0]
theorem after0_7 (c : Dev nD) (t : Fin cfg0.N) : (dat0 V c).after 7 t = out0_7 (iblk0 V c 0 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.StepsB.lean ====
/-
  The attention body's effect on its three carried buffers, as pure functions of what it loads.

  The body keeps, per key row, a running maximum, a running sum of exponentials and a running weighted sum.
  At the first tile of a row block it resets them to (-∞, 0, 0); at every tile it folds the tile's scores in;
  at the last tile it divides and adds the residual.
-/
import proofs.«133258_j49804440764736_2_alg».proof.Proof.Gen.Kernel.Skeleton

noncomputable section

namespace Cert.Kernel.Hand

open Idealize.ShloMosaic Idealize.SL.Sem Cert.Kernel Cert.Kernel.Gen

variable {F : FTy → Type} [FloatOps F]

/-- The carried buffers: running maximum, running sum, running weighted sum. -/
abbrev St (F : FTy → Type) [FloatOps F] : Type :=
  Vec F S256x1 .f32 × Vec F S256x1 .f32 × Vec F S256x1024 .f32

/-- What the reset writes. -/
def init : St F := (k1_pay4, k1_pay5, k1_pay6)

/-- One tile folded in: kb the key block, qb and vb the tile's query and value rows, s the state found. -/
def step (kb : Vec F S1x256x1024 .bf16) (qb vb : Vec F S1x512x1024 .bf16) (s : St F) : St F :=
  (k1_pay2 (k1_pay9 kb qb s.1), k1_pay12 kb qb s.1 s.1 s.2.1,
    k1_pay1 (k1_pay7 vb) (k1_pay10 kb qb s.1 s.1) (k1_pay11 kb qb s.1) s.2.2)

/-- The last tile's output: the weighted sum over the sum, plus the residual block. -/
def fin (s : St F) (kin : Vec F S1x256x1024 .f32) : Vec F S1x256x1024 .f32 := k1_pay3 s.2.2 s.2.1 kin

end Cert.Kernel.Hand

end
-- ==== Proof.AttnBodyB.lean ====
/-
  The attention region. Grid point (b, m, n) works on key rows 256 m .. 256 m + 255 of batch b and on tile n
  (512 rows) of that batch's query and value projections. Three buffers are carried from tile to tile: the running
  row maximum, the running sum of exponentials and the running weighted sum. At n = 0 they are reset, at every n
  the tile is folded in, at n = 3 the quotient plus the residual block is written to the output block.
  Here: the body's triple in each of the three cases the grid meets, what the carried buffers hold after each
  point (by recursion on the point), and the per-point obligation the launch theorem asks for.
-/
import proofs.«133258_j49804440764736_2_alg».proof.Proof.Gen.Kernel.Launch
import proofs.«133258_j49804440764736_2_alg».proof.Proof.Gen.Kernel.Skeleton
import proofs.«133258_j49804440764736_2_alg».proof.Proof.Gen.Kernel.Points
import proofs.«133258_j49804440764736_2_alg».proof.Proof.StepsB
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry contents at every point, fetched
    there or not: an unfetched point has the same block index as the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the entry contents at every point, fetched
    there or not: an unfetched point has the same block index as the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the entry contents at every point, fetched
    there or not: an unfetched point has the same block index as the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the entry contents at every point, fetched
    there or not: an unfetched point has the same block index as the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, decided over the grid -/

/-- The first branch is taken when the tile coordinate is 0. -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)
/-- The second branch is taken when the tile coordinate is 3. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last tile the output window is idle and its block is not written back. -/
theorem idleAt1_4 : ∀ t : Fin cfg1.N, ¬condLast (grid1.coords t) → cfg1.idle 4 (grid1.coords t) = true := by decide +kernel
theorem noFlush1_4 : ∀ t : Fin cfg1.N, ¬condLast (grid1.coords t) → (cfg1.win 4).flush t = false := by decide +kernel
theorem liveAt1_4 : ∀ t : Fin cfg1.N, condLast (grid1.coords t) → cfg1.idle 4 (grid1.coords t) = false := by decide +kernel

/-! ## The body's accesses -/

/-- The tile of 512 rows the body slices out of the resident query and value blocks. -/
abbrev rTile (i : grid1.Coords) : Rect S1x2048x1024 := Rect.unit (s := S1x2048x1024) (k1_off1 i) S1x512x1024.size (k1_off1_inb i)

theorem hz2 : (![0, 0] : Fin 2 → ℕ) = fun _ => 0 := by funext a; fin_cases a <;> rfl
theorem hz3 : (![0, 0, 0] : Fin 3 → ℕ) = fun _ => 0 := by funext a; fin_cases a <;> rfl

/-- A buffer whose last store went through the whole-shape rectangle reads as that store's payload. -/
theorem read_writes_unit_cons {sg : RefSig} {κ : Kind} {sp : Space} {S : Shape} {e : EltTy} (v : View sg κ sp S e)
    (g : v.ty.Contents (Elt F)) (w : S.Idx → Elt F e) (L : List (View.Piece (Elt F) S e))
    {off : Fin S.rank → Nat} (h : off = fun _ => 0) (inb : ∀ a, off a + S.size a ≤ S.size a) :
    v.read (Elt F) (v.writes (Elt F) g ((⟨Rect.unit off S.size inb, w⟩ : View.Piece (Elt F) S e) :: L)) = w := by
  refine (View.read_writes_eq_canon v g _ fun y => ⟨_, List.mem_cons_self .., ?_⟩).trans (View.canon_cons_unit_zero h inb w L)
  exact View.mem_set_unit_zero h inb y

/-- One tile folded into the state s, from the contents of the key block and of the resident query and value blocks. -/
def stepOf (i : grid1.Coords) (x0 : Vec F S1x256x1024 .bf16) (x1 x2 : Vec F S1x2048x1024 .bf16) (s : St F) : St F :=
  step x0 (View.ld x1 (rTile i)) (View.ld x2 (rTile i)) s

set_option maxHeartbeats 4000000 in
/-- The attention body at a row block's first tile (the carried buffers found at anything and reset), not the last: the output buffer is handed back untouched. The carried buffers
    end at the tile folded into the reset state. -/
theorem sound_attn_A (c : Dev nD) (E : Set ℕ) (i : grid1.Coords) (arg3 : Memref sig .tc .vmem S1x256x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1024 .f32) (harg10 : arg10.IsWhole)
    (hc0 : condFirst i) (hc1 : ¬condLast i)
    (x0 : Vec F S1x256x1024 .bf16) (x1 x2 : Vec F S1x2048x1024 .bf16) (x3 : Vec F S1x256x1024 .f32) (xo : Vec F S1x256x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo
            ∗ owns (c : Thread nD τ) arg8 fullShare (stepOf i x0 x1 x2 init).1 ∗ owns (c : Thread nD τ) arg9 fullShare (stepOf i x0 x1 x2 init).2.1
            ∗ owns (c : Thread nD τ) arg10 fullShare (stepOf i x0 x1 x2 init).2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fo, %hfo, HO⟩, ⟨%e0, %g0, -, S0⟩, ⟨%e1, %g1, -, S1⟩, ⟨%e2, %g2, -, S2⟩, Hk⟩
  subst hf0; subst hf1; subst hf2; subst hf3; subst hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; rfl
    iexact HO
  isplitl [S0]
  · iexists _; isplitr
    swap; · iexact S0
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  isplitl [S1]
  · iexists _; isplitr
    swap; · iexact S1
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  iexists _; isplitr
  swap; · iexact S2
  ipureintro
  refine (read_writes_unit_cons _ _ _ _ hz2 _).trans ?_
  sl_unfold_run_names
  simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
  rfl

set_option maxHeartbeats 4000000 in
/-- The attention body at a later tile (the carried buffers found at s), not the last: the output buffer is handed back untouched. The carried buffers
    end at the tile folded into s. -/
theorem sound_attn_B (c : Dev nD) (E : Set ℕ) (i : grid1.Coords) (arg3 : Memref sig .tc .vmem S1x256x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1024 .f32) (harg10 : arg10.IsWhole)
    (hc0 : ¬condFirst i) (hc1 : ¬condLast i)
    (x0 : Vec F S1x256x1024 .bf16) (x1 x2 : Vec F S1x2048x1024 .bf16) (x3 : Vec F S1x256x1024 .f32) (xo : Vec F S1x256x1024 .f32) (s0 s1 : Vec F S256x1 .f32) (s2 : Vec F S256x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo
            ∗ owns (c : Thread nD τ) arg8 fullShare (stepOf i x0 x1 x2 (s0, s1, s2)).1 ∗ owns (c : Thread nD τ) arg9 fullShare (stepOf i x0 x1 x2 (s0, s1, s2)).2.1
            ∗ owns (c : Thread nD τ) arg10 fullShare (stepOf i x0 x1 x2 (s0, s1, s2)).2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fo, %hfo, HO⟩, ⟨%g0, %hg0, S0⟩, ⟨%g1, %hg1, S1⟩, ⟨%g2, %hg2, S2⟩, Hk⟩
  subst hf0; subst hf1; subst hf2; subst hf3; subst hfo; subst hg0; subst hg1; subst hg2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; rfl
    iexact HO
  isplitl [S0]
  · iexists _; isplitr
    swap; · iexact S0
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  isplitl [S1]
  · iexists _; isplitr
    swap; · iexact S1
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  iexists _; isplitr
  swap; · iexact S2
  ipureintro
  refine (read_writes_unit_cons _ _ _ _ hz2 _).trans ?_
  sl_unfold_run_names
  simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
  rfl

set_option maxHeartbeats 4000000 in
/-- The attention body at a later tile (the carried buffers found at s), the last one: the output block is written. The carried buffers
    end at the tile folded into s. -/
theorem sound_attn_C (c : Dev nD) (E : Set ℕ) (i : grid1.Coords) (arg3 : Memref sig .tc .vmem S1x256x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1024 .f32) (harg10 : arg10.IsWhole)
    (hc0 : ¬condFirst i) (hc1 : condLast i)
    (x0 : Vec F S1x256x1024 .bf16) (x1 x2 : Vec F S1x2048x1024 .bf16) (x3 : Vec F S1x256x1024 .f32) (s0 s1 : Vec F S256x1 .f32) (s2 : Vec F S256x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d)
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (fin (stepOf i x0 x1 x2 (s0, s1, s2)) x3)
            ∗ owns (c : Thread nD τ) arg8 fullShare (stepOf i x0 x1 x2 (s0, s1, s2)).1 ∗ owns (c : Thread nD τ) arg9 fullShare (stepOf i x0 x1 x2 (s0, s1, s2)).2.1
            ∗ owns (c : Thread nD τ) arg10 fullShare (stepOf i x0 x1 x2 (s0, s1, s2)).2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%eo, %fo, -, HO⟩, ⟨%g0, %hg0, S0⟩, ⟨%g1, %hg1, S1⟩, ⟨%g2, %hg2, S2⟩, Hk⟩
  subst hf0; subst hf1; subst hf2; subst hf3; subst hg0; subst hg1; subst hg2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    refine (read_writes_unit_cons _ _ _ _ hz3 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  isplitl [S0]
  · iexists _; isplitr
    swap; · iexact S0
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  isplitl [S1]
  · iexists _; isplitr
    swap; · iexact S1
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  iexists _; isplitr
  swap; · iexact S2
  ipureintro
  refine (read_writes_unit_cons _ _ _ _ hz2 _).trans ?_
  sl_unfold_run_names
  simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
  rfl

end Cert.Kernel.Hand

end
-- ==== Proof.AttnRegionB.lean ====
/-
  The attention region, continued: what the three carried buffers hold after each grid point, the region invariant
  that carries them from point to point, the pipeline's proof data and its per-point obligation.

  Point t has tile coordinate t mod 4. At a point with t mod 4 = 0 the tile is folded into the reset state; at any
  other point into what the point before left.
-/
import proofs.«133258_j49804440764736_2_alg».proof.Proof.AttnBodyB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of point t folded into s: the key block and the resident query and value blocks are the point's. -/
def stepAt (c : Dev nD) (t : Fin cfg1.N) (s : St F) : St F :=
  stepOf (grid1.coords t) (iblk1 V c 0 t) (iblk1 V c 1 t) (iblk1 V c 2 t) s

/-- What the carried buffers hold after point n. -/
def stAt (c : Dev nD) : (n : ℕ) → n < cfg1.N → St F
  | 0, hn => stepAt V c ⟨0, hn⟩ init
  | n + 1, hn => stepAt V c ⟨n + 1, hn⟩ (if (n + 1) % 4 = 0 then init else stAt c n (Nat.lt_of_succ_lt hn))

theorem stAt_first (c : Dev nD) (t : Fin cfg1.N) (h0 : t.val % 4 = 0) : stAt V c t.val t.isLt = stepAt V c t init := by
  obtain ⟨n, hn⟩ := t
  cases n with
  | zero => rfl
  | succ n => exact congrArg (stepAt V c ⟨n + 1, hn⟩) (if_pos h0)

theorem stAt_next (c : Dev nD) (t : Fin cfg1.N) (h0 : ¬t.val % 4 = 0) :
    stAt V c t.val t.isLt = stepAt V c t (stAt V c (t.val - 1) (Nat.lt_of_le_of_lt (Nat.sub_le _ _) t.isLt)) := by
  obtain ⟨n, hn⟩ := t
  cases n with
  | zero => exact absurd (Nat.zero_mod _) h0
  | succ n => exact congrArg (stepAt V c ⟨n + 1, hn⟩) (if_neg h0)

/-- The output block written at a last tile. -/
def outAt (c : Dev nD) (t : Fin cfg1.N) : Vec F S1x256x1024 .f32 := fin (stAt V c t.val t.isLt) (iblk1 V c 3 t)

/-! ## The invariant -/

abbrev scM0 : Memref sig .tc .vmem S256x1 .f32 := Memref.whole cc1_scratch0
abbrev scM1 : Memref sig .tc .vmem S256x1 .f32 := Memref.whole cc1_scratch1
abbrev scM2 : Memref sig .tc .vmem S256x1024 .f32 := Memref.whole cc1_scratch2

/-- The core's scoped buffers other than this pipeline's staging buffers and the three carried ones, at anything. -/
def restBut (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three carried buffers split out. -/
theorem PhiA1_eq (c : Dev nD) :
    (Pipeline.ΦA spec1 c : sProp 𝕄)
      = iprop((((∃ d, owns (c : Thread nD τ) scM0 fullShare d) ∗ (∃ d, owns (c : Thread nD τ) scM1 fullShare d) ∗ (∃ d, owns (c : Thread nD τ) scM2 fullShare d)) ∗ restBut c) ∗ (∃ r, prngReg c r)) := by
  unfold Pipeline.ΦA restBut
  rw [Pipeline.scopedRest_split_of_list spec1 c [cc1_scratch0, cc1_scratch1, cc1_scratch2] (by decide) (by decide)]
  simp only [scM0, scM1, scM2, owns_whole]
  rfl

/-- Before the first point the class invariant; before point n + 1 the carried buffers at what point n left. -/
def PhiS (c : Dev nD) : (n : ℕ) → n ≤ cfg1.N → sProp 𝕄
  | 0, _ => Pipeline.ΦA spec1 c
  | n + 1, hn => iprop(((owns (c : Thread nD τ) scM0 fullShare (stAt V c n hn).1 ∗ owns (c : Thread nD τ) scM1 fullShare (stAt V c n hn).2.1
      ∗ owns (c : Thread nD τ) scM2 fullShare (stAt V c n hn).2.2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) scM0 fullShare (stAt V c n hn).1 ∗ owns (c : Thread nD τ) scM1 fullShare (stAt V c n hn).2.1
      ∗ owns (c : Thread nD τ) scM2 fullShare (stAt V c n hn).2.2) ∗ restBut c) ∗ (∃ r, prngReg c r)) := rfl

theorem PhiS_pos (c : Dev nD) (n : ℕ) (h : n ≤ cfg1.N) (hz : n ≠ 0) :
    PhiS V c n h = iprop(((owns (c : Thread nD τ) scM0 fullShare (stAt V c (n - 1) (by omega)).1 ∗ owns (c : Thread nD τ) scM1 fullShare (stAt V c (n - 1) (by omega)).2.1
      ∗ owns (c : Thread nD τ) scM2 fullShare (stAt V c (n - 1) (by omega)).2.2) ∗ restBut c) ∗ (∃ r, prngReg c r)) := by
  cases n with
  | zero => exact absurd rfl hz
  | succ n => rfl

/-- Whatever the point, the invariant hands over the three carried buffers at SOME contents. -/
theorem PhiS_any (c : Dev nD) (n : ℕ) (h : n ≤ cfg1.N) :
    PhiS V c n h ⊢ iprop((((∃ d, owns (c : Thread nD τ) scM0 fullShare d) ∗ (∃ d, owns (c : Thread nD τ) scM1 fullShare d) ∗ (∃ d, owns (c : Thread nD τ) scM2 fullShare d)) ∗ restBut c) ∗ (∃ r, prngReg c r)) := by
  by_cases hz : n = 0
  · rw [PhiS_zero V c n h hz, PhiA1_eq]
  · rw [PhiS_pos V c n h hz]
    iintro ⟨⟨⟨H0, H1, H2⟩, Hr⟩, Hg⟩
    isplitl [H0 H1 H2 Hr]
    · isplitl [H0 H1 H2]
      · isplitl [H0]; · iexists _; iexact H0
        isplitl [H1]; · iexists _; iexact H1
        iexists _; iexact H2
      iexact Hr
    iexact Hg

/-! ## The proof data -/

/-- The attention pipeline's proof data on core c: the arrays as the region finds them; after the body each input's
    buffer at its block and the output's at the block a last tile writes; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (st1_0 t) fullShare (iblk1 V c 0 t) := by
  unfold Dat.leavesExact; rw [liveAt1_0 t, after1_0]
theorem leaves1_1 (c : Dev nD) (t : Fin cfg1.N) : (dat1 V c).leavesExact 1 t = owns (c : Thread nD τ) (st1_1 t) fullShare (iblk1 V c 1 t) := by
  unfold Dat.leavesExact; rw [liveAt1_1 t, after1_1]
theorem leaves1_2 (c : Dev nD) (t : Fin cfg1.N) : (dat1 V c).leavesExact 2 t = owns (c : Thread nD τ) (st1_2 t) fullShare (iblk1 V c 2 t) := by
  unfold Dat.leavesExact; rw [liveAt1_2 t, after1_2]
theorem leaves1_3 (c : Dev nD) (t : Fin cfg1.N) : (dat1 V c).leavesExact 3 t = owns (c : Thread nD τ) (st1_3 t) fullShare (iblk1 V c 3 t) := by
  unfold Dat.leavesExact; rw [liveAt1_3 t, after1_3]

set_option maxHeartbeats 4000000 in
/-- The body at any point. The tile coordinate decides the case; at a first tile the carried buffers are taken at
    whatever they hold, at a later tile at what the point before left; afterwards they hold this point's state. Off
    the last tile the output buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, PhiS_castSucc V c t]
  have hN : t.val < 256 := lt_of_lt_of_eq t.isLt (show cfg1.N = 256 from N_1)
  by_cases h0 : t.val % 4 = 0
  · -- a first tile
    have h3 : ¬t.val % 4 = 3 := by omega
    have hc0 : condFirst (grid1.coords t) := (hcondFirst t).mpr h0
    have hc1 : ¬condLast (grid1.coords t) := fun h => h3 ((hcondLast t).mp h)
    rw [Dat.leavesExact_idle (dat1 V c) 4 t (idleAt1_4 t hc1) (noFlush1_4 t hc1), stAt_first V c t h0]
    iintro ⟨HΦ, Ho, ⟨%d0, H0⟩, ⟨%d1, H1⟩, ⟨%d2, H2⟩, ⟨%d3, H3⟩, ⟨%d4, H4⟩⟩
    ihave HΦ' := (PhiS_any V c t.val (Nat.le_of_lt t.isLt)) $$ HΦ
    icases HΦ' with ⟨⟨⟨S0, S1, S2⟩, Hr⟩, Hg⟩
    iapply (sound_attn_A c Set.univ (grid1.coords t) _ _ _ _ _ _ _ _ _ _ _ _ _ _ _ _ hc0 hc1 (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    iintro ⟨H0, H1, H2, H3, H4, S0, S1, S2⟩
    isplitl [S0 S1 S2 Hr Hg]
    · isplitl [S0 S1 S2 Hr]
      · isplitl [S0 S1 S2]
        · isplitl [S0]; · iexact S0
          isplitl [S1]; · iexact S1
          iexact S2
        iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬condFirst (grid1.coords t) := fun h => h0 ((hcondFirst t).mp h)
    rw [stAt_next V c t h0, PhiS_pos V c _ _ hz]
    by_cases h3 : t.val % 4 = 3
    · -- a last tile
      have hc1 : condLast (grid1.coords t) := (hcondLast t).mpr h3
      rw [show (dat1 V c).leavesExact 4 t = owns (c : Thread nD τ) (st1_4 t) fullShare ((dat1 V c).after 4 t) from by
        unfold Dat.leavesExact; rw [liveAt1_4 t hc1], after1_4]
      unfold outAt
      rw [stAt_next V c t h0]
      iintro ⟨⟨⟨⟨S0, S1, S2⟩, Hr⟩, Hg⟩, Ho, ⟨%d0, H0⟩, ⟨%d1, H1⟩, ⟨%d2, H2⟩, ⟨%d3, H3⟩, ⟨%d4, H4⟩⟩
      iapply (sound_attn_C c Set.univ (grid1.coords t) _ _ _ _ _ _ _ _ _ _ _ _ _ _ _ _ hc0 hc1 (iblk1 V c 0 t) (iblk1 V c 1 t) (iblk1 V c 2 t) (iblk1 V c 3 t) _ _ _ _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      iintro ⟨H0, H1, H2, H3, H4, S0, S1, S2⟩
      isplitl [S0 S1 S2 Hr Hg]
      · isplitl [S0 S1 S2 Hr]
        · isplitl [S0 S1 S2]
          · isplitl [S0]; · iexact S0
            isplitl [S1]; · iexact S1
            iexact S2
          iexact Hr
        iexact Hg
      isplitl [Ho]; · iexact Ho
      isplitl [H0]; · iexact H0
      isplitl [H1]; · iexact H1
      isplitl [H2]; · iexact H2
      isplitl [H3]; · iexact H3
      iexact H4
    · -- a middle tile
      have hc1 : ¬condLast (grid1.coords t) := fun h => h3 ((hcondLast t).mp h)
      rw [Dat.leavesExact_idle (dat1 V c) 4 t (idleAt1_4 t hc1) (noFlush1_4 t hc1)]
      iintro ⟨⟨⟨⟨S0, S1, S2⟩, Hr⟩, Hg⟩, Ho, ⟨%d0, H0⟩, ⟨%d1, H1⟩, ⟨%d2, H2⟩, ⟨%d3, H3⟩, ⟨%d4, H4⟩⟩
      iapply (sound_attn_B c Set.univ (grid1.coords t) _ _ _ _ _ _ _ _ _ _ _ _ _ _ _ _ hc0 hc1 (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [S0 S1 S2 Hr Hg]
      · isplitl [S0 S1 S2 Hr]
        · isplitl [S0 S1 S2]
          · isplitl [S0]; · iexact S0
            isplitl [S1]; · iexact S1
            iexact S2
          iexact Hr
        iexact Hg
      isplitl [Ho]; · iexact Ho
      isplitl [H0]; · iexact H0
      isplitl [H1]; · iexact H1
      isplitl [H2]; · iexact H2
      isplitl [H3]; · iexact H3
      iexists _; iexact H4

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class invariant back: the carried buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_any V c _ _

end Cert.Kernel.Hand

end
-- ==== Proof.RunB.lean ====
/-
  The whole run. The program is a stretch of host operations (three transposes and three format changes of the
  weight matrices), the projection region, the attention region. Here: what every unscoped buffer holds at each
  boundary between them, each region as a segment of the run, and the run itself: every weakly fair execution
  terminates with every unscoped buffer at the last boundary's contents.
-/
import proofs.«133258_j49804440764736_2_alg».proof.Proof.Gen.Kernel.Regions
import proofs.«133258_j49804440764736_2_alg».proof.Proof.ProjRegionB
import proofs.«133258_j49804440764736_2_alg».proof.Proof.AttnRegionB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers at each boundary -/

/-- At launch. -/
abbrev W0 (c : Dev nD) : Valuation τ sig (Elt F) := fun b => m (c, b)
/-- After the host operations: the projection region's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the projection region: its arrays at what the write-backs leave, the rest untouched. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W1_arg (c : Dev nD) (r : Ref sig .tc) (h : r ∉ hostOps0_W) : W1 m c (Proc.devRef .tc r) = m ((c : Thread nD τ).loc r) :=
  Gen.V1_of m c r h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_arg m c main_arg0 (by decide)
theorem W2_main_arg1 (c : Dev nD) : W2 m c (Proc.devRef .tc main_arg1) = m ((c : Thread nD τ).loc main_arg1) :=
  ((W2_arr m c 1).trans (((dat0 (V1 m) c).arrAt_in 1 rfl _).trans (A_eq0 (V1 m) c 1))).trans (W1_arg m c main_arg1 (by decide))
theorem W3_main_arg1 (c : Dev nD) : W3 m c (Proc.devRef .tc main_arg1) = m ((c : Thread nD τ).loc main_arg1) :=
  ((W3_arr m c 3).trans (((dat1 (V2 m) c).arrAt_in 3 rfl _).trans (A_eq1 (V2 m) c 3))).trans (W2_main_arg1 m c)
theorem W3_main_arg2 (c : Dev nD) : W3 m c (Proc.devRef .tc main_arg2) = m ((c : Thread nD τ).loc main_arg2) :=
  (W3_of_ne m c main_arg2 (by decide)).trans ((W2_of_ne m c main_arg2 (by decide)).trans (W1_arg m c main_arg2 (by decide)))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_arg m c main_arg3 (by decide)))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_arg m c main_arg4 (by decide)))
/-- The result buffer ends at what the attention region's write-backs leave. -/
theorem W3_main_v7 (c : Dev nD) : W3 m c (Proc.devRef .tc main_v7) = (dat1 (V2 m) c).arrAt 4 cfg1.N := W3_arr m c 4

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- Region 0 as a segment: entered with every unscoped buffer at the contents before it, left with the region's
    arrays at what its write-backs leave and every other buffer untouched. The generator register goes into the
    region invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's
    arrays at what its write-backs leave and every other buffer untouched. The generator register goes into the
    region invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the five argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result buffer named too. -/
theorem run_value (ρ : Dev nD → PrngReg) : θ_run defs (onTc (τ := τ) (main (F := F))) ⟨m, fun _ => 0, ρ⟩ (fun r => ∀ c : Dev nD,
      r.2.mem ((c.tc : Thread nD τ).loc main_v7) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v7 (by decide))).trans (W3_main_v7 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Hand

end
-- ==== Proof.ProjRegionI.lean ====
/-
  The projection region. Each grid point (b, n) takes rows 512 n .. 512 n + 511 of batch b of the two input
  sequences and the three transposed weight matrices whole, and writes three blocks of the same rows: the query,
  key and value projections. Here: what each output buffer holds after the body as a function of the input
  blocks, the body's triple, and the per-point obligation the launch theorem asks for.
-/
import proofs.«133258_j49804440764736_2_alg».proof.Proof.Gen.KernelIdeal.Launch
import proofs.«133258_j49804440764736_2_alg».proof.Proof.Gen.KernelIdeal.Skeleton
import proofs.«133258_j49804440764736_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every point, fetched
    there or not: an unfetched point has the same block index as the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every point, fetched
    there or not: an unfetched point has the same block index as the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the entry contents at every point, fetched
    there or not: an unfetched point has the same block index as the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the entry contents at every point, fetched
    there or not: an unfetched point has the same block index as the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the entry contents at every point, fetched
    there or not: an unfetched point has the same block index as the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole row block, and a whole weight matrix, as rectangles. -/
abbrev rRow : Rect S1x512x1024 := Rect.unit (s := S1x512x1024) ![0, 0, 0] S1x512x1024.size inb_S1x512x1024_S1x512x1024_0_0_0
abbrev rMat : Rect S1024x1024 := Rect.unit (s := S1024x1024) ![0, 0] S1024x1024.size inb_S1024x1024_S1024x1024_0_0

/-- The query output's buffer after the body: one store of the query projection of the first input block. -/
def out0_5 (x0 : Vec F S1x512x1024 .f32) (x2 : Vec F S1024x1024 .bf16) : Vec F S1x512x1024 .bf16 :=
  View.canon [⟨rRow, k0_pay2 (View.ld x0 rRow) (View.ld x2 rMat)⟩]
/-- The key output's buffer after the body: the key projection of the second input block. -/
def out0_6 (x1 : Vec F S1x512x1024 .f32) (x3 : Vec F S1024x1024 .bf16) : Vec F S1x512x1024 .bf16 :=
  View.canon [⟨rRow, k0_pay4 (View.ld x1 rRow) (View.ld x3 rMat)⟩]
/-- The value output's buffer after the body: the value projection of the first input block. -/
def out0_7 (x0 : Vec F S1x512x1024 .f32) (x4 : Vec F S1024x1024 .bf16) : Vec F S1x512x1024 .bf16 :=
  View.canon [⟨rRow, k0_pay3 (View.ld x0 rRow) (View.ld x4 rMat)⟩]

/-- One store of the whole block covers the block. -/
theorem cover0 (p0 : Vec F S1x512x1024 .bf16) (y : S1x512x1024.Idx) :
    ∃ pc ∈ ([⟨rRow, p0⟩] : List (View.Piece (Elt F) S1x512x1024 .bf16)), y ∈ pc.1.set :=
  View.cover_of_tiled [⟨rRow, p0⟩] S1x512x1024.size (by rfl) y

set_option maxHeartbeats 4000000 in
/-- The projection body on whole staging buffers, the inputs at contents x0 .. x4 and the outputs at anything, ends
    with the inputs as they were and the three outputs at the projections of the inputs. -/
theorem sound_kernel0 (c : Dev nD) (E : Set ℕ) (i : grid0.Coords)
    (arg2 : Memref sig .tc .vmem S1x512x1024 .f32) (harg2 : arg2.IsWhole) (arg3 : Memref sig .tc .vmem S1x512x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1x512x1024 .bf16) (harg7 : arg7.IsWhole)
    (arg8 : Memref sig .tc .vmem S1x512x1024 .bf16) (harg8 : arg8.IsWhole) (arg9 : Memref sig .tc .vmem S1x512x1024 .bf16) (harg9 : arg9.IsWhole)
    (x0 x1 : Vec F S1x512x1024 .f32) (x2 x3 x4 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x2) ∗ owns (c : Thread nD τ) arg8 fullShare (out0_6 x1 x3)
            ∗ owns (c : Thread nD τ) arg9 fullShare (out0_7 x0 x4)) -∗ K ⟨⟩))
      ⊢ wp frame (wpE (defs₀ (F := F)) Variants.none c none) E (cc0__proj_kernel i arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-- The projection pipeline's proof data on core c: the arrays as the region finds them; after the body each
    input's buffer at its block and each output's at the projection of the input blocks; nothing kept between
    points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 2 t)
    | ⟨6, _⟩ => out0_6 (iblk0 V c 1 t) (iblk0 V c 3 t)
    | ⟨7, _⟩ => out0_7 (iblk0 V c 0 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 1 t) (iblk0 V c 3 t) := by dsimp only [dat0]
theorem after0_7 (c : Dev nD) (t : Fin cfg0.N) : (dat0 V c).after 7 t = out0_7 (iblk0 V c 0 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.StepsI.lean ====
/-
  The attention body's effect on its three carried buffers, as pure functions of what it loads.

  The body keeps, per key row, a running maximum, a running sum of exponentials and a running weighted sum.
  At the first tile of a row block it resets them to (-∞, 0, 0); at every tile it folds the tile's scores in;
  at the last tile it divides and adds the residual.
-/
import proofs.«133258_j49804440764736_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The carried buffers: running maximum, running sum, running weighted sum. -/
abbrev St (F : FTy → Type) [FloatOps F] : Type :=
  Vec F S256x1 .f32 × Vec F S256x1 .f32 × Vec F S256x1024 .f32

/-- What the reset writes. -/
def init : St F := (k1_pay4, k1_pay5, k1_pay6)

/-- One tile folded in: kb the key block, qb and vb the tile's query and value rows, s the state found. -/
def step (kb : Vec F S1x256x1024 .bf16) (qb vb : Vec F S1x512x1024 .bf16) (s : St F) : St F :=
  (k1_pay2 (k1_pay9 kb qb s.1), k1_pay12 kb qb s.1 s.1 s.2.1,
    k1_pay1 (k1_pay7 vb) (k1_pay10 kb qb s.1 s.1) (k1_pay11 kb qb s.1) s.2.2)

/-- The last tile's output: the weighted sum over the sum, plus the residual block. -/
def fin (s : St F) (kin : Vec F S1x256x1024 .f32) : Vec F S1x256x1024 .f32 := k1_pay3 s.2.2 s.2.1 kin

end Cert.KernelIdeal.Hand

end
-- ==== Proof.AttnBodyI.lean ====
/-
  The attention region. Grid point (b, m, n) works on key rows 256 m .. 256 m + 255 of batch b and on tile n
  (512 rows) of that batch's query and value projections. Three buffers are carried from tile to tile: the running
  row maximum, the running sum of exponentials and the running weighted sum. At n = 0 they are reset, at every n
  the tile is folded in, at n = 3 the quotient plus the residual block is written to the output block.
  Here: the body's triple in each of the three cases the grid meets, what the carried buffers hold after each
  point (by recursion on the point), and the per-point obligation the launch theorem asks for.
-/
import proofs.«133258_j49804440764736_2_alg».proof.Proof.Gen.KernelIdeal.Launch
import proofs.«133258_j49804440764736_2_alg».proof.Proof.Gen.KernelIdeal.Skeleton
import proofs.«133258_j49804440764736_2_alg».proof.Proof.Gen.KernelIdeal.Points
import proofs.«133258_j49804440764736_2_alg».proof.Proof.StepsI
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the entry contents at every point, fetched
    there or not: an unfetched point has the same block index as the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the entry contents at every point, fetched
    there or not: an unfetched point has the same block index as the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the entry contents at every point, fetched
    there or not: an unfetched point has the same block index as the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the entry contents at every point, fetched
    there or not: an unfetched point has the same block index as the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, decided over the grid -/

/-- The first branch is taken when the tile coordinate is 0. -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)
/-- The second branch is taken when the tile coordinate is 3. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last tile the output window is idle and its block is not written back. -/
theorem idleAt1_4 : ∀ t : Fin cfg1.N, ¬condLast (grid1.coords t) → cfg1.idle 4 (grid1.coords t) = true := by decide +kernel
theorem noFlush1_4 : ∀ t : Fin cfg1.N, ¬condLast (grid1.coords t) → (cfg1.win 4).flush t = false := by decide +kernel
theorem liveAt1_4 : ∀ t : Fin cfg1.N, condLast (grid1.coords t) → cfg1.idle 4 (grid1.coords t) = false := by decide +kernel

/-! ## The body's accesses -/

/-- The tile of 512 rows the body slices out of the resident query and value blocks. -/
abbrev rTile (i : grid1.Coords) : Rect S1x2048x1024 := Rect.unit (s := S1x2048x1024) (k1_off1 i) S1x512x1024.size (k1_off1_inb i)

theorem hz2 : (![0, 0] : Fin 2 → ℕ) = fun _ => 0 := by funext a; fin_cases a <;> rfl
theorem hz3 : (![0, 0, 0] : Fin 3 → ℕ) = fun _ => 0 := by funext a; fin_cases a <;> rfl

/-- A buffer whose last store went through the whole-shape rectangle reads as that store's payload. -/
theorem read_writes_unit_cons {sg : RefSig} {κ : Kind} {sp : Space} {S : Shape} {e : EltTy} (v : View sg κ sp S e)
    (g : v.ty.Contents (Elt F)) (w : S.Idx → Elt F e) (L : List (View.Piece (Elt F) S e))
    {off : Fin S.rank → Nat} (h : off = fun _ => 0) (inb : ∀ a, off a + S.size a ≤ S.size a) :
    v.read (Elt F) (v.writes (Elt F) g ((⟨Rect.unit off S.size inb, w⟩ : View.Piece (Elt F) S e) :: L)) = w := by
  refine (View.read_writes_eq_canon v g _ fun y => ⟨_, List.mem_cons_self .., ?_⟩).trans (View.canon_cons_unit_zero h inb w L)
  exact View.mem_set_unit_zero h inb y

/-- One tile folded into the state s, from the contents of the key block and of the resident query and value blocks. -/
def stepOf (i : grid1.Coords) (x0 : Vec F S1x256x1024 .bf16) (x1 x2 : Vec F S1x2048x1024 .bf16) (s : St F) : St F :=
  step x0 (View.ld x1 (rTile i)) (View.ld x2 (rTile i)) s

set_option maxHeartbeats 4000000 in
/-- The attention body at a row block's first tile (the carried buffers found at anything and reset), not the last: the output buffer is handed back untouched. The carried buffers
    end at the tile folded into the reset state. -/
theorem sound_attn_A (c : Dev nD) (E : Set ℕ) (i : grid1.Coords) (arg3 : Memref sig .tc .vmem S1x256x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1024 .f32) (harg10 : arg10.IsWhole)
    (hc0 : condFirst i) (hc1 : ¬condLast i)
    (x0 : Vec F S1x256x1024 .bf16) (x1 x2 : Vec F S1x2048x1024 .bf16) (x3 : Vec F S1x256x1024 .f32) (xo : Vec F S1x256x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo
            ∗ owns (c : Thread nD τ) arg8 fullShare (stepOf i x0 x1 x2 init).1 ∗ owns (c : Thread nD τ) arg9 fullShare (stepOf i x0 x1 x2 init).2.1
            ∗ owns (c : Thread nD τ) arg10 fullShare (stepOf i x0 x1 x2 init).2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fo, %hfo, HO⟩, ⟨%e0, %g0, -, S0⟩, ⟨%e1, %g1, -, S1⟩, ⟨%e2, %g2, -, S2⟩, Hk⟩
  subst hf0; subst hf1; subst hf2; subst hf3; subst hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; rfl
    iexact HO
  isplitl [S0]
  · iexists _; isplitr
    swap; · iexact S0
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  isplitl [S1]
  · iexists _; isplitr
    swap; · iexact S1
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  iexists _; isplitr
  swap; · iexact S2
  ipureintro
  refine (read_writes_unit_cons _ _ _ _ hz2 _).trans ?_
  sl_unfold_run_names
  simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
  rfl

set_option maxHeartbeats 4000000 in
/-- The attention body at a later tile (the carried buffers found at s), not the last: the output buffer is handed back untouched. The carried buffers
    end at the tile folded into s. -/
theorem sound_attn_B (c : Dev nD) (E : Set ℕ) (i : grid1.Coords) (arg3 : Memref sig .tc .vmem S1x256x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1024 .f32) (harg10 : arg10.IsWhole)
    (hc0 : ¬condFirst i) (hc1 : ¬condLast i)
    (x0 : Vec F S1x256x1024 .bf16) (x1 x2 : Vec F S1x2048x1024 .bf16) (x3 : Vec F S1x256x1024 .f32) (xo : Vec F S1x256x1024 .f32) (s0 s1 : Vec F S256x1 .f32) (s2 : Vec F S256x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare xo
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo
            ∗ owns (c : Thread nD τ) arg8 fullShare (stepOf i x0 x1 x2 (s0, s1, s2)).1 ∗ owns (c : Thread nD τ) arg9 fullShare (stepOf i x0 x1 x2 (s0, s1, s2)).2.1
            ∗ owns (c : Thread nD τ) arg10 fullShare (stepOf i x0 x1 x2 (s0, s1, s2)).2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fo, %hfo, HO⟩, ⟨%g0, %hg0, S0⟩, ⟨%g1, %hg1, S1⟩, ⟨%g2, %hg2, S2⟩, Hk⟩
  subst hf0; subst hf1; subst hf2; subst hf3; subst hfo; subst hg0; subst hg1; subst hg2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists fo; isplitr; · ipureintro; rfl
    iexact HO
  isplitl [S0]
  · iexists _; isplitr
    swap; · iexact S0
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  isplitl [S1]
  · iexists _; isplitr
    swap; · iexact S1
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  iexists _; isplitr
  swap; · iexact S2
  ipureintro
  refine (read_writes_unit_cons _ _ _ _ hz2 _).trans ?_
  sl_unfold_run_names
  simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
  rfl

set_option maxHeartbeats 4000000 in
/-- The attention body at a later tile (the carried buffers found at s), the last one: the output block is written. The carried buffers
    end at the tile folded into s. -/
theorem sound_attn_C (c : Dev nD) (E : Set ℕ) (i : grid1.Coords) (arg3 : Memref sig .tc .vmem S1x256x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S256x1 .f32) (harg8 : arg8.IsWhole) (arg9 : Memref sig .tc .vmem S256x1 .f32) (harg9 : arg9.IsWhole) (arg10 : Memref sig .tc .vmem S256x1024 .f32) (harg10 : arg10.IsWhole)
    (hc0 : ¬condFirst i) (hc1 : condLast i)
    (x0 : Vec F S1x256x1024 .bf16) (x1 x2 : Vec F S1x2048x1024 .bf16) (x3 : Vec F S1x256x1024 .f32) (s0 s1 : Vec F S256x1 .f32) (s2 : Vec F S256x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d)
        ∗ owns (c : Thread nD τ) arg8 fullShare s0 ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (fin (stepOf i x0 x1 x2 (s0, s1, s2)) x3)
            ∗ owns (c : Thread nD τ) arg8 fullShare (stepOf i x0 x1 x2 (s0, s1, s2)).1 ∗ owns (c : Thread nD τ) arg9 fullShare (stepOf i x0 x1 x2 (s0, s1, s2)).2.1
            ∗ owns (c : Thread nD τ) arg10 fullShare (stepOf i x0 x1 x2 (s0, s1, s2)).2.2) -∗ K ⟨⟩))
      ⊢ wp frame (wpE (defs₀ (F := F)) Variants.none c none) E (cc1__attn_kernel i arg3 harg3 arg4 harg4 arg5 harg5 arg6 harg6 arg7 harg7 arg8 harg8 arg9 harg9 arg10 harg10) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%eo, %fo, -, HO⟩, ⟨%g0, %hg0, S0⟩, ⟨%g1, %hg1, S1⟩, ⟨%g2, %hg2, S2⟩, Hk⟩
  subst hf0; subst hf1; subst hf2; subst hf3; subst hg0; subst hg1; subst hg2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HO]
  · iexists _; isplitr
    swap; · iexact HO
    ipureintro
    refine (read_writes_unit_cons _ _ _ _ hz3 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  isplitl [S0]
  · iexists _; isplitr
    swap; · iexact S0
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  isplitl [S1]
  · iexists _; isplitr
    swap; · iexact S1
    ipureintro
    refine (read_writes_unit_cons _ _ _ _ hz2 _).trans ?_
    sl_unfold_run_names
    simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
    rfl
  iexists _; isplitr
  swap; · iexact S2
  ipureintro
  refine (read_writes_unit_cons _ _ _ _ hz2 _).trans ?_
  sl_unfold_run_names
  simp only [View.readAt_eq_ld, read_writes_unit_cons (S := S256x1) _ _ _ _ hz2 inb_S256x1_S256x1_0_0, read_writes_unit_cons (S := S256x1024) _ _ _ _ hz2 inb_S256x1024_S256x1024_0_0, View.readCov_unit_zero (S := S256x1) _ hz2 inb_S256x1_S256x1_0_0, View.readCov_unit_zero (S := S256x1024) _ hz2 inb_S256x1024_S256x1024_0_0, View.ld_unit_zero (S := S256x1) hz2 inb_S256x1_S256x1_0_0, View.ld_unit_zero (S := S256x1024) hz2 inb_S256x1024_S256x1024_0_0, View.ld_unit_zero (S := S1x256x1024) hz3 inb_S1x256x1024_S1x256x1024_0_0_0]
  rfl

end Cert.KernelIdeal.Hand

end
-- ==== Proof.AttnRegionI.lean ====
/-
  The attention region, continued: what the three carried buffers hold after each grid point, the region invariant
  that carries them from point to point, the pipeline's proof data and its per-point obligation.

  Point t has tile coordinate t mod 4. At a point with t mod 4 = 0 the tile is folded into the reset state; at any
  other point into what the point before left.
-/
import proofs.«133258_j49804440764736_2_alg».proof.Proof.AttnBodyI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tile of point t folded into s: the key block and the resident query and value blocks are the point's. -/
def stepAt (c : Dev nD) (t : Fin cfg1.N) (s : St F) : St F :=
  stepOf (grid1.coords t) (iblk1 V c 0 t) (iblk1 V c 1 t) (iblk1 V c 2 t) s

/-- What the carried buffers hold after point n. -/
def stAt (c : Dev nD) : (n : ℕ) → n < cfg1.N → St F
  | 0, hn => stepAt V c ⟨0, hn⟩ init
  | n + 1, hn => stepAt V c ⟨n + 1, hn⟩ (if (n + 1) % 4 = 0 then init else stAt c n (Nat.lt_of_succ_lt hn))

theorem stAt_first (c : Dev nD) (t : Fin cfg1.N) (h0 : t.val % 4 = 0) : stAt V c t.val t.isLt = stepAt V c t init := by
  obtain ⟨n, hn⟩ := t
  cases n with
  | zero => rfl
  | succ n => exact congrArg (stepAt V c ⟨n + 1, hn⟩) (if_pos h0)

theorem stAt_next (c : Dev nD) (t : Fin cfg1.N) (h0 : ¬t.val % 4 = 0) :
    stAt V c t.val t.isLt = stepAt V c t (stAt V c (t.val - 1) (Nat.lt_of_le_of_lt (Nat.sub_le _ _) t.isLt)) := by
  obtain ⟨n, hn⟩ := t
  cases n with
  | zero => exact absurd (Nat.zero_mod _) h0
  | succ n => exact congrArg (stepAt V c ⟨n + 1, hn⟩) (if_neg h0)

/-- The output block written at a last tile. -/
def outAt (c : Dev nD) (t : Fin cfg1.N) : Vec F S1x256x1024 .f32 := fin (stAt V c t.val t.isLt) (iblk1 V c 3 t)

/-! ## The invariant -/

abbrev scM0 : Memref sig .tc .vmem S256x1 .f32 := Memref.whole cc1_scratch0
abbrev scM1 : Memref sig .tc .vmem S256x1 .f32 := Memref.whole cc1_scratch1
abbrev scM2 : Memref sig .tc .vmem S256x1024 .f32 := Memref.whole cc1_scratch2

/-- The core's scoped buffers other than this pipeline's staging buffers and the three carried ones, at anything. -/
def restBut (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three carried buffers split out. -/
theorem PhiA1_eq (c : Dev nD) :
    (Pipeline.ΦA spec1 c : sProp 𝕄)
      = iprop((((∃ d, owns (c : Thread nD τ) scM0 fullShare d) ∗ (∃ d, owns (c : Thread nD τ) scM1 fullShare d) ∗ (∃ d, owns (c : Thread nD τ) scM2 fullShare d)) ∗ restBut c) ∗ (∃ r, prngReg c r)) := by
  unfold Pipeline.ΦA restBut
  rw [Pipeline.scopedRest_split_of_list spec1 c [cc1_scratch0, cc1_scratch1, cc1_scratch2] (by decide) (by decide)]
  simp only [scM0, scM1, scM2, owns_whole]
  rfl

/-- Before the first point the class invariant; before point n + 1 the carried buffers at what point n left. -/
def PhiS (c : Dev nD) : (n : ℕ) → n ≤ cfg1.N → sProp 𝕄
  | 0, _ => Pipeline.ΦA spec1 c
  | n + 1, hn => iprop(((owns (c : Thread nD τ) scM0 fullShare (stAt V c n hn).1 ∗ owns (c : Thread nD τ) scM1 fullShare (stAt V c n hn).2.1
      ∗ owns (c : Thread nD τ) scM2 fullShare (stAt V c n hn).2.2) ∗ restBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(((owns (c : Thread nD τ) scM0 fullShare (stAt V c n hn).1 ∗ owns (c : Thread nD τ) scM1 fullShare (stAt V c n hn).2.1
      ∗ owns (c : Thread nD τ) scM2 fullShare (stAt V c n hn).2.2) ∗ restBut c) ∗ (∃ r, prngReg c r)) := rfl

theorem PhiS_pos (c : Dev nD) (n : ℕ) (h : n ≤ cfg1.N) (hz : n ≠ 0) :
    PhiS V c n h = iprop(((owns (c : Thread nD τ) scM0 fullShare (stAt V c (n - 1) (by omega)).1 ∗ owns (c : Thread nD τ) scM1 fullShare (stAt V c (n - 1) (by omega)).2.1
      ∗ owns (c : Thread nD τ) scM2 fullShare (stAt V c (n - 1) (by omega)).2.2) ∗ restBut c) ∗ (∃ r, prngReg c r)) := by
  cases n with
  | zero => exact absurd rfl hz
  | succ n => rfl

/-- Whatever the point, the invariant hands over the three carried buffers at SOME contents. -/
theorem PhiS_any (c : Dev nD) (n : ℕ) (h : n ≤ cfg1.N) :
    PhiS V c n h ⊢ iprop((((∃ d, owns (c : Thread nD τ) scM0 fullShare d) ∗ (∃ d, owns (c : Thread nD τ) scM1 fullShare d) ∗ (∃ d, owns (c : Thread nD τ) scM2 fullShare d)) ∗ restBut c) ∗ (∃ r, prngReg c r)) := by
  by_cases hz : n = 0
  · rw [PhiS_zero V c n h hz, PhiA1_eq]
  · rw [PhiS_pos V c n h hz]
    iintro ⟨⟨⟨H0, H1, H2⟩, Hr⟩, Hg⟩
    isplitl [H0 H1 H2 Hr]
    · isplitl [H0 H1 H2]
      · isplitl [H0]; · iexists _; iexact H0
        isplitl [H1]; · iexists _; iexact H1
        iexists _; iexact H2
      iexact Hr
    iexact Hg

/-! ## The proof data -/

/-- The attention pipeline's proof data on core c: the arrays as the region finds them; after the body each input's
    buffer at its block and the output's at the block a last tile writes; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (st1_0 t) fullShare (iblk1 V c 0 t) := by
  unfold Dat.leavesExact; rw [liveAt1_0 t, after1_0]
theorem leaves1_1 (c : Dev nD) (t : Fin cfg1.N) : (dat1 V c).leavesExact 1 t = owns (c : Thread nD τ) (st1_1 t) fullShare (iblk1 V c 1 t) := by
  unfold Dat.leavesExact; rw [liveAt1_1 t, after1_1]
theorem leaves1_2 (c : Dev nD) (t : Fin cfg1.N) : (dat1 V c).leavesExact 2 t = owns (c : Thread nD τ) (st1_2 t) fullShare (iblk1 V c 2 t) := by
  unfold Dat.leavesExact; rw [liveAt1_2 t, after1_2]
theorem leaves1_3 (c : Dev nD) (t : Fin cfg1.N) : (dat1 V c).leavesExact 3 t = owns (c : Thread nD τ) (st1_3 t) fullShare (iblk1 V c 3 t) := by
  unfold Dat.leavesExact; rw [liveAt1_3 t, after1_3]

set_option maxHeartbeats 4000000 in
/-- The body at any point. The tile coordinate decides the case; at a first tile the carried buffers are taken at
    whatever they hold, at a later tile at what the point before left; afterwards they hold this point's state. Off
    the last tile the output buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, PhiS_castSucc V c t]
  have hN : t.val < 256 := lt_of_lt_of_eq t.isLt (show cfg1.N = 256 from N_1)
  by_cases h0 : t.val % 4 = 0
  · -- a first tile
    have h3 : ¬t.val % 4 = 3 := by omega
    have hc0 : condFirst (grid1.coords t) := (hcondFirst t).mpr h0
    have hc1 : ¬condLast (grid1.coords t) := fun h => h3 ((hcondLast t).mp h)
    rw [Dat.leavesExact_idle (dat1 V c) 4 t (idleAt1_4 t hc1) (noFlush1_4 t hc1), stAt_first V c t h0]
    iintro ⟨HΦ, Ho, ⟨%d0, H0⟩, ⟨%d1, H1⟩, ⟨%d2, H2⟩, ⟨%d3, H3⟩, ⟨%d4, H4⟩⟩
    ihave HΦ' := (PhiS_any V c t.val (Nat.le_of_lt t.isLt)) $$ HΦ
    icases HΦ' with ⟨⟨⟨S0, S1, S2⟩, Hr⟩, Hg⟩
    iapply (sound_attn_A c Set.univ (grid1.coords t) _ _ _ _ _ _ _ _ _ _ _ _ _ _ _ _ hc0 hc1 (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    iintro ⟨H0, H1, H2, H3, H4, S0, S1, S2⟩
    isplitl [S0 S1 S2 Hr Hg]
    · isplitl [S0 S1 S2 Hr]
      · isplitl [S0 S1 S2]
        · isplitl [S0]; · iexact S0
          isplitl [S1]; · iexact S1
          iexact S2
        iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬condFirst (grid1.coords t) := fun h => h0 ((hcondFirst t).mp h)
    rw [stAt_next V c t h0, PhiS_pos V c _ _ hz]
    by_cases h3 : t.val % 4 = 3
    · -- a last tile
      have hc1 : condLast (grid1.coords t) := (hcondLast t).mpr h3
      rw [show (dat1 V c).leavesExact 4 t = owns (c : Thread nD τ) (st1_4 t) fullShare ((dat1 V c).after 4 t) from by
        unfold Dat.leavesExact; rw [liveAt1_4 t hc1], after1_4]
      unfold outAt
      rw [stAt_next V c t h0]
      iintro ⟨⟨⟨⟨S0, S1, S2⟩, Hr⟩, Hg⟩, Ho, ⟨%d0, H0⟩, ⟨%d1, H1⟩, ⟨%d2, H2⟩, ⟨%d3, H3⟩, ⟨%d4, H4⟩⟩
      iapply (sound_attn_C c Set.univ (grid1.coords t) _ _ _ _ _ _ _ _ _ _ _ _ _ _ _ _ hc0 hc1 (iblk1 V c 0 t) (iblk1 V c 1 t) (iblk1 V c 2 t) (iblk1 V c 3 t) _ _ _ _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      iintro ⟨H0, H1, H2, H3, H4, S0, S1, S2⟩
      isplitl [S0 S1 S2 Hr Hg]
      · isplitl [S0 S1 S2 Hr]
        · isplitl [S0 S1 S2]
          · isplitl [S0]; · iexact S0
            isplitl [S1]; · iexact S1
            iexact S2
          iexact Hr
        iexact Hg
      isplitl [Ho]; · iexact Ho
      isplitl [H0]; · iexact H0
      isplitl [H1]; · iexact H1
      isplitl [H2]; · iexact H2
      isplitl [H3]; · iexact H3
      iexact H4
    · -- a middle tile
      have hc1 : ¬condLast (grid1.coords t) := fun h => h3 ((hcondLast t).mp h)
      rw [Dat.leavesExact_idle (dat1 V c) 4 t (idleAt1_4 t hc1) (noFlush1_4 t hc1)]
      iintro ⟨⟨⟨⟨S0, S1, S2⟩, Hr⟩, Hg⟩, Ho, ⟨%d0, H0⟩, ⟨%d1, H1⟩, ⟨%d2, H2⟩, ⟨%d3, H3⟩, ⟨%d4, H4⟩⟩
      iapply (sound_attn_B c Set.univ (grid1.coords t) _ _ _ _ _ _ _ _ _ _ _ _ _ _ _ _ hc0 hc1 (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [S0 S1 S2 Hr Hg]
      · isplitl [S0 S1 S2 Hr]
        · isplitl [S0 S1 S2]
          · isplitl [S0]; · iexact S0
            isplitl [S1]; · iexact S1
            iexact S2
          iexact Hr
        iexact Hg
      isplitl [Ho]; · iexact Ho
      isplitl [H0]; · iexact H0
      isplitl [H1]; · iexact H1
      isplitl [H2]; · iexact H2
      isplitl [H3]; · iexact H3
      iexists _; iexact H4

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class invariant back: the carried buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_any V c _ _

end Cert.KernelIdeal.Hand

end
-- ==== Proof.RunI.lean ====
/-
  The whole run. The program is a stretch of host operations (three transposes and three format changes of the
  weight matrices), the projection region, the attention region. Here: what every unscoped buffer holds at each
  boundary between them, each region as a segment of the run, and the run itself: every weakly fair execution
  terminates with every unscoped buffer at the last boundary's contents.
-/
import proofs.«133258_j49804440764736_2_alg».proof.Proof.Gen.KernelIdeal.Regions
import proofs.«133258_j49804440764736_2_alg».proof.Proof.ProjRegionI
import proofs.«133258_j49804440764736_2_alg».proof.Proof.AttnRegionI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers at each boundary -/

/-- At launch. -/
abbrev W0 (c : Dev nD) : Valuation τ sig (Elt F) := fun b => m (c, b)
/-- After the host operations: the projection region's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the projection region: its arrays at what the write-backs leave, the rest untouched. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W1_arg (c : Dev nD) (r : Ref sig .tc) (h : r ∉ hostOps0_W) : W1 m c (Proc.devRef .tc r) = m ((c : Thread nD τ).loc r) :=
  Gen.V1_of m c r h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_arg m c main_arg0 (by decide)
theorem W2_main_arg1 (c : Dev nD) : W2 m c (Proc.devRef .tc main_arg1) = m ((c : Thread nD τ).loc main_arg1) :=
  ((W2_arr m c 1).trans (((dat0 (V1 m) c).arrAt_in 1 rfl _).trans (A_eq0 (V1 m) c 1))).trans (W1_arg m c main_arg1 (by decide))
theorem W3_main_arg1 (c : Dev nD) : W3 m c (Proc.devRef .tc main_arg1) = m ((c : Thread nD τ).loc main_arg1) :=
  ((W3_arr m c 3).trans (((dat1 (V2 m) c).arrAt_in 3 rfl _).trans (A_eq1 (V2 m) c 3))).trans (W2_main_arg1 m c)
theorem W3_main_arg2 (c : Dev nD) : W3 m c (Proc.devRef .tc main_arg2) = m ((c : Thread nD τ).loc main_arg2) :=
  (W3_of_ne m c main_arg2 (by decide)).trans ((W2_of_ne m c main_arg2 (by decide)).trans (W1_arg m c main_arg2 (by decide)))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_arg m c main_arg3 (by decide)))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_arg m c main_arg4 (by decide)))
/-- The result buffer ends at what the attention region's write-backs leave. -/
theorem W3_main_v7 (c : Dev nD) : W3 m c (Proc.devRef .tc main_v7) = (dat1 (V2 m) c).arrAt 4 cfg1.N := W3_arr m c 4

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

set_option backward.isDefEq.respectTransparency.types false in
/-- Region 0 as a segment: entered with every unscoped buffer at the contents before it, left with the region's
    arrays at what its write-backs leave and every other buffer untouched. The generator register goes into the
    region invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's
    arrays at what its write-backs leave and every other buffer untouched. The generator register goes into the
    region invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the five argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The run with the result buffer named too. -/
theorem run_value (ρ : Dev nD → PrngReg) : θ_run defs (onTc (τ := τ) (main (F := F))) ⟨m, fun _ => 0, ρ⟩ (fun r => ∀ c : Dev nD,
      r.2.mem ((c.tc : Thread nD τ).loc main_v7) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v7 (by decide))).trans (W3_main_v7 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Hand

end
-- ==== Proof.Spec.lean ====
/-
  The function both programs compute, in real arithmetic.

  Inputs: two batches of sequences xq, xk (8 batches, 2048 positions, 1024 features) and three square weight
  matrices wq, wk, wv. The projections are pq = xq · wqᵀ, pk = xk · wkᵀ, pv = xq · wvᵀ. For batch b and position m
  of the second sequence, the score against position n of the first is sc b m n = ⟨pk b m, pq b n⟩ / 32
  (32 = √1024), the weights are the softmax of sc b m over n, and the result is the weighted sum of the rows
  pv b n plus the residual xk b m.

  The softmax is written with the row maximum R as reference point:
  weight n = exp (sc n - R) / ∑ k, exp (sc k - R).
-/
import Mathlib
import Idealize.ShloMosaic.PureOps.Ideal
import Idealize.ShloMosaic.Lib.ValueIdx

noncomputable section

namespace Cert.Spec

open Idealize.ShloMosaic Idealize.ShloMosaic.ValueIdx

/-- The five argument arrays as real functions of their coordinates. -/
structure Args where
  xq : Fin 8 → Fin 2048 → Fin 1024 → ℝ
  xk : Fin 8 → Fin 2048 → Fin 1024 → ℝ
  wq : Fin 1024 → Fin 1024 → ℝ
  wk : Fin 1024 → Fin 1024 → ℝ
  wv : Fin 1024 → Fin 1024 → ℝ

/-- Query projection: row n of batch b of xq against row e of wq. -/
def pq (a : Args) (b : Fin 8) (n : Fin 2048) (e : Fin 1024) : ℝ := ∑ d : Fin 1024, a.xq b n d * a.wq e d
/-- Key projection: row m of batch b of xk against row e of wk. -/
def pk (a : Args) (b : Fin 8) (m : Fin 2048) (e : Fin 1024) : ℝ := ∑ d : Fin 1024, a.xk b m d * a.wk e d
/-- Value projection: row n of batch b of xq against row e of wv. -/
def pv (a : Args) (b : Fin 8) (n : Fin 2048) (e : Fin 1024) : ℝ := ∑ d : Fin 1024, a.xq b n d * a.wv e d

/-- The scaled score of key row m against query row n. -/
def sc (a : Args) (b : Fin 8) (m n : Fin 2048) : ℝ := (∑ e : Fin 1024, pk a b m e * pq a b n e) * (1 / 32)

/-- The largest score of key row m. -/
def top (a : Args) (b : Fin 8) (m : Fin 2048) : ℝ := Finset.univ.sup' Finset.univ_nonempty (sc a b m)

/-- The result entry: softmax-weighted sum of value rows, plus the residual. -/
def out (a : Args) (b : Fin 8) (m : Fin 2048) (d : Fin 1024) : ℝ :=
  (∑ n : Fin 2048, Real.exp (sc a b m n - top a b m) * pv a b n d)
      / (∑ n : Fin 2048, Real.exp (sc a b m n - top a b m))
    + a.xk b m d

/-- A rank-3 real array as an array of extended reals. -/
def arr3 {n0 n1 n2 : Nat} (x : Fin n0 → Fin n1 → Fin n2 → ℝ) : (⟨3, ![n0, n1, n2]⟩ : Shape).Idx → EReal :=
  fun i => ((x (i 0) (i 1) (i 2) : ℝ) : EReal)
/-- A rank-2 real array as an array of extended reals. -/
def arr2 {n0 n1 : Nat} (x : Fin n0 → Fin n1 → ℝ) : (⟨2, ![n0, n1]⟩ : Shape).Idx → EReal :=
  fun i => ((x (i 0) (i 1) : ℝ) : EReal)

/-- The result array. -/
def G (a : Args) : (⟨3, ![8, 2048, 1024]⟩ : Shape).Idx → EReal := arr3 (out a)

theorem arr3_ix3 {n0 n1 n2 : Nat} (x : Fin n0 → Fin n1 → Fin n2 → ℝ) (p : Fin n0) (q : Fin n1) (r : Fin n2) :
    arr3 x (ix3 p q r) = ((x p q r : ℝ) : EReal) := rfl
theorem arr2_ix2 {n0 n1 : Nat} (x : Fin n0 → Fin n1 → ℝ) (p : Fin n0) (q : Fin n1) :
    arr2 x (ix2 p q) = ((x p q : ℝ) : EReal) := rfl

end Cert.Spec

end
-- ==== Proof.LibOnlineSoftmax.lean ====
/-
  A streaming softmax. The softmax-weighted sum of one row, with scores s i and values v i, can be taken tile by
  tile: keep the running maximum m of the scores seen so far, the running sum l of exp (s i - m) and the running
  weighted sum a of exp (s i - m) * v i; at a new tile, with m' the new maximum, multiply both sums by
  exp (m - m') and add the tile's terms exp (s i - m') and exp (s i - m') * v i. When every key has been seen,
  a / l is the one-pass softmax-weighted sum  ∑ i, exp (s i - M) / (∑ k, exp (s k - M)) * v i  with M the maximum
  of all scores. The running maximum starts at -∞, so the statements live in the extended reals, where
  exp (-∞) = 0; every proof finds the real numbers behind the extended ones and is then real algebra
  (exp (x + y) = exp x * exp y, a sum over a disjoint union).

  Also here: a constant factor moved out of a double sum, and the values of a few constants.
-/
import Idealize.ShloMosaic.PureOps.Ideal
import Idealize.ShloMosaic.PureOps.Ideal.Laws
import Mathlib

noncomputable section

namespace Cert.LibOnlineSoftmax

open Idealize.ShloMosaic

/-! ## Extended-real operations on real arguments -/

/-- A finite sum of reals, taken in the extended reals, is the real sum. -/
theorem coe_finset_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The extended quotient of two reals, the divisor nonzero, is the real quotient. -/
theorem div_coe_real (a b : ℝ) (hb : b ≠ 0) :
    Ideal.div (a : EReal) (b : EReal) = ((a / b : ℝ) : EReal) := by
  rw [Ideal.div_coe hb, ← EReal.coe_mul, mul_one_div]

/-- The extended exponential of a difference of two reals is the real exponential of the difference. -/
theorem exp_coe_sub_coe (x y : ℝ) :
    Ideal.exp ((x : EReal) - (y : EReal)) = ((Real.exp (x - y) : ℝ) : EReal) := by
  rw [← EReal.coe_sub, Ideal.exp_coe]

/-- The extended exponential of -∞ minus anything is zero: -∞ - x = -∞ and exp (-∞) = 0. -/
theorem exp_bot_sub (x : EReal) : Ideal.exp (⊥ - x) = 0 := by
  rw [EReal.bot_sub, Ideal.exp_bot]

/-- The maximum of two reals, taken in the extended reals, is the real maximum. -/
theorem max_coe_coe (x y : ℝ) : max (x : EReal) (y : EReal) = ((max x y : ℝ) : EReal) :=
  (EReal.coe_strictMono.monotone.map_max).symm

/-! ## The maximum of a nonempty finite family of reals -/

/-- An extended real that is above every member of a nonempty finite family of reals and equal to one of them
    is the family's maximum. -/
theorem eq_coe_sup' {ι : Type*} (s : ι → ℝ) (t : Finset ι) (ht : t.Nonempty) (μ : EReal)
    (hle : ∀ i ∈ t, ((s i : ℝ) : EReal) ≤ μ) (hex : ∃ i ∈ t, μ = ((s i : ℝ) : EReal)) :
    μ = ((t.sup' ht s : ℝ) : EReal) := by
  obtain ⟨j, hj, rfl⟩ := hex
  refine congrArg _ (le_antisymm (Finset.le_sup' s hj) (Finset.sup'_le ht s fun i hi => ?_))
  exact EReal.coe_le_coe_iff.mp (hle i hi)

/-- The running maximum from -∞ over a nonempty finite family of reals is the family's maximum. -/
theorem fold_max_eq_coe_sup' {ι : Type*} (s : ι → ℝ) (t : Finset ι) (ht : t.Nonempty) :
    t.fold max (⊥ : EReal) (fun i => ((s i : ℝ) : EReal)) = ((t.sup' ht s : ℝ) : EReal) := by
  induction ht using Finset.Nonempty.cons_induction with
  | singleton a => rw [Finset.fold_singleton, max_bot_right, Finset.sup'_singleton]
  | cons a t ha ht ih => rw [Finset.fold_cons, ih, Finset.sup'_cons ht, max_coe_coe]

/-- So that running maximum is above every member of the family. -/
theorem le_fold_max {ι : Type*} (s : ι → ℝ) (t : Finset ι) :
    ∀ i ∈ t, ((s i : ℝ) : EReal) ≤ t.fold max (⊥ : EReal) (fun i => ((s i : ℝ) : EReal)) := by
  intro i hi
  rw [fold_max_eq_coe_sup' s t ⟨i, hi⟩]
  exact EReal.coe_le_coe_iff.mpr (Finset.le_sup' s hi)

/-- And, the family nonempty, it is one of the members. -/
theorem fold_max_mem {ι : Type*} (s : ι → ℝ) (t : Finset ι) (ht : t.Nonempty) :
    ∃ i ∈ t, t.fold max (⊥ : EReal) (fun i => ((s i : ℝ) : EReal)) = ((s i : ℝ) : EReal) := by
  obtain ⟨i, hi, h⟩ := Finset.exists_mem_eq_sup' ht s
  exact ⟨i, hi, by rw [fold_max_eq_coe_sup' s t ht, h]⟩

/-! ## Changing the reference point of a sum of exponentials -/

/-- Multiplying a sum of terms exp (s i - M) * w i by exp (M - M') moves the reference point from M to M'. -/
theorem rescale_sum {ι : Type*} (s w : ι → ℝ) (t : Finset ι) (M M' : ℝ) :
    Real.exp (M - M') * ∑ i ∈ t, Real.exp (s i - M) * w i = ∑ i ∈ t, Real.exp (s i - M') * w i := by
  rw [Finset.mul_sum]
  refine Finset.sum_congr rfl fun i _ => ?_
  rw [← mul_assoc, ← Real.exp_add, show M - M' + (s i - M) = s i - M' by ring]

/-- The same without weights. -/
theorem rescale_sum_one {ι : Type*} (s : ι → ℝ) (t : Finset ι) (M M' : ℝ) :
    Real.exp (M - M') * ∑ i ∈ t, Real.exp (s i - M) = ∑ i ∈ t, Real.exp (s i - M') := by
  simpa using rescale_sum s (fun _ => 1) t M M'

/-! ## The invariant of the streaming softmax -/

/-- The state (m, l, a) after the keys in seen: before any key it is (-∞, 0, 0); afterwards m is the maximum
    score over seen, l the sum of exp (s i - m) and a the sum of exp (s i - m) * v i over seen. -/
def Inv {ι : Type*} (s v : ι → ℝ) (seen : Finset ι) (m l a : EReal) : Prop :=
  (seen = ∅ ∧ m = ⊥ ∧ l = 0 ∧ a = 0) ∨
  ∃ h : seen.Nonempty, m = ((seen.sup' h s : ℝ) : EReal) ∧
    l = ((∑ i ∈ seen, Real.exp (s i - seen.sup' h s) : ℝ) : EReal) ∧
    a = ((∑ i ∈ seen, Real.exp (s i - seen.sup' h s) * v i : ℝ) : EReal)

/-- The starting state (-∞, 0, 0) satisfies the invariant with no key seen. -/
theorem inv_init {ι : Type*} (s v : ι → ℝ) : Inv s v ∅ ⊥ 0 0 :=
  Or.inl ⟨rfl, rfl, rfl, rfl⟩

/-- One step: from a state satisfying the invariant on seen, a nonempty tile of new keys with maximum score μ
    gives — the new maximum m' = max m μ, both sums multiplied by exp (m - m') and the tile's terms added — a state
    satisfying the invariant on seen ∪ tile. -/
theorem inv_step {ι : Type*} [DecidableEq ι] (s v : ι → ℝ) (seen tile : Finset ι) (m l a μ : EReal)
    (hinv : Inv s v seen m l a) (ht : tile.Nonempty) (hdisj : Disjoint seen tile)
    (hle : ∀ i ∈ tile, ((s i : ℝ) : EReal) ≤ μ) (hex : ∃ i ∈ tile, μ = ((s i : ℝ) : EReal)) :
    Inv s v (seen ∪ tile) (max m μ)
      (Ideal.exp (m - max m μ) * l + ∑ i ∈ tile, Ideal.exp (((s i : ℝ) : EReal) - max m μ))
      (Ideal.exp (m - max m μ) * a
        + ∑ i ∈ tile, Ideal.exp (((s i : ℝ) : EReal) - max m μ) * ((v i : ℝ) : EReal)) := by
  have hμ := eq_coe_sup' s tile ht μ hle hex
  subst hμ
  rcases hinv with ⟨rfl, rfl, rfl, rfl⟩ | ⟨h, rfl, rfl, rfl⟩
  · rw [Finset.empty_union, max_bot_left, exp_bot_sub]
    refine Or.inr ⟨ht, rfl, ?_, ?_⟩
    · simp only [mul_zero, zero_add, exp_coe_sub_coe, coe_finset_sum]
    · simp only [mul_zero, zero_add, exp_coe_sub_coe, ← EReal.coe_mul, coe_finset_sum]
  · have hM' : (seen ∪ tile).sup' (h.mono Finset.subset_union_left) s
        = max (seen.sup' h s) (tile.sup' ht s) := by
      rw [Finset.sup'_union h ht s]
    refine Or.inr ⟨h.mono Finset.subset_union_left, ?_, ?_, ?_⟩
    · rw [max_coe_coe, hM']
    · rw [hM', max_coe_coe]
      simp only [exp_coe_sub_coe, ← EReal.coe_mul, coe_finset_sum, ← EReal.coe_add]
      rw [Finset.sum_union hdisj, rescale_sum_one]
    · rw [hM', max_coe_coe]
      simp only [exp_coe_sub_coe, ← EReal.coe_mul, coe_finset_sum, ← EReal.coe_add]
      rw [Finset.sum_union hdisj, rescale_sum]

/-- The same step with the tile's maximum taken as the running maximum from -∞ over the tile. -/
theorem inv_step_fold {ι : Type*} [DecidableEq ι] (s v : ι → ℝ) (seen tile : Finset ι) (m l a : EReal)
    (hinv : Inv s v seen m l a) (ht : tile.Nonempty) (hdisj : Disjoint seen tile) :
    Inv s v (seen ∪ tile) (max m (tile.fold max (⊥ : EReal) (fun i => ((s i : ℝ) : EReal))))
      (Ideal.exp (m - max m (tile.fold max (⊥ : EReal) (fun i => ((s i : ℝ) : EReal)))) * l
        + ∑ i ∈ tile, Ideal.exp (((s i : ℝ) : EReal)
            - max m (tile.fold max (⊥ : EReal) (fun i => ((s i : ℝ) : EReal)))))
      (Ideal.exp (m - max m (tile.fold max (⊥ : EReal) (fun i => ((s i : ℝ) : EReal)))) * a
        + ∑ i ∈ tile, Ideal.exp (((s i : ℝ) : EReal)
            - max m (tile.fold max (⊥ : EReal) (fun i => ((s i : ℝ) : EReal)))) * ((v i : ℝ) : EReal)) :=
  inv_step s v seen tile m l a _ hinv ht hdisj (le_fold_max s tile) (fold_max_mem s tile ht)

/-! ## The end of the stream -/

/-- Once every key has been seen the state holds real numbers: m the maximum R of all scores, l the positive sum
    of exp (s i - R), a the sum of exp (s i - R) * v i. -/
theorem inv_univ {ι : Type*} [Fintype ι] [Nonempty ι] (s v : ι → ℝ) (m l a : EReal)
    (hinv : Inv s v Finset.univ m l a) :
    m = ((Finset.univ.sup' Finset.univ_nonempty s : ℝ) : EReal)
      ∧ l = ((∑ i, Real.exp (s i - Finset.univ.sup' Finset.univ_nonempty s) : ℝ) : EReal)
      ∧ a = ((∑ i, Real.exp (s i - Finset.univ.sup' Finset.univ_nonempty s) * v i : ℝ) : EReal)
      ∧ 0 < ∑ i, Real.exp (s i - Finset.univ.sup' Finset.univ_nonempty s) := by
  rcases hinv with ⟨h0, -⟩ | ⟨h, hm, hl, ha⟩
  · exact absurd h0 Finset.univ_nonempty.ne_empty
  · exact ⟨hm, hl, ha, Finset.sum_pos (fun i _ => Real.exp_pos _) Finset.univ_nonempty⟩

/-- At the end the quotient a / l is the real number (∑ exp (s i - R) * v i) / (∑ exp (s k - R)), R the maximum of
    all scores. -/
theorem div_end_real {ι : Type*} [Fintype ι] [Nonempty ι] (s v : ι → ℝ) (m l a : EReal)
    (hinv : Inv s v Finset.univ m l a) :
    Ideal.div a l
      = (((∑ i, Real.exp (s i - Finset.univ.sup' Finset.univ_nonempty s) * v i)
          / (∑ k, Real.exp (s k - Finset.univ.sup' Finset.univ_nonempty s)) : ℝ) : EReal) := by
  obtain ⟨-, rfl, rfl, hpos⟩ := inv_univ s v m l a hinv
  exact div_coe_real _ _ hpos.ne'

/-- The one-pass softmax-weighted sum, written with extended-real operations and reference point the maximum M of
    all scores, is the same real number. -/
theorem onepass_real {ι : Type*} [Fintype ι] [Nonempty ι] (s v : ι → ℝ) (M : EReal)
    (hle : ∀ i, ((s i : ℝ) : EReal) ≤ M) (hex : ∃ i, M = ((s i : ℝ) : EReal)) :
    ∑ i, Ideal.div (Ideal.exp (((s i : ℝ) : EReal) - M)) (0 + ∑ k, Ideal.exp (((s k : ℝ) : EReal) - M))
        * ((v i : ℝ) : EReal)
      = (((∑ i, Real.exp (s i - Finset.univ.sup' Finset.univ_nonempty s) * v i)
          / (∑ k, Real.exp (s k - Finset.univ.sup' Finset.univ_nonempty s)) : ℝ) : EReal) := by
  have hM := eq_coe_sup' s Finset.univ Finset.univ_nonempty M (fun i _ => hle i)
    (by obtain ⟨i, hi⟩ := hex; exact ⟨i, Finset.mem_univ i, hi⟩)
  subst hM
  have hpos : 0 < ∑ k, Real.exp (s k - Finset.univ.sup' Finset.univ_nonempty s) :=
    Finset.sum_pos (fun i _ => Real.exp_pos _) Finset.univ_nonempty
  simp only [exp_coe_sub_coe, coe_finset_sum, zero_add, div_coe_real _ _ hpos.ne', ← EReal.coe_mul]
  rw [Finset.sum_div]
  exact congrArg _ (Finset.sum_congr rfl fun i _ => div_mul_eq_mul_div _ _ _)

/-- The end of the stream: with every key seen, a / l is the one-pass softmax-weighted sum
    ∑ i, exp (s i - M) / (0 + ∑ k, exp (s k - M)) * v i, M the maximum of all scores. -/
theorem div_end {ι : Type*} [Fintype ι] [Nonempty ι] (s v : ι → ℝ) (m l a M : EReal)
    (hinv : Inv s v Finset.univ m l a)
    (hle : ∀ i, ((s i : ℝ) : EReal) ≤ M) (hex : ∃ i, M = ((s i : ℝ) : EReal)) :
    Ideal.div a l
      = ∑ i, Ideal.div (Ideal.exp (((s i : ℝ) : EReal) - M)) (0 + ∑ k, Ideal.exp (((s k : ℝ) : EReal) - M))
          * ((v i : ℝ) : EReal) := by
  rw [div_end_real s v m l a hinv, onepass_real s v M hle hex]

/-- The same with the one-pass side in plain extended-real operations: exponentials of coerced differences,
    the quotient a product with an inverse, no leading zero. -/
theorem div_end_plain {ι : Type*} [Fintype ι] [Nonempty ι] (s v : ι → ℝ) (m l a : EReal) (R : ℝ)
    (hinv : Inv s v Finset.univ m l a) (hle : ∀ i, s i ≤ R) (hex : ∃ i, R = s i) :
    Ideal.div a l
      = ∑ i, ((Real.exp (s i - R) : ℝ) : EReal) * (((∑ k, Real.exp (s k - R) : ℝ) : EReal))⁻¹
          * ((v i : ℝ) : EReal) := by
  rw [div_end s v m l a (R : EReal) hinv (fun i => EReal.coe_le_coe_iff.mpr (hle i))
    (by obtain ⟨i, hi⟩ := hex; exact ⟨i, congrArg _ hi⟩)]
  have hpos : 0 < ∑ k, Real.exp (s k - R) :=
    Finset.sum_pos (fun i _ => Real.exp_pos _) Finset.univ_nonempty
  refine Finset.sum_congr rfl fun i _ => ?_
  simp only [exp_coe_sub_coe, coe_finset_sum, zero_add]
  rw [Ideal.div, if_neg (by exact_mod_cast hpos.ne')]

/-- The end of the stream with the overall maximum taken as the running maximum from -∞ over all scores. -/
theorem div_end_fold {ι : Type*} [Fintype ι] [Nonempty ι] (s v : ι → ℝ) (m l a : EReal)
    (hinv : Inv s v Finset.univ m l a) :
    Ideal.div a l
      = ∑ i, Ideal.div
            (Ideal.exp (((s i : ℝ) : EReal)
              - Finset.univ.fold max (⊥ : EReal) (fun k => ((s k : ℝ) : EReal))))
            (0 + ∑ k, Ideal.exp (((s k : ℝ) : EReal)
              - Finset.univ.fold max (⊥ : EReal) (fun k => ((s k : ℝ) : EReal))))
          * ((v i : ℝ) : EReal) := by
  obtain ⟨j, -, hj⟩ := fold_max_mem s Finset.univ Finset.univ_nonempty
  exact div_end s v m l a _ hinv (fun i => le_fold_max s Finset.univ i (Finset.mem_univ i)) ⟨j, hj⟩

/-! ## Constants -/

/-- The single-precision word 0x44800000 denotes 1024. -/
theorem ofBits_1024 : Ideal.ofBits .f32 0x44800000#32 = ((1024 : ℝ) : EReal) := by
  simp [Ideal.ofBits, Ideal.ieee, -EReal.coe_mul]; norm_num

/-- The single-precision word 0x3F800000 denotes 1. -/
theorem ofBits_one : Ideal.ofBits .f32 0x3F800000#32 = ((1 : ℝ) : EReal) := by
  simp [Ideal.ofBits, Ideal.ieee, -EReal.coe_mul]; norm_num

/-- The single-precision word 0x3D000000 denotes 1/32. -/
theorem ofBits_inv32 : Ideal.ofBits .f32 0x3D000000#32 = ((1 / 32 : ℝ) : EReal) := by
  simp [Ideal.ofBits, Ideal.ieee, -EReal.coe_mul]; norm_num

/-- The single-precision word 0x00000000 denotes 0. -/
theorem ofBits_zero : Ideal.ofBits .f32 0x00000000#32 = 0 := Ideal.ofBits_zero_f32

/-- The square root of 1024 is 32, since 1024 = 32². -/
theorem sqrt_1024 : Ideal.sqrt ((1024 : ℝ) : EReal) = ((32 : ℝ) : EReal) := by
  have h : Real.sqrt 1024 = 32 := by
    rw [show (1024 : ℝ) = 32 ^ 2 by norm_num]; exact Real.sqrt_sq (by norm_num)
  rw [Ideal.sqrt_coe, if_neg (by norm_num), h]

/-- One over the square root of 1024 is 1/32. -/
theorem one_div_sqrt_1024 :
    Ideal.div ((1 : ℝ) : EReal) (Ideal.sqrt ((1024 : ℝ) : EReal)) = ((1 / 32 : ℝ) : EReal) := by
  rw [sqrt_1024, div_coe_real _ _ (by norm_num)]

/-! ## A constant factor leaves a double sum -/

/-- Over the reals: a factor c on every weight w j d comes out of the sum over d of (∑ j, x j * w j d) * k d. -/
theorem scale_out_finset {α β : Type*} (J : Finset α) (D : Finset β) (x : α → ℝ) (w : α → β → ℝ) (k : β → ℝ)
    (c : ℝ) :
    ∑ d ∈ D, (∑ j ∈ J, x j * (w j d * c)) * k d = (∑ d ∈ D, (∑ j ∈ J, x j * w j d) * k d) * c := by
  rw [Finset.sum_mul]
  refine Finset.sum_congr rfl fun d _ => ?_
  have h : ∑ j ∈ J, x j * (w j d * c) = (∑ j ∈ J, x j * w j d) * c := by
    rw [Finset.sum_mul]; exact Finset.sum_congr rfl fun j _ => (mul_assoc _ _ _).symm
  rw [h]; ring

/-- The same over finite index types. -/
theorem scale_out {α β : Type*} [Fintype α] [Fintype β] (x : α → ℝ) (w : α → β → ℝ) (k : β → ℝ) (c : ℝ) :
    ∑ d, (∑ j, x j * (w j d * c)) * k d = (∑ d, (∑ j, x j * w j d) * k d) * c :=
  scale_out_finset Finset.univ Finset.univ x w k c

/-- A double sum of products of coerced reals is the coerced real double sum. -/
theorem coe_double_sum {α β : Type*} [Fintype α] [Fintype β] (x : α → ℝ) (w : α → β → ℝ) (k : β → ℝ) :
    ∑ d, (∑ j, ((x j : ℝ) : EReal) * ((w j d : ℝ) : EReal)) * ((k d : ℝ) : EReal)
      = ((∑ d, (∑ j, x j * w j d) * k d : ℝ) : EReal) := by
  simp only [← EReal.coe_mul, coe_finset_sum]

/-- The extended-real form, every entry a coerced real: the factor comes out of the double sum. -/
theorem scale_out_coe {α β : Type*} [Fintype α] [Fintype β] (x : α → ℝ) (w : α → β → ℝ) (k : β → ℝ) (c : ℝ) :
    ∑ d, (∑ j, ((x j : ℝ) : EReal) * (((w j d : ℝ) : EReal) * ((c : ℝ) : EReal))) * ((k d : ℝ) : EReal)
      = (∑ d, (∑ j, ((x j : ℝ) : EReal) * ((w j d : ℝ) : EReal)) * ((k d : ℝ) : EReal)) * ((c : ℝ) : EReal) := by
  simp only [← EReal.coe_mul, coe_finset_sum]
  rw [scale_out]

end Cert.LibOnlineSoftmax

end
-- ==== Proof.RefSide.lean ====
/-
  The reference computes the specification.

  Read at the coordinates (b, m, d), the reference's result is built from three projections
  pq = xq · wqᵀ, pk = xk · wkᵀ, pv = xq · wvᵀ (sums over the 1024 features), the scores ⟨pk b m, pq b n⟩ divided by
  √1024 = 32, the softmax of the scores of row m over n — the maximum R of the row, taken from -∞; the exponentials
  exp (score - R); their sum from 0; the quotients — the sum over n of weight times pv b n d, and the residual xk b m d.
  Every entry of the arguments is a real, so every intermediate entry is a real read as an extended real, and the
  result is the specification's entry.
-/
import proofs.«133258_j49804440764736_2_alg».proof.Proof.Gen.ReferenceIdeal.Read
import proofs.«133258_j49804440764736_2_alg».proof.Proof.Spec
import proofs.«133258_j49804440764736_2_alg».proof.Proof.LibOnlineSoftmax
import Idealize.ShloMosaic.PureOps.Reduce

noncomputable section

namespace Cert.RefSide

open Idealize.ShloMosaic Idealize.ShloMosaic.ValueIdx Cert.Spec Cert.LibOnlineSoftmax

variable (a : Cert.Spec.Args)

/-! ## The projections -/

/-- The query projection at (b, n, e) is the real sum pq. -/
theorem v0_at (b : Fin 8) (n : Fin 2048) (e : Fin 1024) :
    Cert.ReferenceIdeal.Read.val_main_v0 (F := Ideal) (arr3 a.xq) (arr2 a.wq) (ix3 b n e) = ((pq a b n e : ℝ) : EReal) := by
  rw [Cert.ReferenceIdeal.Read.val_main_v0_apply]
  have hl : ∀ k : Fin 1024, Cert.ReferenceIdeal.Read.lidx_main_v0 (ix3 b n e) k = ix3 b n k := fun k =>
    funext fun c => Fin.ext (by match c with | ⟨0, _⟩ => rfl | ⟨1, _⟩ => rfl | ⟨2, _⟩ => rfl)
  have hr : ∀ k : Fin 1024, Cert.ReferenceIdeal.Read.ridx_main_v0 (ix3 b n e) k = ix2 e k := fun k =>
    funext fun c => Fin.ext (by match c with | ⟨0, _⟩ => rfl | ⟨1, _⟩ => rfl)
  simp only [hl, hr, arr3_ix3, arr2_ix2, ← EReal.coe_mul, coe_finset_sum]
  rfl

/-- The key projection at (b, m, e) is the real sum pk. -/
theorem v1_at (b : Fin 8) (m : Fin 2048) (e : Fin 1024) :
    Cert.ReferenceIdeal.Read.val_main_v1 (F := Ideal) (arr3 a.xk) (arr2 a.wk) (ix3 b m e) = ((pk a b m e : ℝ) : EReal) := by
  rw [Cert.ReferenceIdeal.Read.val_main_v1_apply]
  have hl : ∀ k : Fin 1024, Cert.ReferenceIdeal.Read.lidx_main_v1 (ix3 b m e) k = ix3 b m k := fun k =>
    funext fun c => Fin.ext (by match c with | ⟨0, _⟩ => rfl | ⟨1, _⟩ => rfl | ⟨2, _⟩ => rfl)
  have hr : ∀ k : Fin 1024, Cert.ReferenceIdeal.Read.ridx_main_v1 (ix3 b m e) k = ix2 e k := fun k =>
    funext fun c => Fin.ext (by match c with | ⟨0, _⟩ => rfl | ⟨1, _⟩ => rfl)
  simp only [hl, hr, arr3_ix3, arr2_ix2, ← EReal.coe_mul, coe_finset_sum]
  rfl

/-- The value projection at (b, n, e) is the real sum pv. -/
theorem v2_at (b : Fin 8) (n : Fin 2048) (e : Fin 1024) :
    Cert.ReferenceIdeal.Read.val_main_v2 (F := Ideal) (arr3 a.xq) (arr2 a.wv) (ix3 b n e) = ((pv a b n e : ℝ) : EReal) := by
  rw [Cert.ReferenceIdeal.Read.val_main_v2_apply]
  have hl : ∀ k : Fin 1024, Cert.ReferenceIdeal.Read.lidx_main_v2 (ix3 b n e) k = ix3 b n k := fun k =>
    funext fun c => Fin.ext (by match c with | ⟨0, _⟩ => rfl | ⟨1, _⟩ => rfl | ⟨2, _⟩ => rfl)
  have hr : ∀ k : Fin 1024, Cert.ReferenceIdeal.Read.ridx_main_v2 (ix3 b n e) k = ix2 e k := fun k =>
    funext fun c => Fin.ext (by match c with | ⟨0, _⟩ => rfl | ⟨1, _⟩ => rfl)
  simp only [hl, hr, arr3_ix3, arr2_ix2, ← EReal.coe_mul, coe_finset_sum]
  rfl

/-! ## The scores -/

/-- The unscaled score at (b, m, n) is the real inner product of the key row m and the query row n. -/
theorem v3_at (b : Fin 8) (m n : Fin 2048) :
    Cert.ReferenceIdeal.Read.val_main_v3 (F := Ideal) (arr3 a.xq) (arr3 a.xk) (arr2 a.wq) (arr2 a.wk) (ix3 b m n)
      = ((∑ e : Fin 1024, pk a b m e * pq a b n e : ℝ) : EReal) := by
  rw [Cert.ReferenceIdeal.Read.val_main_v3_apply]
  have hl : ∀ k : Fin 1024, Cert.ReferenceIdeal.Read.lidx_main_v3 (ix3 b m n) k = ix3 b m k := fun k =>
    funext fun c => Fin.ext (by match c with | ⟨0, _⟩ => rfl | ⟨1, _⟩ => rfl | ⟨2, _⟩ => rfl)
  have hr : ∀ k : Fin 1024, Cert.ReferenceIdeal.Read.ridx_main_v3 (ix3 b m n) k = ix3 b n k := fun k =>
    funext fun c => Fin.ext (by match c with | ⟨0, _⟩ => rfl | ⟨1, _⟩ => rfl | ⟨2, _⟩ => rfl)
  simp only [hl, hr, v0_at, v1_at, ← EReal.coe_mul, coe_finset_sum]

/-- The divisor, the square root of the constant 1024, is 32 at every index. -/
theorem v5_at (i : (⟨3, ![8, 2048, 2048]⟩ : Shape).Idx) :
    Cert.ReferenceIdeal.Read.val_main_v5 (F := Ideal) i = ((32 : ℝ) : EReal) := by
  rw [Cert.ReferenceIdeal.Read.val_main_v5_apply, Cert.ReferenceIdeal.Read.val_main_v4_apply,
    Cert.ReferenceIdeal.Read.val_main_cst_apply, Ideal.hostUnary_sqrt_def, Ideal.ofBits_def, ofBits_1024, sqrt_1024]

/-- The scaled score at (b, m, n) is the real sc. -/
theorem v6_at (b : Fin 8) (m n : Fin 2048) :
    Cert.ReferenceIdeal.Read.val_main_v6 (F := Ideal) (arr3 a.xq) (arr3 a.xk) (arr2 a.wq) (arr2 a.wk) (ix3 b m n)
      = ((sc a b m n : ℝ) : EReal) := by
  rw [Cert.ReferenceIdeal.Read.val_main_v6_apply, v3_at, v5_at, Ideal.hostDivf_def,
    div_coe_real _ _ (by norm_num : (32 : ℝ) ≠ 0)]
  exact congrArg _ (div_eq_mul_one_div _ _)

/-! ## The row maximum -/

/-- The f32 pattern 0xFF800000 denotes -∞. -/
theorem ofBits_neg_inf : Ideal.ofBits .f32 0xFF800000#32 = (⊥ : EReal) := by
  simp [Ideal.ofBits, Ideal.ieee]

/-- The index (b, m) with the coordinate k put back on the last axis is (b, m, k). -/
theorem lift_ix2 (h : (⟨3, ![8, 2048, 2048]⟩ : Shape).Reduces [2] (⟨2, ![8, 2048]⟩ : Shape)) (b : Fin 8) (m : Fin 2048)
    (k : Fin ((⟨3, ![8, 2048, 2048]⟩ : Shape).size 2)) :
    h.lift (ix2 b m) k = ix3 b m (⟨k.val, k.isLt⟩ : Fin 2048) := by
  funext c; apply Fin.ext
  fin_cases c <;> rfl

/-- The maximum, from -∞, of the scaled scores of row (b, m) is the real maximum top. -/
theorem v7_at (b : Fin 8) (m : Fin 2048) :
    Cert.ReferenceIdeal.Read.val_main_v7 (F := Ideal) (arr3 a.xq) (arr3 a.xk) (arr2 a.wq) (arr2 a.wk) (ix2 b m)
      = ((top a b m : ℝ) : EReal) := by
  unfold Cert.ReferenceIdeal.Read.val_main_v7
  have hR : (⟨3, ![8, 2048, 2048]⟩ : Shape).Reduces [2] (⟨2, ![8, 2048]⟩ : Shape) := by decide
  rw [Host.reduce_eq_fold_single FloatOps.maximumf _ _ _ hR]
  have hf : (Cert.ReferenceIdeal.Read.val_main_v6 (F := Ideal) (arr3 a.xq) (arr3 a.xk) (arr2 a.wq) (arr2 a.wk) ∘ hR.lift (ix2 b m))
      = fun k : Fin 2048 => ((sc a b m k : ℝ) : EReal) := funext fun k => by
    show Cert.ReferenceIdeal.Read.val_main_v6 (F := Ideal) (arr3 a.xq) (arr3 a.xk) (arr2 a.wq) (arr2 a.wk) (hR.lift (ix2 b m) k) = _
    rw [lift_ix2, v6_at]
    rfl
  have hi : Cert.ReferenceIdeal.Read.val_main_cst_0 (F := Ideal) (Shape.Idx.first Cert.ReferenceIdeal.Facts₀.h_S_) = (⊥ : EReal) := by
    rw [Cert.ReferenceIdeal.Read.val_main_cst_0_apply, Ideal.ofBits_def, ofBits_neg_inf]
  rw [hi]
  refine Eq.trans ?_ (fold_max_eq_coe_sup' (sc a b m) Finset.univ Finset.univ_nonempty)
  exact congrArg (fun f => Finset.fold max (⊥ : EReal) f (Finset.univ : Finset (Fin 2048))) hf

/-- The maximum of -∞ and the row maximum is the row maximum. -/
theorem v9_at (b : Fin 8) (m : Fin 2048) :
    Cert.ReferenceIdeal.Read.val_main_v9 (F := Ideal) (arr3 a.xq) (arr3 a.xk) (arr2 a.wq) (arr2 a.wk) (ix2 b m)
      = ((top a b m : ℝ) : EReal) := by
  rw [Cert.ReferenceIdeal.Read.val_main_v9_apply, v7_at, Cert.ReferenceIdeal.Read.val_main_v8_apply,
    Cert.ReferenceIdeal.Read.val_main_cst_1_apply, Ideal.maximumf_def, Ideal.ofBits_def, ofBits_neg_inf, max_bot_left]

/-- The row maximum broadcast along the row: at (b, m, n) it is top b m. -/
theorem v11_at (b : Fin 8) (m n : Fin 2048) :
    Cert.ReferenceIdeal.Read.val_main_v11 (F := Ideal) (arr3 a.xq) (arr3 a.xk) (arr2 a.wq) (arr2 a.wk) (ix3 b m n)
      = ((top a b m : ℝ) : EReal) := by
  rw [Cert.ReferenceIdeal.Read.val_main_v11_apply, Cert.ReferenceIdeal.Read.val_main_v10_apply]
  have hi : Cert.ReferenceIdeal.Read.idx_main_v10 (Cert.ReferenceIdeal.Read.idx_main_v11 (ix3 b m n)) = ix2 b m :=
    funext fun c => Fin.ext (by match c with | ⟨0, _⟩ => rfl | ⟨1, _⟩ => rfl)
  rw [hi, v9_at]

/-! ## The softmax weights -/

/-- The exponential at (b, m, n) is the real exp (sc b m n - top b m). -/
theorem v13_at (b : Fin 8) (m n : Fin 2048) :
    Cert.ReferenceIdeal.Read.val_main_v13 (F := Ideal) (arr3 a.xq) (arr3 a.xk) (arr2 a.wq) (arr2 a.wk) (ix3 b m n)
      = ((Real.exp (sc a b m n - top a b m) : ℝ) : EReal) := by
  rw [Cert.ReferenceIdeal.Read.val_main_v13_apply, Cert.ReferenceIdeal.Read.val_main_v12_apply, v6_at, v11_at,
    Ideal.subf_def, Ideal.hostUnary_exp_def, exp_coe_sub_coe]

/-- The sum, from 0, of the exponentials of row (b, m) is the real sum. -/
theorem v14_at (b : Fin 8) (m : Fin 2048) :
    Cert.ReferenceIdeal.Read.val_main_v14 (F := Ideal) (arr3 a.xq) (arr3 a.xk) (arr2 a.wq) (arr2 a.wk) (ix2 b m)
      = ((∑ n : Fin 2048, Real.exp (sc a b m n - top a b m) : ℝ) : EReal) := by
  rw [Cert.ReferenceIdeal.Read.val_main_v14_apply, Cert.ReferenceIdeal.Read.val_main_cst_2_apply, Ideal.ofBits_def,
    ofBits_zero, zero_add]
  have hi : ∀ k : Fin 2048, Cert.ReferenceIdeal.Read.idx_main_v14 (ix2 b m) k = ix3 b m k := fun k =>
    funext fun c => Fin.ext (by match c with | ⟨0, _⟩ => rfl | ⟨1, _⟩ => rfl | ⟨2, _⟩ => rfl)
  simp only [hi, v13_at, coe_finset_sum]

/-- The sum of the exponentials of a row is positive. -/
theorem sum_pos (b : Fin 8) (m : Fin 2048) : 0 < ∑ n : Fin 2048, Real.exp (sc a b m n - top a b m) :=
  Finset.sum_pos (fun _ _ => Real.exp_pos _) Finset.univ_nonempty

/-- The softmax weight at (b, m, n) is the real quotient of the exponential by the row's sum. -/
theorem v17_at (b : Fin 8) (m n : Fin 2048) :
    Cert.ReferenceIdeal.Read.val_main_v17 (F := Ideal) (arr3 a.xq) (arr3 a.xk) (arr2 a.wq) (arr2 a.wk) (ix3 b m n)
      = ((Real.exp (sc a b m n - top a b m) / (∑ k : Fin 2048, Real.exp (sc a b m k - top a b m)) : ℝ) : EReal) := by
  rw [Cert.ReferenceIdeal.Read.val_main_v17_apply, v13_at, Cert.ReferenceIdeal.Read.val_main_v16_apply,
    Cert.ReferenceIdeal.Read.val_main_v15_apply]
  have hi : Cert.ReferenceIdeal.Read.idx_main_v15 (Cert.ReferenceIdeal.Read.idx_main_v16 (ix3 b m n)) = ix2 b m :=
    funext fun c => Fin.ext (by match c with | ⟨0, _⟩ => rfl | ⟨1, _⟩ => rfl)
  rw [hi, v14_at, Ideal.hostDivf_def, div_coe_real _ _ (sum_pos a b m).ne']

/-! ## The weighted sum and the residual -/

/-- The weighted sum of value rows at (b, m, d) is the real sum of weight times pv. -/
theorem v18_at (b : Fin 8) (m : Fin 2048) (d : Fin 1024) :
    Cert.ReferenceIdeal.Read.val_main_v18 (F := Ideal) (arr3 a.xq) (arr3 a.xk) (arr2 a.wq) (arr2 a.wk) (arr2 a.wv) (ix3 b m d)
      = ((∑ n : Fin 2048, Real.exp (sc a b m n - top a b m) / (∑ k : Fin 2048, Real.exp (sc a b m k - top a b m))
            * pv a b n d : ℝ) : EReal) := by
  rw [Cert.ReferenceIdeal.Read.val_main_v18_apply]
  have hl : ∀ k : Fin 2048, Cert.ReferenceIdeal.Read.lidx_main_v18 (ix3 b m d) k = ix3 b m k := fun k =>
    funext fun c => Fin.ext (by match c with | ⟨0, _⟩ => rfl | ⟨1, _⟩ => rfl | ⟨2, _⟩ => rfl)
  have hr : ∀ k : Fin 2048, Cert.ReferenceIdeal.Read.ridx_main_v18 (ix3 b m d) k = ix3 b k d := fun k =>
    funext fun c => Fin.ext (by match c with | ⟨0, _⟩ => rfl | ⟨1, _⟩ => rfl | ⟨2, _⟩ => rfl)
  simp only [hl, hr, v17_at, v2_at, ← EReal.coe_mul, coe_finset_sum]

/-- The reference's result, on real arguments, is the specification. -/
theorem ref_eq :
    Cert.ReferenceIdeal.Read.val_main_v19 (F := Ideal) (arr3 a.xq) (arr3 a.xk) (arr2 a.wq) (arr2 a.wk) (arr2 a.wv) = G a := by
  funext i
  obtain ⟨b, m, d, rfl⟩ : ∃ (b : Fin 8) (m : Fin 2048) (d : Fin 1024), i = ix3 b m d := ⟨i 0, i 1, i 2, eq_ix3 i⟩
  rw [Cert.ReferenceIdeal.Read.val_main_v19_apply, v18_at, Ideal.addf_def, arr3_ix3, ← EReal.coe_add]
  show ((_ : ℝ) : EReal) = ((out a b m d : ℝ) : EReal)
  refine congrArg (fun r : ℝ => (r : EReal)) ?_
  unfold out
  rw [Finset.sum_div]
  exact congrArg (· + a.xk b m d) (Finset.sum_congr rfl fun n _ => div_mul_eq_mul_div _ _ _)

/-- The same for arrays known to be the real arguments read as extended reals. -/
theorem ref_eq_of (A0 A1 : (⟨3, ![8, 2048, 1024]⟩ : Shape).Idx → EReal) (A2 A3 A4 : (⟨2, ![1024, 1024]⟩ : Shape).Idx → EReal)
    (h0 : A0 = arr3 a.xq) (h1 : A1 = arr3 a.xk) (h2 : A2 = arr2 a.wq) (h3 : A3 = arr2 a.wk) (h4 : A4 = arr2 a.wv) :
    Cert.ReferenceIdeal.Read.val_main_v19 (F := Ideal) A0 A1 A2 A3 A4 = G a := by
  subst h0 h1 h2 h3 h4
  exact ref_eq a

end Cert.RefSide

end
-- ==== Proof.Finite.lean ====
/-
  Finiteness of the inputs.

  The precondition is the conjunction, over the five argument arrays, of "every entry x has |x| < +∞".
  An extended real with |x| < +∞ is neither +∞ nor -∞, so it is a real; hence the five arrays are real arrays
  read as arrays of extended reals.
-/
import Mathlib
import Idealize.ShloMosaic.Lib.ReduceAll
import Idealize.ShloMosaic.Lib.ValueIdx
import Idealize.ShloMosaic.PureOps.Ideal
import proofs.«133258_j49804440764736_2_alg».proof.Pre_finite_inputs
import proofs.«133258_j49804440764736_2_alg».proof.Proof.Spec

noncomputable section

namespace Cert.Finite

open Idealize.ShloMosaic Idealize.ShloMosaic.ValueIdx

/-- The index type of a rank-0 array has one element. -/
instance : Subsingleton (⟨0, ![]⟩ : Shape).Idx := ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value max x (-x) is strictly below +∞ is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- Every entry of an array, all of whose entries x satisfy |x| < +∞, is a real. -/
theorem entry_real {s : Shape} {axes : List (Fin s.rank)} (A : s.Idx → EReal)
    (hb : (⟨0, ![]⟩ : Shape).BroadcastsInDim s (![] : Fin 0 → Fin s.rank))
    (h' : s.ReducesTo axes (⟨0, ![]⟩ : Shape)) (hu : 0 < (⟨0, ![]⟩ : Shape).numel)
    (e : Host.reduce IntOp.andi
        (cmpf .olt (Host.absf (F := Ideal) (φ := .f32) A)
          (broadcastInDim s ![] hb (constant (F := Ideal) (⟨0, ![]⟩ : Shape) .f32 0x7F800000#32)))
        (constantI (⟨0, ![]⟩ : Shape) 1 1#1) h' hu ix0 = 1#1) (i : s.Idx) :
    ∃ r : ℝ, A i = (r : EReal) :=
  real_of_abs_lt (A i) (Host.reduce_andi_all _ _ h' hu ix0 e i)

/-- A rank-3 array of extended reals whose entries are all real is a real array. -/
theorem arr3_of_real {n0 n1 n2 : Nat} (A : (⟨3, ![n0, n1, n2]⟩ : Shape).Idx → EReal)
    (hA : ∀ i, ∃ r : ℝ, A i = (r : EReal)) :
    A = Cert.Spec.arr3 (fun p q r => (A (ix3 p q r)).toReal) := by
  funext i
  obtain ⟨r, hr⟩ := hA i
  refine Eq.trans ?_ (congrArg (fun j => (((A j).toReal : ℝ) : EReal)) (eq_ix3 i))
  show A i = (((A i).toReal : ℝ) : EReal)
  rw [hr, EReal.toReal_coe]

/-- A rank-2 array of extended reals whose entries are all real is a real array. -/
theorem arr2_of_real {n0 n1 : Nat} (A : (⟨2, ![n0, n1]⟩ : Shape).Idx → EReal)
    (hA : ∀ i, ∃ r : ℝ, A i = (r : EReal)) :
    A = Cert.Spec.arr2 (fun p q => (A (ix2 p q)).toReal) := by
  funext i
  obtain ⟨r, hr⟩ := hA i
  refine Eq.trans ?_ (congrArg (fun j => (((A j).toReal : ℝ) : EReal)) (eq_ix2 i))
  show A i = (((A i).toReal : ℝ) : EReal)
  rw [hr, EReal.toReal_coe]

variable [Cert.Pre_finite_inputs.Facts]

/-- If the precondition holds, the five argument arrays are real arrays read as arrays of extended reals. -/
theorem args_of_pre
    (A0 A1 : (⟨3, ![8, 2048, 1024]⟩ : Shape).Idx → EReal) (A2 A3 A4 : (⟨2, ![1024, 1024]⟩ : Shape).Idx → EReal)
    (h : Cert.Pre_finite_inputs.fn (F := Ideal) A0 A1 A2 A3 A4 = (fun _ => 1#1)) :
    ∃ a : Cert.Spec.Args, A0 = Cert.Spec.arr3 a.xq ∧ A1 = Cert.Spec.arr3 a.xk ∧ A2 = Cert.Spec.arr2 a.wq
      ∧ A3 = Cert.Spec.arr2 a.wk ∧ A4 = Cert.Spec.arr2 a.wv := by
  have h0 := congrFun h ValueIdx.ix0
  dsimp only [Cert.Pre_finite_inputs.fn, Cert.Pre_finite_inputs.fn_part1] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨⟨fun p q r => (A0 (ix3 p q r)).toReal, fun p q r => (A1 (ix3 p q r)).toReal,
      fun p q => (A2 (ix2 p q)).toReal, fun p q => (A3 (ix2 p q)).toReal, fun p q => (A4 (ix2 p q)).toReal⟩,
    arr3_of_real A0 (entry_real A0 _ _ _ e0), arr3_of_real A1 (entry_real A1 _ _ _ e1),
    arr2_of_real A2 (entry_real A2 _ _ _ e2), arr2_of_real A3 (entry_real A3 _ _ _ e3),
    arr2_of_real A4 (entry_real A4 _ _ _ e4)⟩

end Cert.Finite

end
-- ==== Proof.HostValue.lean ====
/-
  What the projection region finds. The host stretch before it transposes each weight matrix (and changes its
  float format, which does nothing to an exact real): the buffer the region stages as its third operand holds, at
  (d, e), the entry (e, d) of the first weight matrix; likewise the fourth and fifth. The two sequence arguments
  are staged as launched.
-/
import proofs.«133258_j49804440764736_2_alg».proof.Proof.RunI
import proofs.«133258_j49804440764736_2_alg».proof.Proof.Spec
import Idealize.ShloMosaic.Lib.ValueIdx
import Idealize.ShloMosaic.Lib.ValueLayout
import Idealize.ShloMosaic.Lib.StableHlo.Run

set_option maxRecDepth 16384

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand Cert.Spec

variable (m : (ℓ : Loc nD τ sig) → Buf (Elt Ideal) ℓ) (a : Cert.Spec.Args)

/-- A transposed real matrix, as an array of extended reals. -/
def arr2T (x : Fin 1024 → Fin 1024 → ℝ) : (⟨2, ![1024, 1024]⟩ : Shape).Idx → EReal :=
  fun i => ((x (i 1) (i 0) : ℝ) : EReal)

theorem V1_arg0 (c : Dev nD) (h : (m ((c : Thread nD τ).loc main_arg0) : S8x2048x1024.Idx → EReal) = arr3 a.xq) :
    (Hand.V1 m c main_arg0 : S8x2048x1024.Idx → EReal) = arr3 a.xq := (W1_arg m c main_arg0 (by decide)).trans h
theorem V1_arg1 (c : Dev nD) (h : (m ((c : Thread nD τ).loc main_arg1) : S8x2048x1024.Idx → EReal) = arr3 a.xk) :
    (Hand.V1 m c main_arg1 : S8x2048x1024.Idx → EReal) = arr3 a.xk := (W1_arg m c main_arg1 (by decide)).trans h

/-- The transposed first weight matrix. -/
theorem V1_v1 (c : Dev nD) (h : (m ((c : Thread nD τ).loc main_arg2) : S1024x1024.Idx → EReal) = arr2 a.wq) :
    (Hand.V1 m c main_v1 : S1024x1024.Idx → EReal) = arr2T a.wq := by
  show StableHlo.after hostOps0 (fun b => m (c, b)) (Proc.devRef .tc main_v1) = _
  after_results
  funext i
  obtain ⟨p, q, rfl⟩ : ∃ (p : Fin 1024) (q : Fin 1024), i = ix2 p q := ⟨i 0, i 1, eq_ix2 i⟩
  rw [truncf_apply, transpose_ix2_apply]
  exact congrFun h (ix2 q p)
/-- The transposed second weight matrix. -/
theorem V1_v3 (c : Dev nD) (h : (m ((c : Thread nD τ).loc main_arg3) : S1024x1024.Idx → EReal) = arr2 a.wk) :
    (Hand.V1 m c main_v3 : S1024x1024.Idx → EReal) = arr2T a.wk := by
  show StableHlo.after hostOps0 (fun b => m (c, b)) (Proc.devRef .tc main_v3) = _
  after_results
  funext i
  obtain ⟨p, q, rfl⟩ : ∃ (p : Fin 1024) (q : Fin 1024), i = ix2 p q := ⟨i 0, i 1, eq_ix2 i⟩
  rw [truncf_apply, transpose_ix2_apply]
  exact congrFun h (ix2 q p)
/-- The transposed third weight matrix. -/
theorem V1_v5 (c : Dev nD) (h : (m ((c : Thread nD τ).loc main_arg4) : S1024x1024.Idx → EReal) = arr2 a.wv) :
    (Hand.V1 m c main_v5 : S1024x1024.Idx → EReal) = arr2T a.wv := by
  show StableHlo.after hostOps0 (fun b => m (c, b)) (Proc.devRef .tc main_v5) = _
  after_results
  funext i
  obtain ⟨p, q, rfl⟩ : ∃ (p : Fin 1024) (q : Fin 1024), i = ix2 p q := ⟨i 0, i 1, eq_ix2 i⟩
  rw [truncf_apply, transpose_ix2_apply]
  exact congrFun h (ix2 q p)

end Cert.KernelIdeal.HandVal

end
-- ==== Proof.StepMathA.lean ====
/-
  The kernel bodies' matrix products read at an index, in extended-real arithmetic.

  At the ideal values a matrix product into a zero accumulator is, at each output index, the sum over the
  contraction coordinate of the operands' products, and a change of format is the identity. So each projection
  output at (0, k, c) is the sum over d of x (0, k, d) * w (d, c), and the score block at (r, k) is the sum over e
  of kb (0, r, e) * qb (0, k, e), times 1/32.
-/
import proofs.«133258_j49804440764736_2_alg».proof.Proof.StepsI
import proofs.«133258_j49804440764736_2_alg».proof.Proof.Spec
import proofs.«133258_j49804440764736_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandMath

open Idealize.ShloMosaic Idealize.ShloMosaic.ValueIdx Idealize.SL.Sem Cert.KernelIdeal Cert.KernelIdeal.Gen Cert.KernelIdeal.Hand

theorem dproj_l_non (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dproj_l_con (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem dproj_r_non (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem dproj_r_con (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- A [512,1024] by [1024,1024] matrix product into zero, at (k, c): the sum over d of a (k, d) * w (d, c). -/
theorem matmul_proj_apply (a : FVec Ideal S512x1024 .bf16) (w : FVec Ideal S1024x1024 .bf16) (k : Fin 512) (c : Fin 1024) :
    matmul dot_S512x1024_S1024x1024_S512x1024_1_0_0_1_n_n none a w (constant (F := Ideal) S512x1024 .f32 0x00000000#32) (ix2 k c)
      = ∑ d : Fin 1024, a (ix2 k d) * w (ix2 d c) := by
  refine (Ideal.matmul_constant_zero_apply dot_S512x1024_S1024x1024_S512x1024_1_0_0_1_n_n none a w (ix2 k c)).trans ?_
  rw [← Equiv.sum_comp (contrEquiv1 dot_S512x1024_S1024x1024_S512x1024_1_0_0_1_n_n 1024 rfl rfl).symm]
  refine Finset.sum_congr rfl fun d _ => ?_
  have hk := contrEquiv1_symm_val dot_S512x1024_S1024x1024_S512x1024_1_0_0_1_n_n 1024 rfl rfl d
  have el : dot_S512x1024_S1024x1024_S512x1024_1_0_0_1_n_n.lhsIdx (ix2 k c) ((contrEquiv1 dot_S512x1024_S1024x1024_S512x1024_1_0_0_1_n_n 1024 rfl rfl).symm d) = ix2 k d :=
    funext fun ax => Fin.ext (by
      match ax with
      | ⟨0, _⟩ => exact dproj_l_non _ _
      | ⟨1, _⟩ => exact (dproj_l_con _ _).trans hk)
  have er : dot_S512x1024_S1024x1024_S512x1024_1_0_0_1_n_n.rhsIdx (ix2 k c) ((contrEquiv1 dot_S512x1024_S1024x1024_S512x1024_1_0_0_1_n_n 1024 rfl rfl).symm d) = ix2 d c :=
    funext fun ax => Fin.ext (by
      match ax with
      | ⟨0, _⟩ => exact (dproj_r_con _ _).trans hk
      | ⟨1, _⟩ => exact dproj_r_non _ _)
  rw [el, er]

theorem dscore_l_non (i : S256x512.Idx) (q : dot_S256x1024_S512x1024_S256x512_1_1_0_0_n_n.contr.Idx) :
    (dot_S256x1024_S512x1024_S256x512_1_1_0_0_n_n.lhsIdx i q 0).val = (i 0).val := by
  unfold DotDims.lhsIdx
  rw [dif_neg (show ¬(0 : Fin S256x1024.rank) ∈ dot_S256x1024_S512x1024_S256x512_1_1_0_0_n_n.lhsBatch by decide), dif_pos (show (0 : Fin S256x1024.rank) ∈ dot_S256x1024_S512x1024_S256x512_1_1_0_0_n_n.lhsNonContracting by decide)]
  rfl
theorem dscore_l_con (i : S256x512.Idx) (q : dot_S256x1024_S512x1024_S256x512_1_1_0_0_n_n.contr.Idx) :
    (dot_S256x1024_S512x1024_S256x512_1_1_0_0_n_n.lhsIdx i q 1).val = (q ⟨0, by decide⟩).val :=
  dot_S256x1024_S512x1024_S256x512_1_1_0_0_n_n.lhsIdx_val_of_single rfl i q
theorem dscore_r_non (i : S256x512.Idx) (q : dot_S256x1024_S512x1024_S256x512_1_1_0_0_n_n.contr.Idx) :
    (dot_S256x1024_S512x1024_S256x512_1_1_0_0_n_n.rhsIdx i q 0).val = (i 1).val := by
  unfold DotDims.rhsIdx
  rw [dif_neg (show ¬(0 : Fin S512x1024.rank) ∈ dot_S256x1024_S512x1024_S256x512_1_1_0_0_n_n.rhsBatch by decide), dif_pos (show (0 : Fin S512x1024.rank) ∈ dot_S256x1024_S512x1024_S256x512_1_1_0_0_n_n.rhsNonContracting by decide)]
  rfl
theorem dscore_r_con (i : S256x512.Idx) (q : dot_S256x1024_S512x1024_S256x512_1_1_0_0_n_n.contr.Idx) :
    (dot_S256x1024_S512x1024_S256x512_1_1_0_0_n_n.rhsIdx i q 1).val = (q ⟨0, by decide⟩).val :=
  dot_S256x1024_S512x1024_S256x512_1_1_0_0_n_n.rhsIdx_val_of_single rfl i q

/-- A [256,1024] by [512,1024] product contracting both last axes, into zero, at (r, k): the sum over e of a (r, e) * w (k, e). -/
theorem matmul_score_apply (a : FVec Ideal S256x1024 .bf16) (w : FVec Ideal S512x1024 .bf16) (r : Fin 256) (k : Fin 512) :
    matmul dot_S256x1024_S512x1024_S256x512_1_1_0_0_n_n none a w (constant (F := Ideal) S256x512 .f32 0x00000000#32) (ix2 r k)
      = ∑ d : Fin 1024, a (ix2 r d) * w (ix2 k d) := by
  refine (Ideal.matmul_constant_zero_apply dot_S256x1024_S512x1024_S256x512_1_1_0_0_n_n none a w (ix2 r k)).trans ?_
  rw [← Equiv.sum_comp (contrEquiv1 dot_S256x1024_S512x1024_S256x512_1_1_0_0_n_n 1024 rfl rfl).symm]
  refine Finset.sum_congr rfl fun d _ => ?_
  have hk := contrEquiv1_symm_val dot_S256x1024_S512x1024_S256x512_1_1_0_0_n_n 1024 rfl rfl d
  have el : dot_S256x1024_S512x1024_S256x512_1_1_0_0_n_n.lhsIdx (ix2 r k) ((contrEquiv1 dot_S256x1024_S512x1024_S256x512_1_1_0_0_n_n 1024 rfl rfl).symm d) = ix2 r d :=
    funext fun ax => Fin.ext (by
      match ax with
      | ⟨0, _⟩ => exact dscore_l_non _ _
      | ⟨1, _⟩ => exact (dscore_l_con _ _).trans hk)
  have er : dot_S256x1024_S512x1024_S256x512_1_1_0_0_n_n.rhsIdx (ix2 r k) ((contrEquiv1 dot_S256x1024_S512x1024_S256x512_1_1_0_0_n_n 1024 rfl rfl).symm d) = ix2 k d :=
    funext fun ax => Fin.ext (by
      match ax with
      | ⟨0, _⟩ => exact dscore_r_non _ _
      | ⟨1, _⟩ => exact (dscore_r_con _ _).trans hk)
  rw [el, er]

theorem dval_l_non (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
theorem dval_l_con (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
theorem dval_r_non (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl
theorem dval_r_con (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q

/-- A [256,512] by [512,1024] matrix product into zero, at (r, c): the sum over k of a (r, k) * w (k, c). -/
theorem matmul_val_apply (a : FVec Ideal S256x512 .bf16) (w : FVec Ideal S512x1024 .bf16) (r : Fin 256) (c : Fin 1024) :
    matmul dot_S256x512_S512x1024_S256x1024_1_0_0_1_n_n none a w (constant (F := Ideal) S256x1024 .f32 0x00000000#32) (ix2 r c)
      = ∑ d : Fin 512, a (ix2 r d) * w (ix2 d c) := by
  refine (Ideal.matmul_constant_zero_apply dot_S256x512_S512x1024_S256x1024_1_0_0_1_n_n none a w (ix2 r c)).trans ?_
  rw [← Equiv.sum_comp (contrEquiv1 dot_S256x512_S512x1024_S256x1024_1_0_0_1_n_n 512 rfl rfl).symm]
  refine Finset.sum_congr rfl fun d _ => ?_
  have hk := contrEquiv1_symm_val dot_S256x512_S512x1024_S256x1024_1_0_0_1_n_n 512 rfl rfl d
  have el : dot_S256x512_S512x1024_S256x1024_1_0_0_1_n_n.lhsIdx (ix2 r c) ((contrEquiv1 dot_S256x512_S512x1024_S256x1024_1_0_0_1_n_n 512 rfl rfl).symm d) = ix2 r d :=
    funext fun ax => Fin.ext (by
      match ax with
      | ⟨0, _⟩ => exact dval_l_non _ _
      | ⟨1, _⟩ => exact (dval_l_con _ _).trans hk)
  have er : dot_S256x512_S512x1024_S256x1024_1_0_0_1_n_n.rhsIdx (ix2 r c) ((contrEquiv1 dot_S256x512_S512x1024_S256x1024_1_0_0_1_n_n 512 rfl rfl).symm d) = ix2 d c :=
    funext fun ax => Fin.ext (by
      match ax with
      | ⟨0, _⟩ => exact (dval_r_con _ _).trans hk
      | ⟨1, _⟩ => exact dval_r_non _ _)
  rw [el, er]

/-- The rounded input block at (k, d) is the input block at (0, k, d): the format change is the identity. -/
theorem pay1_apply (x : Vec Ideal S1x512x1024 .f32) (k : Fin 512) (d : Fin 1024) :
    k0_pay1 x (ix2 k d) = x (ix3 (0 : Fin 1) k d) := by
  unfold k0_pay1
  exact shapeCast_1ab_ab_apply x _ k d

/-- The first projection output at (0, k, c): the sum over d of x (0, k, d) * w (d, c). -/
theorem proj2_apply (x : Vec Ideal S1x512x1024 .f32) (w : Vec Ideal S1024x1024 .bf16) (k : Fin 512) (c : Fin 1024) :
    k0_pay2 x w (ix3 (0 : Fin 1) k c) = ∑ d : Fin 1024, x (ix3 (0 : Fin 1) k d) * w (ix2 d c) := by
  unfold k0_pay2
  refine (shapeCast_ab_1ab_apply _ _ 0 k c).trans ?_
  refine (matmul_proj_apply _ _ k c).trans ?_
  refine Finset.sum_congr rfl fun d _ => ?_
  rw [pay1_apply, shapeCast_self]

/-- The second projection output at (0, k, c): the sum over d of x (0, k, d) * w (d, c). -/
theorem proj3_apply (x : Vec Ideal S1x512x1024 .f32) (w : Vec Ideal S1024x1024 .bf16) (k : Fin 512) (c : Fin 1024) :
    k0_pay3 x w (ix3 (0 : Fin 1) k c) = ∑ d : Fin 1024, x (ix3 (0 : Fin 1) k d) * w (ix2 d c) := by
  unfold k0_pay3
  refine (shapeCast_ab_1ab_apply _ _ 0 k c).trans ?_
  refine (matmul_proj_apply _ _ k c).trans ?_
  refine Finset.sum_congr rfl fun d _ => ?_
  rw [pay1_apply, shapeCast_self]

/-- The third projection output, of the other input block, at (0, k, c): the sum over d of x (0, k, d) * w (d, c). -/
theorem proj4_apply (x : Vec Ideal S1x512x1024 .f32) (w : Vec Ideal S1024x1024 .bf16) (k : Fin 512) (c : Fin 1024) :
    k0_pay4 x w (ix3 (0 : Fin 1) k c) = ∑ d : Fin 1024, x (ix3 (0 : Fin 1) k d) * w (ix2 d c) := by
  unfold k0_pay4
  refine (shapeCast_ab_1ab_apply _ _ 0 k c).trans ?_
  refine (matmul_proj_apply _ _ k c).trans ?_
  refine Finset.sum_congr rfl fun d _ => ?_
  rw [shapeCast_self]
  exact congrArg (· * w (ix2 d c)) (shapeCast_1ab_ab_apply x _ k d)

/-- The score block at (r, k): the sum over e of kb (0, r, e) * qb (0, k, e), times the constant 1/32 as a single-precision word. -/
theorem score_apply_bits (kb : Vec Ideal S1x256x1024 .bf16) (qb : Vec Ideal S1x512x1024 .bf16) (r : Fin 256) (k : Fin 512) :
    k1_pay8 kb qb (ix2 r k)
      = (∑ e : Fin 1024, kb (ix3 (0 : Fin 1) r e) * qb (ix3 (0 : Fin 1) k e)) * Ideal.ofBits .f32 0x3D000000#32 := by
  unfold k1_pay8
  refine (mulf_apply _ _ (ix2 r k)).trans ?_
  refine congrArg (· * Ideal.ofBits .f32 0x3D000000#32) ?_
  refine (matmul_score_apply _ _ r k).trans ?_
  refine Finset.sum_congr rfl fun e _ => ?_
  rw [shapeCast_1ab_ab_apply, shapeCast_1ab_ab_apply]

/-- The score block at (r, k): the sum over e of kb (0, r, e) * qb (0, k, e), times 1/32. -/
theorem score_apply (kb : Vec Ideal S1x256x1024 .bf16) (qb : Vec Ideal S1x512x1024 .bf16) (r : Fin 256) (k : Fin 512) :
    k1_pay8 kb qb (ix2 r k)
      = (∑ e : Fin 1024, kb (ix3 (0 : Fin 1) r e) * qb (ix3 (0 : Fin 1) k e)) * ((1 / 32 : ℝ) : EReal) := by
  rw [score_apply_bits, LibOnlineSoftmax.ofBits_inv32]

end Cert.KernelIdeal.HandMath

end
-- ==== Proof.ProjValue.lean ====
/-
  The projection region's three output arrays.

  Grid point (b, n) writes rows 512 n .. 512 n + 511 of batch b of each output array; what it writes is the product of
  the same rows of an input sequence with a whole transposed weight matrix. The 32 points' blocks tile each output
  array, so the query, key and value outputs end holding the projections pq, pk, pv of the real arguments.
-/
import proofs.«133258_j49804440764736_2_alg».proof.Proof.ProjRegionI
import proofs.«133258_j49804440764736_2_alg».proof.Proof.StepMathA
import proofs.«133258_j49804440764736_2_alg».proof.Proof.Spec
import Idealize.ShloMosaic.Lib.Pipeline.Value
import Idealize.ShloMosaic.Lib.ValueIdx

noncomputable section

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.HandMath Cert.Spec Cert.LibOnlineSoftmax

variable (V : (c : Dev nD) → (b : Ref sig .tc) → Buf (Elt Ideal) ((c : Thread nD τ).loc b))
variable (a : Cert.Spec.Args)

theorem hz3 : (![0, 0, 0] : Fin 3 → Nat) = fun _ => 0 := funext fun x => by fin_cases x <;> rfl
theorem hz2 : (![0, 0] : Fin 2 → Nat) = fun _ => 0 := funext fun x => by fin_cases x <;> rfl

/-- The index maps over the grid: a sequence window and an output window take the same block, row block n of batch b;
    a weight window takes the whole matrix. -/
theorem idx_facts : ∀ t : Fin cfg0.N,
    win0_5.index t (0 : Fin 3) < 8 ∧ win0_5.index t (1 : Fin 3) < 4 ∧ win0_5.index t (2 : Fin 3) = 0
    ∧ win0_6.index t = win0_5.index t ∧ win0_7.index t = win0_5.index t
    ∧ win0_0.index t = win0_5.index t ∧ win0_1.index t = win0_5.index t
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every row block of every batch is some grid point's. -/
theorem idx_onto : ∀ (q0 : Fin 8) (q1 : Fin 4), ∃ t : Fin cfg0.N, win0_5.index t = ![q0.val, q1.val, 0] :=
  (by decide +kernel : ∀ (q0 : Fin 8) (q1 : Fin 4), ∃ t : Fin grid0.N, win0_5.index t = ![q0.val, q1.val, 0])

/-- One output block. If the block x holds rows 512 n .. of batch b of a real sequence s, the block w holds the
    transpose of a real matrix mt, and the block p is at (0, k, c) the sum over d of x (0, k, d) * w (d, c), then p at
    an index y is the real projection ∑ d, s b r d * mt e d at the array index i = (b, 512 n + y 1, y 2). -/
theorem block_at (s : Fin 8 → Fin 2048 → Fin 1024 → ℝ) (mt : Fin 1024 → Fin 1024 → ℝ)
    (x : Vec Ideal S1x512x1024 .f32) (w : Vec Ideal S1024x1024 .bf16) (p : FVec Ideal S1x512x1024 .bf16)
    (hp : ∀ (k : Fin 512) (c : Fin 1024), p (ix3 (0 : Fin 1) k c) = ∑ d : Fin 1024, x (ix3 (0 : Fin 1) k d) * w (ix2 d c))
    (b : Fin 8) (n : Nat) (hn : n < 4)
    (hx : ∀ (k : Fin 512) (d : Fin 1024), x (ix3 (0 : Fin 1) k d) = ((s b ⟨n * 512 + k.val, by omega⟩ d : ℝ) : EReal))
    (hw : ∀ d e : Fin 1024, w (ix2 d e) = ((mt e d : ℝ) : EReal))
    (y : S1x512x1024.Idx) (i : S8x2048x1024.Idx)
    (h0 : (i 0).val = b.val) (h1 : (i 1).val = n * 512 + (y 1).val) (h2 : (i 2).val = (y 2).val) :
    p y = arr3 (fun b r e => ∑ d : Fin 1024, s b r d * mt e d) i := by
  obtain ⟨k, e, rfl⟩ : ∃ (k : Fin 512) (e : Fin 1024), y = ix3 (0 : Fin 1) k e :=
    ⟨y 1, y 2, funext fun c => Fin.ext (by
      match c with
      | ⟨0, _⟩ => have h : (y 0).val < 1 := (y 0).isLt; show (y 0).val = 0; omega
      | ⟨1, _⟩ => rfl
      | ⟨2, _⟩ => rfl)⟩
  have h1' : (i 1).val = n * 512 + k.val := h1
  have h2' : (i 2).val = e.val := h2
  have hb : n * 512 + k.val < 2048 := by have := k.isLt; omega
  have hi : i = ix3 b (⟨n * 512 + k.val, hb⟩ : Fin 2048) e := funext fun c => Fin.ext (by
    match c with
    | ⟨0, _⟩ => exact h0
    | ⟨1, _⟩ => exact h1'
    | ⟨2, _⟩ => exact h2')
  rw [hp, hi, arr3_ix3]
  simp only [hx, hw, ← EReal.coe_mul, coe_finset_sum]

/-- What point t writes back to the pq output is block t of the real projection. -/
theorem flushed5_eq (c : Dev nD) (t : Fin cfg0.N)
    (hs : (V c main_arg0 : S8x2048x1024.Idx → EReal) = arr3 a.xq)
    (hm : (V c main_v1 : S1024x1024.Idx → EReal) = fun i => ((a.wq (i 1) (i 0) : ℝ) : EReal)) :
    (dat0 V c).flushed 5 t = ((cfg0.win 5).blk t).view.read (Elt Ideal) (arr3 (pq a)) := by
  show (cfg0.win 5).cut (grid0.coords t) ((dat0 V c).after 5 t) = _
  rw [after0_5]
  unfold out0_5
  rw [View.canon_unit_zero hz3]
  simp only [View.ld_unit_zero (S := S1x512x1024) hz3, View.ld_unit_zero (S := S1024x1024) hz2]
  obtain ⟨e0, e1, e2, e3, e4, e5, e6, e7, e8, e9, e10, e11, e12⟩ := idx_facts t
  have hm' : (V c main_v1 : S1024x1024.Idx → EReal) = arr2 (fun d e => a.wq e d) := hm
  funext j
  show k0_pay2 (iblk0 V c 0 t) (iblk0 V c 2 t) j = arr3 (pq a) (((cfg0.win 5).blk t).view.emb j)
  refine block_at a.xq a.wq (iblk0 V c 0 t) (iblk0 V c 2 t) _ (fun k c' => proj2_apply _ _ k c')
    ⟨win0_5.index t (0 : Fin 3), e0⟩ (win0_5.index t (1 : Fin 3)) e1 ?_ ?_ j (((cfg0.win 5).blk t).view.emb j) ?_ ?_ ?_
  · intro k d
    show V c main_arg0 (((cfg0.win 0).blk t).view.emb (ix3 (0 : Fin 1) k d)) = _
    rw [hs]
    refine Eq.trans (congrArg (arr3 a.xq) (?_ : _ = ix3 (⟨win0_5.index t (0 : Fin 3), e0⟩ : Fin 8)
      (⟨win0_5.index t (1 : Fin 3) * 512 + k.val, by have := k.isLt; omega⟩ : Fin 2048) d)) rfl
    refine funext fun x => Fin.ext ?_
    match x with
    | ⟨0, _⟩ => show win0_0.index t (0 : Fin 3) * 1 + 1 * 0 = win0_5.index t (0 : Fin 3); rw [e5]; omega
    | ⟨1, _⟩ => show win0_0.index t (1 : Fin 3) * 512 + 1 * k.val = win0_5.index t (1 : Fin 3) * 512 + k.val; rw [e5]; omega
    | ⟨2, _⟩ => show win0_0.index t (2 : Fin 3) * 1024 + 1 * d.val = d.val; rw [e5, e2]; omega
  · intro d e
    show V c main_v1 (((cfg0.win 2).blk t).view.emb (ix2 d e)) = _
    rw [hm']
    refine Eq.trans (congrArg (arr2 (fun d e => a.wq e d)) (?_ : _ = ix2 d e)) rfl
    refine funext fun x => Fin.ext ?_
    match x with
    | ⟨0, _⟩ => show win0_2.index t (0 : Fin 2) * 1024 + 1 * d.val = d.val; rw [e7]; omega
    | ⟨1, _⟩ => show win0_2.index t (1 : Fin 2) * 1024 + 1 * e.val = e.val; rw [e8]; omega
  · show win0_5.index t (0 : Fin 3) * 1 + 1 * (j 0).val = win0_5.index t (0 : Fin 3)
    have h : (j 0).val < 1 := (j 0).isLt
    omega
  · show win0_5.index t (1 : Fin 3) * 512 + 1 * (j 1).val = win0_5.index t (1 : Fin 3) * 512 + (j 1).val
    omega
  · show win0_5.index t (2 : Fin 3) * 1024 + 1 * (j 2).val = (j 2).val
    rw [e2]; omega

/-- What point t writes back to the pk output is block t of the real projection. -/
theorem flushed6_eq (c : Dev nD) (t : Fin cfg0.N)
    (hs : (V c main_arg1 : S8x2048x1024.Idx → EReal) = arr3 a.xk)
    (hm : (V c main_v3 : S1024x1024.Idx → EReal) = fun i => ((a.wk (i 1) (i 0) : ℝ) : EReal)) :
    (dat0 V c).flushed 6 t = ((cfg0.win 6).blk t).view.read (Elt Ideal) (arr3 (pk a)) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1024x1024) hz2]
  obtain ⟨e0, e1, e2, e3, e4, e5, e6, e7, e8, e9, e10, e11, e12⟩ := idx_facts t
  have hm' : (V c main_v3 : S1024x1024.Idx → EReal) = arr2 (fun d e => a.wk e d) := hm
  funext j
  show k0_pay4 (iblk0 V c 1 t) (iblk0 V c 3 t) j = arr3 (pk a) (((cfg0.win 6).blk t).view.emb j)
  refine block_at a.xk a.wk (iblk0 V c 1 t) (iblk0 V c 3 t) _ (fun k c' => proj4_apply _ _ k c')
    ⟨win0_5.index t (0 : Fin 3), e0⟩ (win0_5.index t (1 : Fin 3)) e1 ?_ ?_ j (((cfg0.win 6).blk t).view.emb j) ?_ ?_ ?_
  · intro k d
    show V c main_arg1 (((cfg0.win 1).blk t).view.emb (ix3 (0 : Fin 1) k d)) = _
    rw [hs]
    refine Eq.trans (congrArg (arr3 a.xk) (?_ : _ = ix3 (⟨win0_5.index t (0 : Fin 3), e0⟩ : Fin 8)
      (⟨win0_5.index t (1 : Fin 3) * 512 + k.val, by have := k.isLt; omega⟩ : Fin 2048) d)) rfl
    refine funext fun x => Fin.ext ?_
    match x with
    | ⟨0, _⟩ => show win0_1.index t (0 : Fin 3) * 1 + 1 * 0 = win0_5.index t (0 : Fin 3); rw [e6]; omega
    | ⟨1, _⟩ => show win0_1.index t (1 : Fin 3) * 512 + 1 * k.val = win0_5.index t (1 : Fin 3) * 512 + k.val; rw [e6]; omega
    | ⟨2, _⟩ => show win0_1.index t (2 : Fin 3) * 1024 + 1 * d.val = d.val; rw [e6, e2]; omega
  · intro d e
    show V c main_v3 (((cfg0.win 3).blk t).view.emb (ix2 d e)) = _
    rw [hm']
    refine Eq.trans (congrArg (arr2 (fun d e => a.wk e d)) (?_ : _ = ix2 d e)) rfl
    refine funext fun x => Fin.ext ?_
    match x with
    | ⟨0, _⟩ => show win0_3.index t (0 : Fin 2) * 1024 + 1 * d.val = d.val; rw [e9]; omega
    | ⟨1, _⟩ => show win0_3.index t (1 : Fin 2) * 1024 + 1 * e.val = e.val; rw [e10]; omega
  · show win0_6.index t (0 : Fin 3) * 1 + 1 * (j 0).val = win0_5.index t (0 : Fin 3)
    have h : (j 0).val < 1 := (j 0).isLt
    rw [e3]; omega
  · show win0_6.index t (1 : Fin 3) * 512 + 1 * (j 1).val = win0_5.index t (1 : Fin 3) * 512 + (j 1).val
    rw [e3]; omega
  · show win0_6.index t (2 : Fin 3) * 1024 + 1 * (j 2).val = (j 2).val
    rw [e3, e2]; omega

/-- What point t writes back to the pv output is block t of the real projection. -/
theorem flushed7_eq (c : Dev nD) (t : Fin cfg0.N)
    (hs : (V c main_arg0 : S8x2048x1024.Idx → EReal) = arr3 a.xq)
    (hm : (V c main_v5 : S1024x1024.Idx → EReal) = fun i => ((a.wv (i 1) (i 0) : ℝ) : EReal)) :
    (dat0 V c).flushed 7 t = ((cfg0.win 7).blk t).view.read (Elt Ideal) (arr3 (pv a)) := by
  show (cfg0.win 7).cut (grid0.coords t) ((dat0 V c).after 7 t) = _
  rw [after0_7]
  unfold out0_7
  rw [View.canon_unit_zero hz3]
  simp only [View.ld_unit_zero (S := S1x512x1024) hz3, View.ld_unit_zero (S := S1024x1024) hz2]
  obtain ⟨e0, e1, e2, e3, e4, e5, e6, e7, e8, e9, e10, e11, e12⟩ := idx_facts t
  have hm' : (V c main_v5 : S1024x1024.Idx → EReal) = arr2 (fun d e => a.wv e d) := hm
  funext j
  show k0_pay3 (iblk0 V c 0 t) (iblk0 V c 4 t) j = arr3 (pv a) (((cfg0.win 7).blk t).view.emb j)
  refine block_at a.xq a.wv (iblk0 V c 0 t) (iblk0 V c 4 t) _ (fun k c' => proj3_apply _ _ k c')
    ⟨win0_5.index t (0 : Fin 3), e0⟩ (win0_5.index t (1 : Fin 3)) e1 ?_ ?_ j (((cfg0.win 7).blk t).view.emb j) ?_ ?_ ?_
  · intro k d
    show V c main_arg0 (((cfg0.win 0).blk t).view.emb (ix3 (0 : Fin 1) k d)) = _
    rw [hs]
    refine Eq.trans (congrArg (arr3 a.xq) (?_ : _ = ix3 (⟨win0_5.index t (0 : Fin 3), e0⟩ : Fin 8)
      (⟨win0_5.index t (1 : Fin 3) * 512 + k.val, by have := k.isLt; omega⟩ : Fin 2048) d)) rfl
    refine funext fun x => Fin.ext ?_
    match x with
    | ⟨0, _⟩ => show win0_0.index t (0 : Fin 3) * 1 + 1 * 0 = win0_5.index t (0 : Fin 3); rw [e5]; omega
    | ⟨1, _⟩ => show win0_0.index t (1 : Fin 3) * 512 + 1 * k.val = win0_5.index t (1 : Fin 3) * 512 + k.val; rw [e5]; omega
    | ⟨2, _⟩ => show win0_0.index t (2 : Fin 3) * 1024 + 1 * d.val = d.val; rw [e5, e2]; omega
  · intro d e
    show V c main_v5 (((cfg0.win 4).blk t).view.emb (ix2 d e)) = _
    rw [hm']
    refine Eq.trans (congrArg (arr2 (fun d e => a.wv e d)) (?_ : _ = ix2 d e)) rfl
    refine funext fun x => Fin.ext ?_
    match x with
    | ⟨0, _⟩ => show win0_4.index t (0 : Fin 2) * 1024 + 1 * d.val = d.val; rw [e11]; omega
    | ⟨1, _⟩ => show win0_4.index t (1 : Fin 2) * 1024 + 1 * e.val = e.val; rw [e12]; omega
  · show win0_7.index t (0 : Fin 3) * 1 + 1 * (j 0).val = win0_5.index t (0 : Fin 3)
    have h : (j 0).val < 1 := (j 0).isLt
    rw [e4]; omega
  · show win0_7.index t (1 : Fin 3) * 512 + 1 * (j 1).val = win0_5.index t (1 : Fin 3) * 512 + (j 1).val
    rw [e4]; omega
  · show win0_7.index t (2 : Fin 3) * 1024 + 1 * (j 2).val = (j 2).val
    rw [e4, e2]; omega

/-- An index of the query output array is in point t's block iff each coordinate is in the block's range on its axis. -/
theorem mem_blk5 (t : Fin cfg0.N) (i : S8x2048x1024.Idx) :
    i ∈ ((cfg0.win 5).blk t).view.set ↔ ∀ x : Fin 3, win0_5.index t x * S1x512x1024.size x ≤ (i x).val
      ∧ (i x).val < win0_5.index t x * S1x512x1024.size x + S1x512x1024.size x := by
  show i ∈ ((View.whole main_v6_0).slice (win0_5.rect t)).set ↔ _
  rw [View.set_slice_whole, Rect.mem_set_unit]
  exact Iff.rfl

/-- Every index of the query output array is in the block of the point of its batch and row block. -/
theorem cover5 (i : S8x2048x1024.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  obtain ⟨e0, e1, e2, e3, e4, e5, e6, e7, e8, e9, e10, e11, e12⟩ := idx_facts t
  refine ⟨t, flush0_5 t, ?_⟩
  rw [mem_blk5]
  intro x
  match x with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 1024 ≤ (i 2).val ∧ (i 2).val < win0_5.index t (2 : Fin 3) * 1024 + 1024
    omega

/-- An index of the key output array is in point t's block iff each coordinate is in the block's range on its axis. -/
theorem mem_blk6 (t : Fin cfg0.N) (i : S8x2048x1024.Idx) :
    i ∈ ((cfg0.win 6).blk t).view.set ↔ ∀ x : Fin 3, win0_6.index t x * S1x512x1024.size x ≤ (i x).val
      ∧ (i x).val < win0_6.index t x * S1x512x1024.size x + S1x512x1024.size x := by
  show i ∈ ((View.whole main_v6_1).slice (win0_6.rect t)).set ↔ _
  rw [View.set_slice_whole, Rect.mem_set_unit]
  exact Iff.rfl

/-- Every index of the key output array is in the block of the point of its batch and row block. -/
theorem cover6 (i : S8x2048x1024.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  obtain ⟨e0, e1, e2, e3, e4, e5, e6, e7, e8, e9, e10, e11, e12⟩ := idx_facts t
  refine ⟨t, flush0_6 t, ?_⟩
  rw [mem_blk6]
  intro x
  match x with
  | ⟨0, _⟩ =>
    show win0_6.index t (0 : Fin 3) * 1 ≤ (i 0).val ∧ (i 0).val < win0_6.index t (0 : Fin 3) * 1 + 1
    rw [e3]; omega
  | ⟨1, _⟩ =>
    show win0_6.index t (1 : Fin 3) * 512 ≤ (i 1).val ∧ (i 1).val < win0_6.index t (1 : Fin 3) * 512 + 512
    rw [e3]; omega
  | ⟨2, _⟩ =>
    show win0_6.index t (2 : Fin 3) * 1024 ≤ (i 2).val ∧ (i 2).val < win0_6.index t (2 : Fin 3) * 1024 + 1024
    rw [e3]; omega

/-- An index of the value output array is in point t's block iff each coordinate is in the block's range on its axis. -/
theorem mem_blk7 (t : Fin cfg0.N) (i : S8x2048x1024.Idx) :
    i ∈ ((cfg0.win 7).blk t).view.set ↔ ∀ x : Fin 3, win0_7.index t x * S1x512x1024.size x ≤ (i x).val
      ∧ (i x).val < win0_7.index t x * S1x512x1024.size x + S1x512x1024.size x := by
  show i ∈ ((View.whole main_v6_2).slice (win0_7.rect t)).set ↔ _
  rw [View.set_slice_whole, Rect.mem_set_unit]
  exact Iff.rfl

/-- Every index of the value output array is in the block of the point of its batch and row block. -/
theorem cover7 (i : S8x2048x1024.Idx) :
    ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  obtain ⟨e0, e1, e2, e3, e4, e5, e6, e7, e8, e9, e10, e11, e12⟩ := idx_facts t
  refine ⟨t, flush0_7 t, ?_⟩
  rw [mem_blk7]
  intro x
  match x with
  | ⟨0, _⟩ =>
    show win0_7.index t (0 : Fin 3) * 1 ≤ (i 0).val ∧ (i 0).val < win0_7.index t (0 : Fin 3) * 1 + 1
    rw [e4]; omega
  | ⟨1, _⟩ =>
    show win0_7.index t (1 : Fin 3) * 512 ≤ (i 1).val ∧ (i 1).val < win0_7.index t (1 : Fin 3) * 512 + 512
    rw [e4]; omega
  | ⟨2, _⟩ =>
    show win0_7.index t (2 : Fin 3) * 1024 ≤ (i 2).val ∧ (i 2).val < win0_7.index t (2 : Fin 3) * 1024 + 1024
    rw [e4]; omega

/-- The query output array after the region is the projection pq of the real arguments. -/
theorem final5 (c : Dev nD)
    (hs : (V c main_arg0 : S8x2048x1024.Idx → EReal) = arr3 a.xq)
    (hm : (V c main_v1 : S1024x1024.Idx → EReal) = fun i => ((a.wq (i 1) (i 0) : ℝ) : EReal)) :
    (dat0 V c).arrAt 5 cfg0.N = arr3 (pq a) :=
  (dat0 V c).arrAt_eq_of_cover 5 (arr3 (pq a)) (fun t _ => flushed5_eq V a c t hs hm) cover5

/-- The key output array after the region is the projection pk of the real arguments. -/
theorem final6 (c : Dev nD)
    (hs : (V c main_arg1 : S8x2048x1024.Idx → EReal) = arr3 a.xk)
    (hm : (V c main_v3 : S1024x1024.Idx → EReal) = fun i => ((a.wk (i 1) (i 0) : ℝ) : EReal)) :
    (dat0 V c).arrAt 6 cfg0.N = arr3 (pk a) :=
  (dat0 V c).arrAt_eq_of_cover 6 (arr3 (pk a)) (fun t _ => flushed6_eq V a c t hs hm) cover6

/-- The value output array after the region is the projection pv of the real arguments. -/
theorem final7 (c : Dev nD)
    (hs : (V c main_arg0 : S8x2048x1024.Idx → EReal) = arr3 a.xq)
    (hm : (V c main_v5 : S1024x1024.Idx → EReal) = fun i => ((a.wv (i 1) (i 0) : ℝ) : EReal)) :
    (dat0 V c).arrAt 7 cfg0.N = arr3 (pv a) :=
  (dat0 V c).arrAt_eq_of_cover 7 (arr3 (pv a)) (fun t _ => flushed7_eq V a c t hs hm) cover7

end Cert.KernelIdeal.HandVal

end
-- ==== Proof.StepMathB.lean ====
/-
  The attention body's values read at an index, in extended-real arithmetic.

  The row maximum of the tile's scores is the running maximum from -∞ over the tile's 512 columns; the new running
  maximum is the larger of the old one and that; the tile's weights are the exponentials of the scores minus the new
  maximum; the new running sum and weighted sum are the old ones times the exponential of the old maximum minus the
  new one, plus the tile's sums. The last tile's output is the weighted sum over the sum, plus the residual.
-/
import proofs.«133258_j49804440764736_2_alg».proof.Proof.StepMathA

noncomputable section

namespace Cert.KernelIdeal.HandMath

open Idealize.ShloMosaic Idealize.ShloMosaic.ValueIdx Idealize.SL.Sem Cert.KernelIdeal Cert.KernelIdeal.Gen Cert.KernelIdeal.Hand

/-- The exponential of a vector at an index is the extended exponential of the element. -/
theorem exp_apply {s : Shape} {φ : FTy} (a : FVec Ideal s φ) (i : s.Idx) : exp a i = Ideal.exp (a i) := rfl

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the operand at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The single-precision word 0xFF800000 denotes -∞. -/
theorem ofBits_neg_inf : Ideal.ofBits .f32 0xFF800000#32 = ⊥ := by
  simp [Ideal.ofBits, Ideal.ieee]

/-- The maximum along the second axis of a [256,512] array from -∞, at r: the running maximum from -∞ over k of the
    array at (r, k). -/
theorem rowmax_apply (x : FVec Ideal S256x512 .f32) (r : Fin 256) :
    multiReduction .maximumf [1] S256 x 0xFF800000#32 reduces_S256x512_S256 (.inl rfl) rfl (ix1 r)
      = (Finset.univ : Finset (Fin 512)).fold max (⊥ : EReal) (fun k => x (ix2 r k)) := by
  refine (Ideal.multiReduction_maximumf_single x 0xFF800000#32 reduces_S256x512_S256 (.inl rfl) rfl (ix1 r)).trans ?_
  show (Finset.univ : Finset (Fin 512)).fold max (Ideal.ofBits .f32 0xFF800000#32) _ = _
  rw [ofBits_neg_inf]
  refine congrArg (fun f => Finset.fold max (⊥ : EReal) f (Finset.univ : Finset (Fin 512))) (funext fun k => ?_)
  show x (reduces_S256x512_S256.lift (ix1 r) k) = x (ix2 r k)
  refine congrArg x (funext fun ax => Fin.ext ?_)
  match ax with
  | ⟨0, _⟩ => rfl
  | ⟨1, _⟩ => rfl

/-- The sum along the second axis of a [256,512] array, at r: the sum over k of the array at (r, k). -/
theorem rowsum_apply (x : FVec Ideal S256x512 .f32) (r : Fin 256) :
    multiReduction .add [1] S256 x 0x00000000#32 reduces_S256x512_S256 (.inl rfl) rfl (ix1 r)
      = ∑ k : Fin 512, x (ix2 r k) := by
  refine (Ideal.multiReduction_add_single x 0x00000000#32 reduces_S256x512_S256 (.inl rfl) rfl (ix1 r)).trans ?_
  show ∑ k : Fin 512, x (reduces_S256x512_S256.lift (ix1 r) k) = _
  refine Finset.sum_congr rfl fun k _ => ?_
  refine congrArg x (funext fun ax => Fin.ext ?_)
  match ax with
  | ⟨0, _⟩ => rfl
  | ⟨1, _⟩ => rfl

/-- The new running maximum at row r: the larger of the old one and the running maximum from -∞ of the tile's scores. -/
theorem newmax_apply (kb : Vec Ideal S1x256x1024 .bf16) (qb : Vec Ideal S1x512x1024 .bf16) (m : Vec Ideal S256x1 .f32)
    (r : Fin 256) :
    k1_pay9 kb qb m (ix2 r (0 : Fin 1))
      = max (m (ix2 r (0 : Fin 1)))
          ((Finset.univ : Finset (Fin 512)).fold max (⊥ : EReal) (fun k => k1_pay8 kb qb (ix2 r k))) := by
  unfold k1_pay9
  refine (maximumf_apply _ _ (ix2 r (0 : Fin 1))).trans ?_
  refine congrArg (max (m (ix2 r (0 : Fin 1)))) ?_
  refine (shapeCast_a_a1_apply _ _ r 0).trans ?_
  exact rowmax_apply _ r

/-- The rescaling factor at row r: the exponential of the old maximum minus the new one. -/
theorem scale_apply (kb : Vec Ideal S1x256x1024 .bf16) (qb : Vec Ideal S1x512x1024 .bf16) (m m0 : Vec Ideal S256x1 .f32)
    (r : Fin 256) :
    k1_pay10 kb qb m m0 (ix2 r (0 : Fin 1))
      = Ideal.exp (m0 (ix2 r (0 : Fin 1)) - k1_pay9 kb qb m (ix2 r (0 : Fin 1))) := rfl

/-- The tile's weights at (r, k): the exponential of the score minus the new maximum of row r. -/
theorem weight_apply (kb : Vec Ideal S1x256x1024 .bf16) (qb : Vec Ideal S1x512x1024 .bf16) (m : Vec Ideal S256x1 .f32)
    (r : Fin 256) (k : Fin 512) :
    k1_pay11 kb qb m (ix2 r k)
      = Ideal.exp (k1_pay8 kb qb (ix2 r k) - k1_pay9 kb qb m (ix2 r (0 : Fin 1))) := by
  unfold k1_pay11
  refine (exp_apply _ _).trans ?_
  refine congrArg Ideal.exp ?_
  refine (subf_apply _ _ _).trans ?_
  exact congrArg (k1_pay8 kb qb (ix2 r k) - ·) (broadcastTo_a1_ab_apply _ _ r k)

/-- The new running sum at row r: the old one rescaled, plus the sum of the tile's weights. -/
theorem newsum_apply (kb : Vec Ideal S1x256x1024 .bf16) (qb : Vec Ideal S1x512x1024 .bf16) (m m0 l : Vec Ideal S256x1 .f32)
    (r : Fin 256) :
    k1_pay12 kb qb m m0 l (ix2 r (0 : Fin 1))
      = Ideal.exp (m0 (ix2 r (0 : Fin 1)) - k1_pay9 kb qb m (ix2 r (0 : Fin 1))) * l (ix2 r (0 : Fin 1))
        + ∑ k : Fin 512, Ideal.exp (k1_pay8 kb qb (ix2 r k) - k1_pay9 kb qb m (ix2 r (0 : Fin 1))) := by
  unfold k1_pay12
  rw [shapeCast_self]
  refine (addf_apply _ _ _).trans ?_
  refine congrArg₂ (· + ·) rfl ?_
  refine (shapeCast_a_a1_apply _ _ r 0).trans ?_
  refine (rowsum_apply _ r).trans ?_
  exact Finset.sum_congr rfl fun k _ => weight_apply kb qb m r k

/-- The value block viewed [512,1024], at (k, d): the block at (0, k, d). -/
theorem vrows_apply (vb : Vec Ideal S1x512x1024 .bf16) (k : Fin 512) (d : Fin 1024) :
    k1_pay7 vb (ix2 k d) = vb (ix3 (0 : Fin 1) k d) := by
  unfold k1_pay7
  exact shapeCast_1ab_ab_apply vb _ k d

/-- The new weighted sum at (r, d): the old one times the row's factor, plus the sum over k of p (r, k) * v (k, d). -/
theorem newacc_apply (v : FVec Ideal S512x1024 .bf16) (sc : FVec Ideal S256x1 .f32) (p : FVec Ideal S256x512 .f32)
    (a : Vec Ideal S256x1024 .f32) (r : Fin 256) (d : Fin 1024) :
    k1_pay1 v sc p a (ix2 r d)
      = sc (ix2 r (0 : Fin 1)) * a (ix2 r d) + ∑ k : Fin 512, p (ix2 r k) * v (ix2 k d) := by
  unfold k1_pay1
  rw [shapeCast_self]
  refine (addf_apply _ _ _).trans ?_
  refine congrArg₂ (· + ·) ?_ ?_
  · refine (mulf_apply _ _ _).trans ?_
    exact congrArg (· * a (ix2 r d)) (broadcastTo_a1_ab_apply _ _ r d)
  · exact matmul_val_apply _ _ r d

/-- The last tile's output at (0, r, d): the weighted sum over the sum of row r, plus the residual block there. -/
theorem fin_apply (s : St Ideal) (kin : Vec Ideal S1x256x1024 .f32) (r : Fin 256) (d : Fin 1024) :
    fin s kin (ix3 (0 : Fin 1) r d)
      = Ideal.div (s.2.2 (ix2 r d)) (s.2.1 (ix2 r (0 : Fin 1))) + kin (ix3 (0 : Fin 1) r d) := by
  unfold fin k1_pay3
  refine (shapeCast_ab_1ab_apply _ _ 0 r d).trans ?_
  refine (addf_apply _ _ _).trans ?_
  refine congrArg₂ (· + ·) ?_ ?_
  · refine (divf_apply _ _ _).trans ?_
    exact congrArg (Ideal.div (s.2.2 (ix2 r d))) (broadcastTo_a1_ab_apply _ _ r d)
  · exact shapeCast_1ab_ab_apply kin _ r d

end Cert.KernelIdeal.HandMath

end
-- ==== Proof.StepMathC.lean ====
/-
  One tile of the streaming softmax, at an index, and the invariant it keeps.

  The attention body's step on its three carried buffers is, at each row r and column d, the streaming-softmax step:
  new maximum = the larger of the old maximum and the tile's, both sums times exp (old maximum - new maximum) plus the
  tile's terms. The tiles cut the 2048 keys into four runs of 512; tile j is disjoint from the keys before it and
  together they are the keys before tile j + 1. So when the tile's scores and values are given real numbers, the step
  takes a state satisfying the invariant on the keys before tile j to one satisfying it on the keys before tile j + 1;
  the reset state satisfies it with no key seen, and after four tiles every key has been seen.
-/
import proofs.«133258_j49804440764736_2_alg».proof.Proof.StepMathB

noncomputable section

namespace Cert.KernelIdeal.HandMath

open Idealize.ShloMosaic Idealize.ShloMosaic.ValueIdx Idealize.SL.Sem Cert.KernelIdeal Cert.KernelIdeal.Gen Cert.KernelIdeal.Hand

/-! ## One tile folded in, at an index -/

/-- The running maximum from -∞ of the tile's scores of row r. -/
def tmax (kb : Vec Ideal S1x256x1024 .bf16) (qb : Vec Ideal S1x512x1024 .bf16) (r : Fin 256) : EReal :=
  (Finset.univ : Finset (Fin 512)).fold max (⊥ : EReal) (fun k => k1_pay8 kb qb (ix2 r k))

/-- After a tile the running maximum of row r is the larger of the old one and the tile's. -/
theorem step_max (kb : Vec Ideal S1x256x1024 .bf16) (qb vb : Vec Ideal S1x512x1024 .bf16) (s : St Ideal) (r : Fin 256) :
    (step kb qb vb s).1 (ix2 r (0 : Fin 1)) = max (s.1 (ix2 r (0 : Fin 1))) (tmax kb qb r) := by
  show k1_pay2 (k1_pay9 kb qb s.1) (ix2 r (0 : Fin 1)) = _
  unfold k1_pay2
  rw [shapeCast_self]
  exact newmax_apply kb qb s.1 r

/-- After a tile the running sum of row r is the old one times exp (old maximum - new maximum), plus the sum over the
    tile of exp (score - new maximum). -/
theorem step_sum (kb : Vec Ideal S1x256x1024 .bf16) (qb vb : Vec Ideal S1x512x1024 .bf16) (s : St Ideal) (r : Fin 256) :
    (step kb qb vb s).2.1 (ix2 r (0 : Fin 1))
      = Ideal.exp (s.1 (ix2 r (0 : Fin 1)) - max (s.1 (ix2 r (0 : Fin 1))) (tmax kb qb r)) * s.2.1 (ix2 r (0 : Fin 1))
        + ∑ k : Fin 512, Ideal.exp (k1_pay8 kb qb (ix2 r k) - max (s.1 (ix2 r (0 : Fin 1))) (tmax kb qb r)) := by
  show k1_pay12 kb qb s.1 s.1 s.2.1 (ix2 r (0 : Fin 1)) = _
  rw [newsum_apply, newmax_apply]
  rfl

/-- After a tile the running weighted sum at (r, d) is the old one times exp (old maximum - new maximum), plus the sum
    over the tile of exp (score - new maximum) times the value at (k, d). -/
theorem step_acc (kb : Vec Ideal S1x256x1024 .bf16) (qb vb : Vec Ideal S1x512x1024 .bf16) (s : St Ideal) (r : Fin 256)
    (d : Fin 1024) :
    (step kb qb vb s).2.2 (ix2 r d)
      = Ideal.exp (s.1 (ix2 r (0 : Fin 1)) - max (s.1 (ix2 r (0 : Fin 1))) (tmax kb qb r)) * s.2.2 (ix2 r d)
        + ∑ k : Fin 512, Ideal.exp (k1_pay8 kb qb (ix2 r k) - max (s.1 (ix2 r (0 : Fin 1))) (tmax kb qb r))
            * vb (ix3 (0 : Fin 1) k d) := by
  show k1_pay1 (k1_pay7 vb) (k1_pay10 kb qb s.1 s.1) (k1_pay11 kb qb s.1) s.2.2 (ix2 r d) = _
  rw [newacc_apply, scale_apply, newmax_apply]
  refine congrArg₂ (· + ·) rfl (Finset.sum_congr rfl fun k _ => ?_)
  rw [weight_apply, newmax_apply, vrows_apply]
  rfl

/-! ## The keys seen before a tile, and the tile -/

/-- The keys before tile j: the positions below 512 * j. -/
def seen (j : ℕ) : Finset (Fin 2048) := Finset.univ.filter fun n => n.val < 512 * j

/-- Position k of tile j among all 2048 keys. -/
def pos (j : Fin 4) (k : Fin 512) : Fin 2048 := ⟨512 * j.val + k.val, by omega⟩

/-- The positions of a tile are distinct. -/
def posEmb (j : Fin 4) : Fin 512 ↪ Fin 2048 :=
  ⟨pos j, fun a b h => Fin.ext (by have := congrArg Fin.val h; simp only [pos] at this; omega)⟩

/-- Tile j: the positions from 512 * j up to 512 * (j + 1). -/
def tile (j : Fin 4) : Finset (Fin 2048) := Finset.univ.map (posEmb j)

/-- Before the first tile no key has been seen. -/
theorem seen_zero : seen 0 = ∅ := by
  unfold seen
  exact Finset.filter_false_of_mem fun n _ => by omega

/-- After the fourth tile every key has been seen. -/
theorem seen_four : seen 4 = Finset.univ := by
  unfold seen
  exact Finset.filter_true_of_mem fun n _ => by have := n.isLt; omega

/-- A key is in tile j when its position is 512 * j + k for some k below 512. -/
theorem mem_tile (j : Fin 4) (n : Fin 2048) : n ∈ tile j ↔ 512 * j.val ≤ n.val ∧ n.val < 512 * (j.val + 1) := by
  unfold tile
  rw [Finset.mem_map]
  constructor
  · rintro ⟨k, -, rfl⟩
    show 512 * j.val ≤ 512 * j.val + k.val ∧ 512 * j.val + k.val < 512 * (j.val + 1)
    have := k.isLt
    omega
  · rintro ⟨h1, h2⟩
    exact ⟨⟨n.val - 512 * j.val, by omega⟩, Finset.mem_univ _, Fin.ext (by show 512 * j.val + (n.val - 512 * j.val) = n.val; omega)⟩

/-- The keys seen after tile j are those seen before it and the tile. -/
theorem seen_succ (j : Fin 4) : seen (j.val + 1) = seen j.val ∪ tile j := by
  ext n
  rw [Finset.mem_union, mem_tile]
  unfold seen
  rw [Finset.mem_filter, Finset.mem_filter]
  constructor
  · rintro ⟨-, h⟩
    by_cases h' : n.val < 512 * j.val
    · exact Or.inl ⟨Finset.mem_univ _, h'⟩
    · exact Or.inr ⟨by omega, h⟩
  · rintro (⟨-, h⟩ | ⟨-, h⟩)
    · exact ⟨Finset.mem_univ _, by omega⟩
    · exact ⟨Finset.mem_univ _, h⟩

/-- A tile is disjoint from the keys seen before it. -/
theorem seen_disjoint_tile (j : Fin 4) : Disjoint (seen j.val) (tile j) := by
  rw [Finset.disjoint_left]
  intro n hn ht
  rw [mem_tile] at ht
  unfold seen at hn
  rw [Finset.mem_filter] at hn
  omega

/-- A tile has a key. -/
theorem tile_nonempty (j : Fin 4) : (tile j).Nonempty :=
  ⟨pos j 0, Finset.mem_map.mpr ⟨0, Finset.mem_univ _, rfl⟩⟩

/-! ## The invariant through a tile -/

/-- The reset state satisfies the streaming-softmax invariant with no key seen, for every row and column. -/
theorem init_inv (sR : Fin 256 → Fin 2048 → ℝ) (vR : Fin 2048 → Fin 1024 → ℝ) (r : Fin 256) (d : Fin 1024) :
    LibOnlineSoftmax.Inv (sR r) (fun n => vR n d) (seen 0)
      ((init : St Ideal).1 (ix2 r (0 : Fin 1))) ((init : St Ideal).2.1 (ix2 r (0 : Fin 1)))
      ((init : St Ideal).2.2 (ix2 r d)) := by
  have h1 : (init : St Ideal).1 (ix2 r (0 : Fin 1)) = ⊥ := by
    show k1_pay4 (F := Ideal) (ix2 r (0 : Fin 1)) = ⊥
    unfold k1_pay4
    rw [shapeCast_self]
    exact ofBits_neg_inf
  have h2 : (init : St Ideal).2.1 (ix2 r (0 : Fin 1)) = 0 := by
    show k1_pay5 (F := Ideal) (ix2 r (0 : Fin 1)) = 0
    unfold k1_pay5
    rw [shapeCast_self]
    exact Ideal.ofBits_zero_f32
  have h3 : (init : St Ideal).2.2 (ix2 r d) = 0 := by
    show k1_pay6 (F := Ideal) (ix2 r d) = 0
    unfold k1_pay6
    rw [shapeCast_self]
    exact Ideal.ofBits_zero_f32
  rw [h1, h2, h3, seen_zero]
  exact LibOnlineSoftmax.inv_init _ _

/-- One tile keeps the invariant: if the tile's scores and values are the real numbers sR and vR at the tile's
    positions and the state satisfies the invariant on the keys before tile j, the state after the tile satisfies it on
    the keys before tile j + 1. -/
theorem step_inv (sR : Fin 256 → Fin 2048 → ℝ) (vR : Fin 2048 → Fin 1024 → ℝ) (j : Fin 4)
    (kb : Vec Ideal S1x256x1024 .bf16) (qb vb : Vec Ideal S1x512x1024 .bf16) (s : St Ideal)
    (hs : ∀ (r : Fin 256) (k : Fin 512), k1_pay8 kb qb (ix2 r k) = ((sR r (pos j k) : ℝ) : EReal))
    (hv : ∀ (k : Fin 512) (d : Fin 1024), vb (ix3 (0 : Fin 1) k d) = ((vR (pos j k) d : ℝ) : EReal))
    (hinv : ∀ (r : Fin 256) (d : Fin 1024), LibOnlineSoftmax.Inv (sR r) (fun n => vR n d) (seen j.val)
      (s.1 (ix2 r (0 : Fin 1))) (s.2.1 (ix2 r (0 : Fin 1))) (s.2.2 (ix2 r d)))
    (r : Fin 256) (d : Fin 1024) :
    LibOnlineSoftmax.Inv (sR r) (fun n => vR n d) (seen (j.val + 1))
      ((step kb qb vb s).1 (ix2 r (0 : Fin 1))) ((step kb qb vb s).2.1 (ix2 r (0 : Fin 1)))
      ((step kb qb vb s).2.2 (ix2 r d)) := by
  have ht : tmax kb qb r = (tile j).fold max (⊥ : EReal) (fun i => ((sR r i : ℝ) : EReal)) := by
    unfold tmax tile
    rw [Finset.fold_map]
    exact congrArg (fun f => Finset.fold max (⊥ : EReal) f (Finset.univ : Finset (Fin 512))) (funext fun k => hs r k)
  have h := LibOnlineSoftmax.inv_step_fold (sR r) (fun n => vR n d) (seen j.val) (tile j)
    (s.1 (ix2 r (0 : Fin 1))) (s.2.1 (ix2 r (0 : Fin 1))) (s.2.2 (ix2 r d)) (hinv r d) (tile_nonempty j)
    (seen_disjoint_tile j)
  rw [step_max, step_sum, step_acc, seen_succ, ht]
  simp only [hs, hv]
  unfold tile at h ⊢
  rw [Finset.sum_map, Finset.sum_map] at h
  exact h

end Cert.KernelIdeal.HandMath

end
-- ==== Proof.AttnValueA.lean ====
/-
  One row block of the attention region against the specification, in extended-real arithmetic.

  When the key block holds the key projection's rows of a row block and a tile holds the query and value projections'
  rows of that tile, the tile's scores are the specification's scores, so folding the tile in keeps the
  streaming-softmax invariant with the specification's scores and values; and once every key has been seen the last
  tile's output is the specification's result: the quotient of the two sums over all keys, plus the residual.
-/
import proofs.«133258_j49804440764736_2_alg».proof.Proof.StepMathC
import proofs.«133258_j49804440764736_2_alg».proof.Proof.Spec
import proofs.«133258_j49804440764736_2_alg».proof.Proof.LibOnlineSoftmax

noncomputable section

namespace Cert.KernelIdeal.HandVal

open Idealize.ShloMosaic Idealize.ShloMosaic.ValueIdx Idealize.SL.Sem
open Cert.KernelIdeal Cert.KernelIdeal.Gen Cert.KernelIdeal.Hand Cert.KernelIdeal.HandMath Cert.Spec

/-- Row r of row block m among the 2048 rows of a batch. -/
def row (m : Fin 8) (r : Fin 256) : Fin 2048 := ⟨256 * m.val + r.val, by omega⟩

/-- With the key block at the key projection's rows of block m and the query tile at the query projection's rows of
    tile j, the tile's score at (r, k) is the specification's score of key row (m, r) against query row (j, k). -/
theorem score_real (a : Args) (b m : Fin 8) (j : Fin 4) (kb : Vec Ideal S1x256x1024 .bf16)
    (qb : Vec Ideal S1x512x1024 .bf16)
    (hk : ∀ (r : Fin 256) (e : Fin 1024), kb (ix3 (0 : Fin 1) r e) = ((pk a b (row m r) e : ℝ) : EReal))
    (hq : ∀ (k : Fin 512) (e : Fin 1024), qb (ix3 (0 : Fin 1) k e) = ((pq a b (pos j k) e : ℝ) : EReal))
    (r : Fin 256) (k : Fin 512) :
    k1_pay8 kb qb (ix2 r k) = ((sc a b (row m r) (pos j k) : ℝ) : EReal) := by
  rw [score_apply]
  simp only [hk, hq, ← EReal.coe_mul, LibOnlineSoftmax.coe_finset_sum]
  rfl

/-- One tile of row block m of batch b keeps the invariant, the scores and values being the specification's. -/
theorem tile_inv (a : Args) (b m : Fin 8) (j : Fin 4) (kb : Vec Ideal S1x256x1024 .bf16)
    (qb vb : Vec Ideal S1x512x1024 .bf16) (s : St Ideal)
    (hk : ∀ (r : Fin 256) (e : Fin 1024), kb (ix3 (0 : Fin 1) r e) = ((pk a b (row m r) e : ℝ) : EReal))
    (hq : ∀ (k : Fin 512) (e : Fin 1024), qb (ix3 (0 : Fin 1) k e) = ((pq a b (pos j k) e : ℝ) : EReal))
    (hv : ∀ (k : Fin 512) (d : Fin 1024), vb (ix3 (0 : Fin 1) k d) = ((pv a b (pos j k) d : ℝ) : EReal))
    (hinv : ∀ (r : Fin 256) (d : Fin 1024), LibOnlineSoftmax.Inv (sc a b (row m r)) (fun n => pv a b n d) (seen j.val)
      (s.1 (ix2 r (0 : Fin 1))) (s.2.1 (ix2 r (0 : Fin 1))) (s.2.2 (ix2 r d)))
    (r : Fin 256) (d : Fin 1024) :
    LibOnlineSoftmax.Inv (sc a b (row m r)) (fun n => pv a b n d) (seen (j.val + 1))
      ((step kb qb vb s).1 (ix2 r (0 : Fin 1))) ((step kb qb vb s).2.1 (ix2 r (0 : Fin 1)))
      ((step kb qb vb s).2.2 (ix2 r d)) :=
  step_inv (fun r => sc a b (row m r)) (pv a b) j kb qb vb s (score_real a b m j kb qb hk hq) hv hinv r d

/-- Every key seen, the last tile's output at (0, r, d) is the specification's result at row (m, r), column d. -/
theorem out_real (a : Args) (b m : Fin 8) (s : St Ideal) (kin : Vec Ideal S1x256x1024 .f32)
    (hinv : ∀ (r : Fin 256) (d : Fin 1024), LibOnlineSoftmax.Inv (sc a b (row m r)) (fun n => pv a b n d) Finset.univ
      (s.1 (ix2 r (0 : Fin 1))) (s.2.1 (ix2 r (0 : Fin 1))) (s.2.2 (ix2 r d)))
    (hkin : ∀ (r : Fin 256) (d : Fin 1024), kin (ix3 (0 : Fin 1) r d) = ((a.xk b (row m r) d : ℝ) : EReal))
    (r : Fin 256) (d : Fin 1024) :
    fin s kin (ix3 (0 : Fin 1) r d) = ((out a b (row m r) d : ℝ) : EReal) := by
  rw [fin_apply, LibOnlineSoftmax.div_end_real _ _ _ _ _ (hinv r d), hkin, ← EReal.coe_add]
  rfl

end Cert.KernelIdeal.HandVal

end
-- ==== Proof.AttnValueB.lean ====
/-
  The attention region's carried state and output blocks against the specification.

  Point t = 32 b + 4 m + j of the grid works on batch b, row block m (256 key rows) and tile j (512 query and value
  rows). Given that the region finds the three projections and the residual in its input arrays, each window's block
  at a point is the corresponding rows of those arrays; so the carried state after point t satisfies the
  streaming-softmax invariant of row block (b, m) on the keys through tile j (by induction over the points: a first
  tile starts from the reset state, a later one from what the point before left), and the block a last tile writes is
  the specification's result on its rows.
-/
import proofs.«133258_j49804440764736_2_alg».proof.Proof.AttnRegionI
import proofs.«133258_j49804440764736_2_alg».proof.Proof.AttnValueA
import Idealize.ShloMosaic.Lib.Pipeline.Value
import Idealize.ShloMosaic.Lib.ValueIdx

noncomputable section

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.HandMath Cert.Spec

/-- Where each window's block sits at point t = 32 b + 4 m + j: the key, residual and result blocks at (b, m, 0), the
    resident query and value blocks at (b, 0, 0), and the tile at row offset 512 j. -/
theorem idx_facts1 : ∀ t : Fin cfg1.N,
    win1_0.index t (0 : Fin 3) = t.val / 32 ∧ win1_0.index t (1 : Fin 3) = t.val / 4 % 8 ∧ win1_0.index t (2 : Fin 3) = 0
    ∧ win1_1.index t (0 : Fin 3) = t.val / 32 ∧ win1_1.index t (1 : Fin 3) = 0 ∧ win1_1.index t (2 : Fin 3) = 0
    ∧ win1_2.index t (0 : Fin 3) = t.val / 32 ∧ win1_2.index t (1 : Fin 3) = 0 ∧ win1_2.index t (2 : Fin 3) = 0
    ∧ win1_3.index t (0 : Fin 3) = t.val / 32 ∧ win1_3.index t (1 : Fin 3) = t.val / 4 % 8 ∧ win1_3.index t (2 : Fin 3) = 0
    ∧ win1_4.index t (0 : Fin 3) = t.val / 32 ∧ win1_4.index t (1 : Fin 3) = t.val / 4 % 8 ∧ win1_4.index t (2 : Fin 3) = 0
    ∧ k1_off1 (grid1.coords t) (0 : Fin 3) = 0 ∧ k1_off1 (grid1.coords t) (1 : Fin 3) = 512 * (t.val % 4)
    ∧ k1_off1 (grid1.coords t) (2 : Fin 3) = 0 :=
  (by decide +kernel : ∀ t : Fin grid1.N, _)

variable (V : (c : Dev nD) → (b : Ref sig .tc) → Buf (Elt Ideal) ((c : Thread nD τ).loc b))

/-- The batch of point n. -/
def bN (n : ℕ) : Fin 8 := ⟨n / 32 % 8, Nat.mod_lt _ (by decide)⟩
/-- The row block of point n. -/
def mN (n : ℕ) : Fin 8 := ⟨n / 4 % 8, Nat.mod_lt _ (by decide)⟩
/-- The tile of point n. -/
def jN (n : ℕ) : Fin 4 := ⟨n % 4, Nat.mod_lt _ (by decide)⟩

/-- The key block at point t, at (0, r, e): the key array at the point's batch, row r of its row block, column e. -/
theorem blk0_apply (c : Dev nD) (t : Fin cfg1.N) (X : S8x2048x1024.Idx → EReal)
    (hX : (V c main_v6_1 : S8x2048x1024.Idx → EReal) = X) (r : Fin 256) (e : Fin 1024) :
    (iblk1 V c 0 t : Vec Ideal S1x256x1024 .bf16) (ix3 (0 : Fin 1) r e) = X (ix3 (bN t.val) (row (mN t.val) r) e) := by
  obtain ⟨h0, h1, h2, -⟩ := idx_facts1 t
  have hN : t.val < 256 := lt_of_lt_of_eq t.isLt N_1
  show (V c main_v6_1 : S8x2048x1024.Idx → EReal) (((cfg1.win 0).blk t).view.emb (ix3 (0 : Fin 1) r e)) = _
  rw [hX]
  refine congrArg X (funext fun ax => Fin.ext ?_)
  match ax with
  | ⟨0, _⟩ => show win1_0.index t (0 : Fin 3) * 1 + 1 * 0 = t.val / 32 % 8; rw [h0]; omega
  | ⟨1, _⟩ => show win1_0.index t (1 : Fin 3) * 256 + 1 * r.val = 256 * (t.val / 4 % 8) + r.val; rw [h1]; omega
  | ⟨2, _⟩ => show win1_0.index t (2 : Fin 3) * 1024 + 1 * e.val = e.val; rw [h2]; omega

/-- The query tile at point t, at (0, k, e): the query array at the point's batch, row k of its tile, column e. -/
theorem tile1_apply (c : Dev nD) (t : Fin cfg1.N) (X : S8x2048x1024.Idx → EReal)
    (hX : (V c main_v6_0 : S8x2048x1024.Idx → EReal) = X) (k : Fin 512) (e : Fin 1024) :
    (View.ld (iblk1 V c 1 t) (rTile (grid1.coords t)) : Vec Ideal S1x512x1024 .bf16) (ix3 (0 : Fin 1) k e)
      = X (ix3 (bN t.val) (pos (jN t.val) k) e) := by
  obtain ⟨-, -, -, h0, h1, h2, -, -, -, -, -, -, -, -, -, o0, o1, o2⟩ := idx_facts1 t
  have hN : t.val < 256 := lt_of_lt_of_eq t.isLt N_1
  show (V c main_v6_0 : S8x2048x1024.Idx → EReal)
    (((cfg1.win 1).blk t).view.emb ((rTile (grid1.coords t)).emb (ix3 (0 : Fin 1) k e))) = _
  rw [hX]
  refine congrArg X (funext fun ax => Fin.ext ?_)
  match ax with
  | ⟨0, _⟩ => show win1_1.index t (0 : Fin 3) * 1 + 1 * (k1_off1 (grid1.coords t) (0 : Fin 3) + 1 * 0) = t.val / 32 % 8; rw [h0, o0]; omega
  | ⟨1, _⟩ => show win1_1.index t (1 : Fin 3) * 2048 + 1 * (k1_off1 (grid1.coords t) (1 : Fin 3) + 1 * k.val) = 512 * (t.val % 4) + k.val; rw [h1, o1]; omega
  | ⟨2, _⟩ => show win1_1.index t (2 : Fin 3) * 1024 + 1 * (k1_off1 (grid1.coords t) (2 : Fin 3) + 1 * e.val) = e.val; rw [h2, o2]; omega

/-- The value tile at point t, at (0, k, e): the value array at the point's batch, row k of its tile, column e. -/
theorem tile2_apply (c : Dev nD) (t : Fin cfg1.N) (X : S8x2048x1024.Idx → EReal)
    (hX : (V c main_v6_2 : S8x2048x1024.Idx → EReal) = X) (k : Fin 512) (e : Fin 1024) :
    (View.ld (iblk1 V c 2 t) (rTile (grid1.coords t)) : Vec Ideal S1x512x1024 .bf16) (ix3 (0 : Fin 1) k e)
      = X (ix3 (bN t.val) (pos (jN t.val) k) e) := by
  obtain ⟨-, -, -, -, -, -, h0, h1, h2, -, -, -, -, -, -, o0, o1, o2⟩ := idx_facts1 t
  have hN : t.val < 256 := lt_of_lt_of_eq t.isLt N_1
  show (V c main_v6_2 : S8x2048x1024.Idx → EReal)
    (((cfg1.win 2).blk t).view.emb ((rTile (grid1.coords t)).emb (ix3 (0 : Fin 1) k e))) = _
  rw [hX]
  refine congrArg X (funext fun ax => Fin.ext ?_)
  match ax with
  | ⟨0, _⟩ => show win1_2.index t (0 : Fin 3) * 1 + 1 * (k1_off1 (grid1.coords t) (0 : Fin 3) + 1 * 0) = t.val / 32 % 8; rw [h0, o0]; omega
  | ⟨1, _⟩ => show win1_2.index t (1 : Fin 3) * 2048 + 1 * (k1_off1 (grid1.coords t) (1 : Fin 3) + 1 * k.val) = 512 * (t.val % 4) + k.val; rw [h1, o1]; omega
  | ⟨2, _⟩ => show win1_2.index t (2 : Fin 3) * 1024 + 1 * (k1_off1 (grid1.coords t) (2 : Fin 3) + 1 * e.val) = e.val; rw [h2, o2]; omega

/-- The residual block at point t, at (0, r, e): the residual array at the point's batch, row r of its row block, column e. -/
theorem blk3_apply (c : Dev nD) (t : Fin cfg1.N) (X : S8x2048x1024.Idx → EReal)
    (hX : (V c main_arg1 : S8x2048x1024.Idx → EReal) = X) (r : Fin 256) (e : Fin 1024) :
    (iblk1 V c 3 t : Vec Ideal S1x256x1024 .f32) (ix3 (0 : Fin 1) r e) = X (ix3 (bN t.val) (row (mN t.val) r) e) := by
  obtain ⟨-, -, -, -, -, -, -, -, -, h0, h1, h2, -⟩ := idx_facts1 t
  have hN : t.val < 256 := lt_of_lt_of_eq t.isLt N_1
  show (V c main_arg1 : S8x2048x1024.Idx → EReal) (((cfg1.win 3).blk t).view.emb (ix3 (0 : Fin 1) r e)) = _
  rw [hX]
  refine congrArg X (funext fun ax => Fin.ext ?_)
  match ax with
  | ⟨0, _⟩ => show win1_3.index t (0 : Fin 3) * 1 + 1 * 0 = t.val / 32 % 8; rw [h0]; omega
  | ⟨1, _⟩ => show win1_3.index t (1 : Fin 3) * 256 + 1 * r.val = 256 * (t.val / 4 % 8) + r.val; rw [h1]; omega
  | ⟨2, _⟩ => show win1_3.index t (2 : Fin 3) * 1024 + 1 * e.val = e.val; rw [h2]; omega

/-! ## The carried state after each point -/

section
variable (a : Args) (c : Dev nD)
  (hK : (V c main_v6_1 : S8x2048x1024.Idx → EReal) = arr3 (pk a))
  (hQ : (V c main_v6_0 : S8x2048x1024.Idx → EReal) = arr3 (pq a))
  (hP : (V c main_v6_2 : S8x2048x1024.Idx → EReal) = arr3 (pv a))
  (hX : (V c main_arg1 : S8x2048x1024.Idx → EReal) = arr3 a.xk)
include hK hQ hP

/-- The tile of point t keeps the invariant of the point's row block: from the keys before the tile to the keys
    through it. -/
theorem stepAt_inv (t : Fin cfg1.N) (s : St Ideal)
    (hinv : ∀ (r : Fin 256) (d : Fin 1024), LibOnlineSoftmax.Inv (sc a (bN t.val) (row (mN t.val) r))
      (fun n => pv a (bN t.val) n d) (seen (t.val % 4))
      (s.1 (ix2 r (0 : Fin 1))) (s.2.1 (ix2 r (0 : Fin 1))) (s.2.2 (ix2 r d)))
    (r : Fin 256) (d : Fin 1024) :
    LibOnlineSoftmax.Inv (sc a (bN t.val) (row (mN t.val) r)) (fun n => pv a (bN t.val) n d) (seen (t.val % 4 + 1))
      ((stepAt V c t s).1 (ix2 r (0 : Fin 1))) ((stepAt V c t s).2.1 (ix2 r (0 : Fin 1)))
      ((stepAt V c t s).2.2 (ix2 r d)) :=
  tile_inv a (bN t.val) (mN t.val) (jN t.val) (iblk1 V c 0 t) (View.ld (iblk1 V c 1 t) (rTile (grid1.coords t)))
    (View.ld (iblk1 V c 2 t) (rTile (grid1.coords t))) s
    (fun r e => (blk0_apply V c t _ hK r e).trans (arr3_ix3 _ _ _ _))
    (fun k e => (tile1_apply V c t _ hQ k e).trans (arr3_ix3 _ _ _ _))
    (fun k e => (tile2_apply V c t _ hP k e).trans (arr3_ix3 _ _ _ _)) hinv r d

/-- After point n the carried state satisfies the invariant of the point's row block on the keys through its tile. -/
theorem stAt_inv : ∀ (n : ℕ) (hn : n < cfg1.N) (r : Fin 256) (d : Fin 1024),
    LibOnlineSoftmax.Inv (sc a (bN n) (row (mN n) r)) (fun k => pv a (bN n) k d) (seen (n % 4 + 1))
      ((stAt V c n hn).1 (ix2 r (0 : Fin 1))) ((stAt V c n hn).2.1 (ix2 r (0 : Fin 1)))
      ((stAt V c n hn).2.2 (ix2 r d))
  | 0, hn => fun r d => stepAt_inv V a c hK hQ hP ⟨0, hn⟩ init (fun r d => init_inv (fun r => sc a (bN 0) (row (mN 0) r)) (pv a (bN 0)) r d) r d
  | n + 1, hn => fun r d => by
    have e : stAt V c (n + 1) hn
        = stepAt V c ⟨n + 1, hn⟩ (if (n + 1) % 4 = 0 then init else stAt V c n (Nat.lt_of_succ_lt hn)) := rfl
    rw [e]
    refine stepAt_inv V a c hK hQ hP ⟨n + 1, hn⟩ _ (fun r d => ?_) r d
    show LibOnlineSoftmax.Inv (sc a (bN (n + 1)) (row (mN (n + 1)) r)) (fun k => pv a (bN (n + 1)) k d)
      (seen ((n + 1) % 4)) _ _ _
    by_cases h0 : (n + 1) % 4 = 0
    · rw [if_pos h0, h0]
      exact init_inv (fun r => sc a (bN (n + 1)) (row (mN (n + 1)) r)) (pv a (bN (n + 1))) r d
    · rw [if_neg h0]
      have eb : bN (n + 1) = bN n := Fin.ext (by show (n + 1) / 32 % 8 = n / 32 % 8; omega)
      have em : mN (n + 1) = mN n := Fin.ext (by show (n + 1) / 4 % 8 = n / 4 % 8; omega)
      have es : (n + 1) % 4 = n % 4 + 1 := by omega
      rw [eb, em, es]
      exact stAt_inv n (Nat.lt_of_succ_lt hn) r d

include hX

/-- The block written at a last tile, at (u, r, d): the specification's result at the point's batch, row r of its row
    block, column d. -/
theorem outAt_apply (t : Fin cfg1.N) (h3 : t.val % 4 = 3) (u : Fin 1) (r : Fin 256) (d : Fin 1024) :
    (outAt V c t : Vec Ideal S1x256x1024 .f32) (ix3 u r d) = G a (ix3 (bN t.val) (row (mN t.val) r) d) := by
  obtain rfl : u = 0 := Subsingleton.elim _ _
  unfold outAt
  refine (out_real a (bN t.val) (mN t.val) (stAt V c t.val t.isLt) (iblk1 V c 3 t) (fun r d => ?_)
    (fun r d => (blk3_apply V c t _ hX r d).trans (arr3_ix3 _ _ _ _)) r d).trans (arr3_ix3 _ _ _ _).symm
  have h := stAt_inv V a c hK hQ hP t.val t.isLt r d
  rw [h3] at h
  rw [← seen_four]
  exact h

/-- The block written at a last tile t = 32 b + 4 m + 3, at (0, r, d): the specification's result at batch b, row 256 m + r,
    column d. -/
theorem out_at : ∀ (t : Fin cfg1.N) (h3 : t.val % 4 = 3) (r : Fin 256) (d : Fin 1024),
    outAt V c t (ix3 (0 : Fin 1) r d)
      = ((Cert.Spec.out a ⟨t.val / 32, by have := t.isLt; have : cfg1.N = 256 := N_1; omega⟩
          ⟨256 * (t.val / 4 % 8) + r.val, by omega⟩ d : ℝ) : EReal) := by
  intro t h3 r d
  have hN : t.val < 256 := lt_of_lt_of_eq t.isLt N_1
  have eb : bN t.val = ⟨t.val / 32, by omega⟩ := Fin.ext (by show t.val / 32 % 8 = t.val / 32; omega)
  rw [outAt_apply V a c hK hQ hP hX t h3 0 r d, eb]
  rfl

end

end Cert.KernelIdeal.HandVal

end
-- ==== Proof.AttnValueC.lean ====
/-
  From the attention region's output blocks to its result array.

  Only the last tile of each row block writes its output block back; those blocks are the specification's result on
  their rows, and every entry (b, n, d) of the result array lies in the block of point 32 b + 4 (n / 256) + 3. So the
  result array after the region is the specification.
-/
import proofs.«133258_j49804440764736_2_alg».proof.Proof.AttnValueB
import Idealize.ShloMosaic.Lib.Pipeline.Value
import Idealize.ShloMosaic.Lib.ValueIdx

noncomputable section

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.HandMath Cert.Spec

variable (V : (c : Dev nD) → (b : Ref sig .tc) → Buf (Elt Ideal) ((c : Thread nD τ).loc b))

section
variable (a : Args) (c : Dev nD)
  (hK : (V c main_v6_1 : S8x2048x1024.Idx → EReal) = arr3 (pk a))
  (hQ : (V c main_v6_0 : S8x2048x1024.Idx → EReal) = arr3 (pq a))
  (hP : (V c main_v6_2 : S8x2048x1024.Idx → EReal) = arr3 (pv a))
  (hX : (V c main_arg1 : S8x2048x1024.Idx → EReal) = arr3 a.xk)
include hK hQ hP hX

/-! ## From the blocks to the array -/

/-- What a last tile writes back is its block of the specification's result array. -/
theorem flushed4_eq (t : Fin cfg1.N) (hf : (cfg1.win 4).flush t = true) :
    (dat1 V c).flushed 4 t = ((cfg1.win 4).blk t).view.read (Elt Ideal) (G a) := by
  have h3 : t.val % 4 = 3 := (flush1_4 t).mp hf
  obtain ⟨-, -, -, -, -, -, -, -, -, -, -, -, h0, h1, h2, -⟩ := idx_facts1 t
  have hN : t.val < 256 := lt_of_lt_of_eq t.isLt N_1
  show (cfg1.win 4).cut (grid1.coords t) ((dat1 V c).after 4 t) = _
  rw [after1_4]
  refine funext fun (y : S1x256x1024.Idx) => ?_
  obtain ⟨u, r, d, rfl⟩ : ∃ (u : Fin 1) (r : Fin 256) (d : Fin 1024), y = ix3 u r d := ⟨y 0, y 1, y 2, eq_ix3 y⟩
  show (outAt V c t : Vec Ideal S1x256x1024 .f32) (ix3 u r d) = G a (((cfg1.win 4).blk t).view.emb (ix3 u r d))
  rw [outAt_apply V a c hK hQ hP hX t h3 u r d]
  refine congrArg (G a) (funext fun ax => Fin.ext ?_)
  have hu : u.val = 0 := by omega
  match ax with
  | ⟨0, _⟩ => show t.val / 32 % 8 = win1_4.index t (0 : Fin 3) * 1 + 1 * u.val; rw [h0]; omega
  | ⟨1, _⟩ => show 256 * (t.val / 4 % 8) + r.val = win1_4.index t (1 : Fin 3) * 256 + 1 * r.val; rw [h1]; omega
  | ⟨2, _⟩ => show d.val = win1_4.index t (2 : Fin 3) * 1024 + 1 * d.val; rw [h2]; omega

omit hK hQ hP hX in
/-- Every entry of the result array is in the block of a last tile: entry (b, n, d) in that of point 32 b + 4 (n / 256) + 3. -/
theorem cover4 (i : S8x2048x1024.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 1024 := (i 2).isLt
  have hN : cfg1.N = 256 := N_1
  refine ⟨⟨32 * (i 0).val + 4 * ((i 1).val / 256) + 3, by omega⟩, (flush1_4 _).mpr (by show (32 * (i 0).val + 4 * ((i 1).val / 256) + 3) % 4 = 3; omega), ?_⟩
  generalize ht : (⟨32 * (i 0).val + 4 * ((i 1).val / 256) + 3, by omega⟩ : Fin cfg1.N) = t
  have htv : t.val = 32 * (i 0).val + 4 * ((i 1).val / 256) + 3 := by rw [← ht]
  obtain ⟨-, -, -, -, -, -, -, -, -, -, -, -, h0, h1, h2, -⟩ := idx_facts1 t
  show i ∈ ((View.whole main_v7).slice (win1_4.rect t)).set
  rw [View.set_slice_whole, Rect.mem_set_unit]
  intro ax
  match ax with
  | ⟨0, _⟩ => show win1_4.index t (0 : Fin 3) * 1 ≤ (i 0).val ∧ (i 0).val < win1_4.index t (0 : Fin 3) * 1 + 1; rw [h0]; omega
  | ⟨1, _⟩ => show win1_4.index t (1 : Fin 3) * 256 ≤ (i 1).val ∧ (i 1).val < win1_4.index t (1 : Fin 3) * 256 + 256; rw [h1]; omega
  | ⟨2, _⟩ => show win1_4.index t (2 : Fin 3) * 1024 ≤ (i 2).val ∧ (i 2).val < win1_4.index t (2 : Fin 3) * 1024 + 1024; rw [h2]; omega

/-- The result array after the region is the specification. -/
theorem attn_final : (dat1 V c).arrAt 4 cfg1.N = G a :=
  (dat1 V c).arrAt_eq_of_cover 4 (G a) (fun t hf => flushed4_eq V a c hK hQ hP hX t hf) cover4

end

end Cert.KernelIdeal.HandVal

end
-- ==== Proof.KernelValue.lean ====
/-
  The kernel's result. With finite inputs, read as real arrays: the host stretch hands the projection region the
  two sequences and the three transposed weight matrices; the projection region leaves the three projections; the
  attention region, entered with those, leaves the specification in the result buffer.
-/
import proofs.«133258_j49804440764736_2_alg».proof.Proof.HostValue
import proofs.«133258_j49804440764736_2_alg».proof.Proof.ProjValue
import proofs.«133258_j49804440764736_2_alg».proof.Proof.AttnValueC

set_option maxRecDepth 16384

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand Cert.Spec

variable (m : (ℓ : Loc nD τ sig) → Buf (Elt Ideal) ℓ) (a : Cert.Spec.Args)

/-- The attention region finds the query projection in its second operand's array. -/
theorem V2_v6_0 (c : Dev nD) (h0 : (m ((c : Thread nD τ).loc main_arg0) : S8x2048x1024.Idx → EReal) = arr3 a.xq)
    (h2 : (m ((c : Thread nD τ).loc main_arg2) : S1024x1024.Idx → EReal) = arr2 a.wq) :
    (Hand.V2 m c main_v6_0 : S8x2048x1024.Idx → EReal) = arr3 (pq a) :=
  (W2_arr m c 5).trans (final5 (Hand.V1 m) a c (V1_arg0 m a c h0) (V1_v1 m a c h2))
/-- The key projection in its first operand's array. -/
theorem V2_v6_1 (c : Dev nD) (h1 : (m ((c : Thread nD τ).loc main_arg1) : S8x2048x1024.Idx → EReal) = arr3 a.xk)
    (h3 : (m ((c : Thread nD τ).loc main_arg3) : S1024x1024.Idx → EReal) = arr2 a.wk) :
    (Hand.V2 m c main_v6_1 : S8x2048x1024.Idx → EReal) = arr3 (pk a) :=
  (W2_arr m c 6).trans (final6 (Hand.V1 m) a c (V1_arg1 m a c h1) (V1_v3 m a c h3))
/-- The value projection in its third operand's array. -/
theorem V2_v6_2 (c : Dev nD) (h0 : (m ((c : Thread nD τ).loc main_arg0) : S8x2048x1024.Idx → EReal) = arr3 a.xq)
    (h4 : (m ((c : Thread nD τ).loc main_arg4) : S1024x1024.Idx → EReal) = arr2 a.wv) :
    (Hand.V2 m c main_v6_2 : S8x2048x1024.Idx → EReal) = arr3 (pv a) :=
  (W2_arr m c 7).trans (final7 (Hand.V1 m) a c (V1_arg0 m a c h0) (V1_v5 m a c h4))
/-- The residual sequence as launched. -/
theorem V2_arg1 (c : Dev nD) (h1 : (m ((c : Thread nD τ).loc main_arg1) : S8x2048x1024.Idx → EReal) = arr3 a.xk) :
    (Hand.V2 m c main_arg1 : S8x2048x1024.Idx → EReal) = arr3 a.xk := (W2_main_arg1 m c).trans h1

/-- The result buffer ends at the specification. -/
theorem kernel_value (c : Dev nD)
    (h0 : (m ((c : Thread nD τ).loc main_arg0) : S8x2048x1024.Idx → EReal) = arr3 a.xq)
    (h1 : (m ((c : Thread nD τ).loc main_arg1) : S8x2048x1024.Idx → EReal) = arr3 a.xk)
    (h2 : (m ((c : Thread nD τ).loc main_arg2) : S1024x1024.Idx → EReal) = arr2 a.wq)
    (h3 : (m ((c : Thread nD τ).loc main_arg3) : S1024x1024.Idx → EReal) = arr2 a.wk)
    (h4 : (m ((c : Thread nD τ).loc main_arg4) : S1024x1024.Idx → EReal) = arr2 a.wv) :
    (dat1 (Hand.V2 m) c).arrAt 4 cfg1.N = Cert.Spec.G a :=
  attn_final (Hand.V2 m) a c (V2_v6_1 m a c h1 h3) (V2_v6_0 m a c h0 h2) (V2_v6_2 m a c h0 h4) (V2_arg1 m a c h1)

end Cert.KernelIdeal.HandVal

end
-- ==== Proof.lean ====
/-
  A two-stage attention kernel against its plain reference, over the extended reals.

  The kernel first projects the two input sequences through three weight matrices (one grid point per block of
  512 rows), then, for each block of 256 key rows, streams the query and value projections through in four tiles
  of 512 rows, keeping a running row maximum, a running sum of exponentials and a running weighted sum, and at the
  last tile divides and adds the residual. The reference computes the same projections, the full score matrix
  divided by √1024, a softmax over the query axis, the weighted sum of value rows, and adds the residual.

  Under the precondition every input entry is a real number, so every intermediate value is real: exp (-∞) = 0
  removes the initial state's contribution, changing the reference point of a sum of exponentials is multiplication
  by an exponential, and a tile-by-tile sum over a partition of the keys is the sum over all keys. √1024 = 32
  exactly, so the kernel's factor 1/32 is the reference's divisor. Both results are the one real-valued
  specification.

  The frames: each program is a stretch of host operations and two kernel regions; each region's body is run once
  per case of its branches, the attention region's three carried buffers are held in the region invariant at the
  state the point before left.
-/
import proofs.«133258_j49804440764736_2_alg».proof.Defs
import proofs.«133258_j49804440764736_2_alg».proof.Proof.Gen.Kernel
import proofs.«133258_j49804440764736_2_alg».proof.Proof.Gen.KernelIdeal
import proofs.«133258_j49804440764736_2_alg».proof.Proof.Gen.ReferenceIdeal
import proofs.«133258_j49804440764736_2_alg».proof.Proof.Gen.ReferenceIdeal.Run
import proofs.«133258_j49804440764736_2_alg».proof.Proof.Gen.ReferenceIdeal.Read
import proofs.«133258_j49804440764736_2_alg».proof.Proof.Gen.Pre_finite_inputs
import proofs.«133258_j49804440764736_2_alg».proof.Proof.RunB
import proofs.«133258_j49804440764736_2_alg».proof.Proof.RunI
import proofs.«133258_j49804440764736_2_alg».proof.Proof.RefSide
import proofs.«133258_j49804440764736_2_alg».proof.Proof.Finite
import proofs.«133258_j49804440764736_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level program terminates, faults nowhere and leaves its five arguments as launched. -/
theorem frame_k [Cert.Pre_finite_inputs.Facts] [Cert.Kernel.Facts] : Cert.frame_Kernel := fun m ρ _ => Cert.Kernel.Hand.frame m ρ
/-- So does the idealized program. -/
theorem frame_ki [Cert.Pre_finite_inputs.Facts] [Cert.KernelIdeal.Facts] : Cert.frame_KernelIdeal := fun m ρ _ => Cert.KernelIdeal.Hand.frame m ρ
/-- And the reference: its run with the result dropped. -/
theorem frame_ri [Cert.Pre_finite_inputs.Facts] [Cert.ReferenceIdeal.Facts] : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Finite inputs are arrays of real numbers; on them the tiled kernel's result and the reference's are both the
    specification: projections, scores scaled by 1/32 = 1/√1024, softmax over the query axis taken with the row
    maximum as reference point, weighted sum of value rows, residual added. -/
theorem algebraic [Cert.Pre_finite_inputs.Facts] [Cert.KernelIdeal.Facts] [Cert.ReferenceIdeal.Facts] :
    Cert.algebraic_KernelIdeal_ReferenceIdeal := by
  intro m ρ m' ρ' hpre hagree
  have hargs : ∀ c : Dev Cert.KernelIdeal.nD, ∃ a : Cert.Spec.Args,
      (m ((c.tc : Thread Cert.KernelIdeal.nD Cert.KernelIdeal.τ).loc Cert.KernelIdeal.main_arg0) : Cert.KernelIdeal.S8x2048x1024.Idx → EReal) = Cert.Spec.arr3 a.xq
      ∧ (m ((c.tc : Thread Cert.KernelIdeal.nD Cert.KernelIdeal.τ).loc Cert.KernelIdeal.main_arg1) : Cert.KernelIdeal.S8x2048x1024.Idx → EReal) = Cert.Spec.arr3 a.xk
      ∧ (m ((c.tc : Thread Cert.KernelIdeal.nD Cert.KernelIdeal.τ).loc Cert.KernelIdeal.main_arg2) : Cert.KernelIdeal.S1024x1024.Idx → EReal) = Cert.Spec.arr2 a.wq
      ∧ (m ((c.tc : Thread Cert.KernelIdeal.nD Cert.KernelIdeal.τ).loc Cert.KernelIdeal.main_arg3) : Cert.KernelIdeal.S1024x1024.Idx → EReal) = Cert.Spec.arr2 a.wk
      ∧ (m ((c.tc : Thread Cert.KernelIdeal.nD Cert.KernelIdeal.τ).loc Cert.KernelIdeal.main_arg4) : Cert.KernelIdeal.S1024x1024.Idx → EReal) = Cert.Spec.arr2 a.wv :=
    fun c => Cert.Finite.args_of_pre _ _ _ _ _ (hpre c)
  choose a ha using hargs
  refine ⟨fun c => Cert.Spec.G (a c), ?_, ?_⟩
  · refine (θ_run Cert.KernelIdeal.defs _ _).mono (fun r h c => ?_) (Cert.KernelIdeal.Hand.run_value m ρ)
    obtain ⟨h7, h0, h1, h2, h3, h4⟩ := h c
    obtain ⟨e0, e1, e2, e3, e4⟩ := ha c
    exact ⟨h7.trans (Cert.KernelIdeal.HandVal.kernel_value m (a c) c e0 e1 e2 e3 e4), h0, h1, h2, h3, h4⟩
  · refine (θ_run Cert.ReferenceIdeal.defs _ _).mono (fun r h c => ⟨?_, (h c).2⟩) (Cert.ReferenceIdeal.Value.run (F := Ideal) m' ρ')
    obtain ⟨e0, e1, e2, e3, e4⟩ := ha c
    obtain ⟨g0, g1, g2, g3, g4⟩ := hagree c
    rw [(h c).1, Cert.ReferenceIdeal.Read.val_main_v19_eq]
    exact Cert.RefSide.ref_eq_of (a c) _ _ _ _ _ (g0.trans e0) (g1.trans e1) (g2.trans e2) (g3.trans e3) (g4.trans e4)

theorem claim : Cert.Claim :=
  ⟨Cert.Kernel.Gen.facts, Cert.KernelIdeal.Gen.facts, Cert.ReferenceIdeal.Gen.facts, Cert.Pre_finite_inputs.Gen.facts,
    @frame_k Cert.Pre_finite_inputs.Gen.facts Cert.Kernel.Gen.facts,
    @frame_ki Cert.Pre_finite_inputs.Gen.facts Cert.KernelIdeal.Gen.facts,
    @frame_ri Cert.Pre_finite_inputs.Gen.facts Cert.ReferenceIdeal.Gen.facts,
    preserves,
    @algebraic Cert.Pre_finite_inputs.Gen.facts Cert.KernelIdeal.Gen.facts Cert.ReferenceIdeal.Gen.facts⟩

end Cert.Proof

end
